-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S800000 : Shape := ⟨1, ![800000]⟩
abbrev S128x128 : Shape := ⟨2, ![128, 128]⟩
abbrev S128 : Shape := ⟨1, ![128]⟩
abbrev S4x128x128 : Shape := ⟨3, ![4, 128, 128]⟩
abbrev S4x128 : Shape := ⟨2, ![4, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S4x128x128 : S_.BroadcastsInDim S4x128x128 (![] : Fin 0 → Fin S4x128x128.rank)
  reducesTo_S4x128x128_S_d0_1_2 : S4x128x128.ReducesTo [0, 1, 2] S_
  bcast_S_S4x128 : S_.BroadcastsInDim S4x128 (![] : Fin 0 → Fin S4x128.rank)
  reducesTo_S4x128_S_d0_1 : S4x128.ReducesTo [0, 1] S_

variable [Facts]

def fn_part2 {F : FTy → Type} [FloatOps F] (main_arg9 : FVec F S4x128x128 .f32) (main_arg10 : FVec F S4x128 .f32) (main_v33 : IVec S_ 1) : IVec S_ 1 :=
  let main_v34 : FVec F S4x128x128 .f32 := Host.absf main_arg9
  let main_cst_12 : FVec F S_ .f32 := constant S_ .f32 0x7F800000#32
  let main_v35 : FVec F S4x128x128 .f32 := broadcastInDim S4x128x128 ![] bcast_S_S4x128x128 main_cst_12
  let main_v36 : IVec S4x128x128 1 := cmpf .olt main_v34 main_v35
  let main_c_13 : IVec S_ 1 := constantI S_ 1 1#1
  let main_v37 : IVec S_ 1 := (fun x v => Host.reduce IntOp.andi x v reducesTo_S4x128x128_S_d0_1_2 h_S_) main_v36 main_c_13
  let main_v38 : IVec S_ 1 := andi main_v33 main_v37
  let main_v39 : FVec F S4x128 .f32 := Host.absf main_arg10
  let main_cst_14 : FVec F S_ .f32 := constant S_ .f32 0x7F800000#32
  let main_v40 : FVec F S4x128 .f32 := broadcastInDim S4x128 ![] bcast_S_S4x128 main_cst_14
  let main_v41 : IVec S4x128 1 := cmpf .olt main_v39 main_v40
  let main_c_15 : IVec S_ 1 := constantI S_ 1 1#1
  let main_v42 : IVec S_ 1 := (fun x v => Host.reduce IntOp.andi x v reducesTo_S4x128_S_d0_1 h_S_) main_v41 main_c_15
  let main_v43 : IVec S_ 1 := andi main_v38 main_v42
  main_v43

def fn_part1 {F : FTy → Type} [FloatOps F] (main_arg6 : FVec F S4x128 .f32) (main_arg7 : FVec F S4x128 .f32) (main_arg8 : FVec F S4x128 .f32) (main_arg9 : FVec F S4x128x128 .f32) (main_arg10 : FVec F S4x128 .f32) (main_v13 : IVec S_ 1) (main_v16 : IVec S4x128x128 1) : IVec S_ 1 :=
  let main_c_5 : IVec S_ 1 := constantI S_ 1 1#1
  let main_v17 : IVec S_ 1 := (fun x v => Host.reduce IntOp.andi x v reducesTo_S4x128x128_S_d0_1_2 h_S_) main_v16 main_c_5
  let main_v18 : IVec S_ 1 := andi main_v13 main_v17
  let main_v19 : FVec F S4x128 .f32 := Host.absf main_arg6
  let main_cst_6 : FVec F S_ .f32 := constant S_ .f32 0x7F800000#32
  let main_v20 : FVec F S4x128 .f32 := broadcastInDim S4x128 ![] bcast_S_S4x128 main_cst_6
  let main_v21 : IVec S4x128 1 := cmpf .olt main_v19 main_v20
  let main_c_7 : IVec S_ 1 := constantI S_ 1 1#1
  let main_v22 : IVec S_ 1 := (fun x v => Host.reduce IntOp.andi x v reducesTo_S4x128_S_d0_1 h_S_) main_v21 main_c_7
  let main_v23 : IVec S_ 1 := andi main_v18 main_v22
  let main_v24 : FVec F S4x128 .f32 := Host.absf main_arg7
  let main_cst_8 : FVec F S_ .f32 := constant S_ .f32 0x7F800000#32
  let main_v25 : FVec F S4x128 .f32 := broadcastInDim S4x128 ![] bcast_S_S4x128 main_cst_8
  let main_v26 : IVec S4x128 1 := cmpf .olt main_v24 main_v25
  let main_c_9 : IVec S_ 1 := constantI S_ 1 1#1
  let main_v27 : IVec S_ 1 := (fun x v => Host.reduce IntOp.andi x v reducesTo_S4x128_S_d0_1 h_S_) main_v26 main_c_9
  let main_v28 : IVec S_ 1 := andi main_v23 main_v27
  let main_v29 : FVec F S4x128 .f32 := Host.absf main_arg8
  let main_cst_10 : FVec F S_ .f32 := constant S_ .f32 0x7F800000#32
  let main_v30 : FVec F S4x128 .f32 := broadcastInDim S4x128 ![] bcast_S_S4x128 main_cst_10
  let main_v31 : IVec S4x128 1 := cmpf .olt main_v29 main_v30
  let main_c_11 : IVec S_ 1 := constantI S_ 1 1#1
  let main_v32 : IVec S_ 1 := (fun x v => Host.reduce IntOp.andi x v reducesTo_S4x128_S_d0_1 h_S_) main_v31 main_c_11
  let main_v33 : IVec S_ 1 := andi main_v28 main_v32
  fn_part2 (F := F) main_arg9 main_arg10 main_v33

def fn {F : FTy → Type} [FloatOps F] (main_arg0 : FVec F S50000x128 .f32) (main_arg1 : IVec S2x800000 32) (main_arg2 : IVec S800000 32) (main_arg3 : FVec F S128x128 .f32) (main_arg4 : FVec F S128 .f32) (main_arg5 : FVec F S4x128x128 .f32) (main_arg6 : FVec F S4x128 .f32) (main_arg7 : FVec F S4x128 .f32) (main_arg8 : FVec F S4x128 .f32) (main_arg9 : FVec F S4x128x128 .f32) (main_arg10 : FVec F S4x128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S4x128x128 .f32 := Host.absf main_arg5
  let main_cst_4 : FVec F S_ .f32 := constant S_ .f32 0x7F800000#32
  let main_v15 : FVec F S4x128x128 .f32 := broadcastInDim S4x128x128 ![] bcast_S_S4x128x128 main_cst_4
  let main_v16 : IVec S4x128x128 1 := cmpf .olt main_v14 main_v15
  fn_part1 (F := F) main_arg6 main_arg7 main_arg8 main_arg9 main_arg10 main_v13 main_v16
-- ==== Kernel.lean ====
abbrev S50000x128 : Shape := ⟨2, ![50000, 128]⟩
abbrev S2x800000 : Shape := ⟨2, ![2, 800000]⟩
abbrev S800000 : Shape := ⟨1, ![800000]⟩
abbrev S128x128 : Shape := ⟨2, ![128, 128]⟩
abbrev S128 : Shape := ⟨1, ![128]⟩
abbrev S4x128x128 : Shape := ⟨3, ![4, 128, 128]⟩
abbrev S4x128 : Shape := ⟨2, ![4, 128]⟩
abbrev S1x800000 : Shape := ⟨2, ![1, 800000]⟩
abbrev S_ : Shape := ⟨0, ![]⟩
abbrev S800000x1 : Shape := ⟨2, ![800000, 1]⟩
abbrev S800000x128 : Shape := ⟨2, ![800000, 128]⟩
abbrev S200000x128 : Shape := ⟨2, ![200000, 128]⟩
abbrev S4x50000x128 : Shape := ⟨3, ![4, 50000, 128]⟩
abbrev S4x1x128 : Shape := ⟨3, ![4, 1, 128]⟩
abbrev S1x128 : Shape := ⟨2, ![1, 128]⟩
abbrev S25x4x1x128 : Shape := ⟨4, ![25, 4, 1, 128]⟩
abbrev S2000x128 : Shape := ⟨2, ![2000, 128]⟩
abbrev S4x2000x128 : Shape := ⟨3, ![4, 2000, 128]⟩
abbrev S1x4x1x128 : Shape := ⟨4, ![1, 4, 1, 128]⟩
abbrev S1x2000x128 : Shape := ⟨3, ![1, 2000, 128]⟩
abbrev S1x128x128 : Shape := ⟨3, ![1, 128, 128]⟩
abbrev S1x1x128 : Shape := ⟨3, ![1, 1, 128]⟩
abbrev S1x1x1x128 : Shape := ⟨4, ![1, 1, 1, 128]⟩

abbrev nBuf : Space → Nat
  | .hbm => 57
  | .vmem => 26
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000, .i32⟩
  | .hbm, ⟨3, _⟩ => ⟨S128x128, .f32⟩
  | .hbm, ⟨4, _⟩ => ⟨S128, .f32⟩
  | .hbm, ⟨5, _⟩ => ⟨S4x128x128, .f32⟩
  | .hbm, ⟨6, _⟩ => ⟨S4x128, .f32⟩
  | .hbm, ⟨7, _⟩ => ⟨S4x128, .f32⟩
  | .hbm, ⟨8, _⟩ => ⟨S4x128, .f32⟩
  | .hbm, ⟨9, _⟩ => ⟨S4x128x128, .f32⟩
  | .hbm, ⟨10, _⟩ => ⟨S4x128, .f32⟩
  | .hbm, ⟨11, _⟩ => ⟨S1x800000, .i32⟩
  | .hbm, ⟨12, _⟩ => ⟨S800000, .i32⟩
  | .hbm, ⟨13, _⟩ => ⟨S1x800000, .i32⟩
  | .hbm, ⟨14, _⟩ => ⟨S800000, .i32⟩
  | .hbm, ⟨15, _⟩ => ⟨S_, .i32⟩
  | .hbm, ⟨16, _⟩ => ⟨S800000, .i32⟩
  | .hbm, ⟨17, _⟩ => ⟨S800000, .i1⟩
  | .hbm, ⟨18, _⟩ => ⟨S_, .i32⟩
  | .hbm, ⟨19, _⟩ => ⟨S800000, .i32⟩
  | .hbm, ⟨20, _⟩ => ⟨S800000, .i32⟩
  | .hbm, ⟨21, _⟩ => ⟨S800000, .i32⟩
  | .hbm, ⟨22, _⟩ => ⟨S800000x1, .i32⟩
  | .hbm, ⟨23, _⟩ => ⟨S800000x128, .f32⟩
  | .hbm, ⟨24, _⟩ => ⟨S_, .i32⟩
  | .hbm, ⟨25, _⟩ => ⟨S800000, .i32⟩
  | .hbm, ⟨26, _⟩ => ⟨S800000, .i32⟩
  | .hbm, ⟨27, _⟩ => ⟨S800000, .i32⟩
  | .hbm, ⟨28, _⟩ => ⟨S_, .f32⟩
  | .hbm, ⟨29, _⟩ => ⟨S200000x128, .f32⟩
  | .hbm, ⟨30, _⟩ => ⟨S800000x1, .i32⟩
  | .hbm, ⟨31, _⟩ => ⟨S200000x128, .f32⟩
  | .hbm, ⟨32, _⟩ => ⟨S4x50000x128, .f32⟩
  | .hbm, ⟨33, _⟩ => ⟨S4x1x128, .f32⟩
  | .hbm, ⟨34, _⟩ => ⟨S4x1x128, .f32⟩
  | .hbm, ⟨35, _⟩ => ⟨S4x1x128, .f32⟩
  | .hbm, ⟨36, _⟩ => ⟨S4x1x128, .f32⟩
  | .hbm, ⟨37, _⟩ => ⟨S1x128, .f32⟩
  | .hbm, ⟨38, _⟩ => ⟨S4x50000x128, .bf16⟩
  | .hbm, ⟨39, _⟩ => ⟨S25x4x1x128, .f32⟩
  | .hbm, ⟨40, _⟩ => ⟨S25x4x1x128, .f32⟩
  | .hbm, ⟨41, _⟩ => ⟨S_, .f32⟩
  | .hbm, ⟨42, _⟩ => ⟨S4x1x128, .f32⟩
  | .hbm, ⟨43, _⟩ => ⟨S_, .f32⟩
  | .hbm, ⟨44, _⟩ => ⟨S4x1x128, .f32⟩
  | .hbm, ⟨45, _⟩ => ⟨S_, .f32⟩
  | .hbm, ⟨46, _⟩ => ⟨S4x1x128, .f32⟩
  | .hbm, ⟨47, _⟩ => ⟨S4x1x128, .f32⟩
  | .hbm, ⟨48, _⟩ => ⟨S_, .f32⟩
  | .hbm, ⟨49, _⟩ => ⟨S4x1x128, .f32⟩
  | .hbm, ⟨50, _⟩ => ⟨S4x1x128, .f32⟩
  | .hbm, ⟨51, _⟩ => ⟨S4x1x128, .f32⟩
  | .hbm, ⟨52, _⟩ => ⟨S4x1x128, .f32⟩
  | .hbm, ⟨53, _⟩ => ⟨S_, .f32⟩
  | .hbm, ⟨54, _⟩ => ⟨S4x1x128, .f32⟩
  | .hbm, ⟨55, _⟩ => ⟨S4x1x128, .f32⟩
  | .hbm, ⟨56, _⟩ => ⟨S50000x128, .f32⟩
  | .local _ .vmem, ⟨0, _⟩ => ⟨S2000x128, .f32⟩
  | .local _ .vmem, ⟨1, _⟩ => ⟨S2000x128, .f32⟩
  | .local _ .vmem, ⟨2, _⟩ => ⟨S4x2000x128, .f32⟩
  | .local _ .vmem, ⟨3, _⟩ => ⟨S4x2000x128, .f32⟩
  | .local _ .vmem, ⟨4, _⟩ => ⟨S4x128x128, .f32⟩
  | .local _ .vmem, ⟨5, _⟩ => ⟨S4x1x128, .f32⟩
  | .local _ .vmem, ⟨6, _⟩ => ⟨S4x2000x128, .bf16⟩
  | .local _ .vmem, ⟨7, _⟩ => ⟨S4x2000x128, .bf16⟩
  | .local _ .vmem, ⟨8, _⟩ => ⟨S1x4x1x128, .f32⟩
  | .local _ .vmem, ⟨9, _⟩ => ⟨S1x4x1x128, .f32⟩
  | .local _ .vmem, ⟨10, _⟩ => ⟨S1x4x1x128, .f32⟩
  | .local _ .vmem, ⟨11, _⟩ => ⟨S1x4x1x128, .f32⟩
  | .local _ .vmem, ⟨12, _⟩ => ⟨S2000x128, .f32⟩
  | .local _ .vmem, ⟨13, _⟩ => ⟨S2000x128, .f32⟩
  | .local _ .vmem, ⟨14, _⟩ => ⟨S4x2000x128, .bf16⟩
  | .local _ .vmem, ⟨15, _⟩ => ⟨S4x2000x128, .bf16⟩
  | .local _ .vmem, ⟨16, _⟩ => ⟨S4x1x128, .f32⟩
  | .local _ .vmem, ⟨17, _⟩ => ⟨S4x1x128, .f32⟩
  | .local _ .vmem, ⟨18, _⟩ => ⟨S4x1x128, .f32⟩
  | .local _ .vmem, ⟨19, _⟩ => ⟨S4x1x128, .f32⟩
  | .local _ .vmem, ⟨20, _⟩ => ⟨S4x128x128, .f32⟩
  | .local _ .vmem, ⟨21, _⟩ => ⟨S4x1x128, .f32⟩
  | .local _ .vmem, ⟨22, _⟩ => ⟨S128x128, .f32⟩
  | .local _ .vmem, ⟨23, _⟩ => ⟨S1x128, .f32⟩
  | .local _ .vmem, ⟨24, _⟩ => ⟨S2000x128, .f32⟩
  | .local _ .vmem, ⟨25, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_c_1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23_0 : Ref sig .tc := ⟨.hbm, 38, rfl⟩
abbrev main_v23_1 : Ref sig .tc := ⟨.hbm, 39, rfl⟩
abbrev main_v23_2 : Ref sig .tc := ⟨.hbm, 40, rfl⟩
abbrev main_cst_2 : Ref sig .tc := ⟨.hbm, 41, rfl⟩
abbrev main_v24 : Ref sig .tc := ⟨.hbm, 42, rfl⟩
abbrev main_cst_3 : Ref sig .tc := ⟨.hbm, 43, rfl⟩
abbrev main_v25 : Ref sig .tc := ⟨.hbm, 44, rfl⟩
abbrev main_cst_4 : Ref sig .tc := ⟨.hbm, 45, rfl⟩
abbrev main_v26 : Ref sig .tc := ⟨.hbm, 46, rfl⟩
abbrev main_v27 : Ref sig .tc := ⟨.hbm, 47, rfl⟩
abbrev main_cst_5 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_cst_6 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg7_0 : Ref sig .tc := ⟨.vmem, 21, rfl⟩
abbrev cc1_stg8_0 : Ref sig .tc := ⟨.vmem, 22, rfl⟩
abbrev cc1_stg9_0 : Ref sig .tc := ⟨.vmem, 23, rfl⟩
abbrev cc1_stg10_0 : Ref sig .tc := ⟨.vmem, 24, rfl⟩
abbrev cc1_stg10_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem7_0 : DmaSem sig := 21
abbrev cc1_sem8_0 : DmaSem sig := 22
abbrev cc1_sem9_0 : DmaSem sig := 23
abbrev cc1_sem10_0 : DmaSem sig := 24
abbrev cc1_sem10_1 : DmaSem sig := 25

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S4x2000x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x4x1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x4x1x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_6 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_7 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4x2000x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S4x1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S4x1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S4x1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S4x1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S4x128x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S4x1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S128x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 2 → Memref sig .tc .vmem S2000x128 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S200000x128 : S_.BroadcastsInDim S200000x128 (![] : Fin 0 → Fin S200000x128.rank)
  shapeCasts_S200000x128_S4x50000x128 : S200000x128.ShapeCasts S4x50000x128
  shapeCasts_S4x128_S4x1x128 : S4x128.ShapeCasts S4x1x128
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  inb_S4x2000x128_S1x2000x128_0_0_0 : ∀ a, (![0, 0, 0] : Fin 3 → Nat) a + S1x2000x128.size a ≤ S4x2000x128.size a
  h_S1x2000x128 : 0 < S1x2000x128.numel
  shapeCasts_S1x2000x128_S2000x128 : S1x2000x128.ShapeCasts S2000x128
  inb_S4x128x128_S1x128x128_0_0_0 : ∀ a, (![0, 0, 0] : Fin 3 → Nat) a + S1x128x128.size a ≤ S4x128x128.size a
  h_S1x128x128 : 0 < S1x128x128.numel
  shapeCasts_S1x128x128_S128x128 : S1x128x128.ShapeCasts S128x128
  inb_S4x1x128_S1x1x128_0_0_0 : ∀ a, (![0, 0, 0] : Fin 3 → Nat) a + S1x1x128.size a ≤ S4x1x128.size a
  h_S1x1x128 : 0 < S1x1x128.numel
  shapeCasts_S1x1x128_S1x128 : S1x1x128.ShapeCasts S1x128
  bitsLt_bf16_f32 : FTy.bits .bf16 < FTy.bits .f32
  broadcasts_S1x128_S2000x128 : S1x128.Broadcasts S2000x128
  shapeCasts_S2000x128_S1x2000x128 : S2000x128.ShapeCasts S1x2000x128
  packedbf16_S4x2000x128_S1x2000x128_0_0_0 : (Rect.unit (s := S4x2000x128) ![0, 0, 0] S1x2000x128.size inb_S4x2000x128_S1x2000x128_0_0_0).PackedRows (EltTy.packing .bf16)
  reduces_S2000x128_S128 : S2000x128.Reduces [0] S128
  inb_S1x4x1x128_S1x1x1x128_0_0_0_0 : ∀ a, (![0, 0, 0, 0] : Fin 4 → Nat) a + S1x1x1x128.size a ≤ S1x4x1x128.size a
  h_S1x1x1x128 : 0 < S1x1x1x128.numel
  shapeCasts_S1x1x1x128_S1x128 : S1x1x1x128.ShapeCasts S1x128
  shapeCasts_S1x128_S1x1x1x128 : S1x128.ShapeCasts S1x1x1x128
  inb_S4x2000x128_S1x2000x128_1_0_0 : ∀ a, (![1, 0, 0] : Fin 3 → Nat) a + S1x2000x128.size a ≤ S4x2000x128.size a
  inb_S4x128x128_S1x128x128_1_0_0 : ∀ a, (![1, 0, 0] : Fin 3 → Nat) a + S1x128x128.size a ≤ S4x128x128.size a
  inb_S4x1x128_S1x1x128_1_0_0 : ∀ a, (![1, 0, 0] : Fin 3 → Nat) a + S1x1x128.size a ≤ S4x1x128.size a
  packedbf16_S4x2000x128_S1x2000x128_1_0_0 : (Rect.unit (s := S4x2000x128) ![1, 0, 0] S1x2000x128.size inb_S4x2000x128_S1x2000x128_1_0_0).PackedRows (EltTy.packing .bf16)
  inb_S1x4x1x128_S1x1x1x128_0_1_0_0 : ∀ a, (![0, 1, 0, 0] : Fin 4 → Nat) a + S1x1x1x128.size a ≤ S1x4x1x128.size a
  inb_S4x2000x128_S1x2000x128_2_0_0 : ∀ a, (![2, 0, 0] : Fin 3 → Nat) a + S1x2000x128.size a ≤ S4x2000x128.size a
  inb_S4x128x128_S1x128x128_2_0_0 : ∀ a, (![2, 0, 0] : Fin 3 → Nat) a + S1x128x128.size a ≤ S4x128x128.size a
  inb_S4x1x128_S1x1x128_2_0_0 : ∀ a, (![2, 0, 0] : Fin 3 → Nat) a + S1x1x128.size a ≤ S4x1x128.size a
  packedbf16_S4x2000x128_S1x2000x128_2_0_0 : (Rect.unit (s := S4x2000x128) ![2, 0, 0] S1x2000x128.size inb_S4x2000x128_S1x2000x128_2_0_0).PackedRows (EltTy.packing .bf16)
  inb_S1x4x1x128_S1x1x1x128_0_2_0_0 : ∀ a, (![0, 2, 0, 0] : Fin 4 → Nat) a + S1x1x1x128.size a ≤ S1x4x1x128.size a
  inb_S4x2000x128_S1x2000x128_3_0_0 : ∀ a, (![3, 0, 0] : Fin 3 → Nat) a + S1x2000x128.size a ≤ S4x2000x128.size a
  inb_S4x128x128_S1x128x128_3_0_0 : ∀ a, (![3, 0, 0] : Fin 3 → Nat) a + S1x128x128.size a ≤ S4x128x128.size a
  inb_S4x1x128_S1x1x128_3_0_0 : ∀ a, (![3, 0, 0] : Fin 3 → Nat) a + S1x1x128.size a ≤ S4x1x128.size a
  packedbf16_S4x2000x128_S1x2000x128_3_0_0 : (Rect.unit (s := S4x2000x128) ![3, 0, 0] S1x2000x128.size inb_S4x2000x128_S1x2000x128_3_0_0).PackedRows (EltTy.packing .bf16)
  inb_S1x4x1x128_S1x1x1x128_0_3_0_0 : ∀ a, (![0, 3, 0, 0] : Fin 4 → Nat) a + S1x1x1x128.size a ≤ S1x4x1x128.size a
  reducesTo_S25x4x1x128_S4x1x128_d0 : S25x4x1x128.ReducesTo [0] S4x1x128
  h_S_ : 0 < S_.numel
  bcast_S_S4x1x128 : S_.BroadcastsInDim S4x1x128 (![] : Fin 0 → Fin S4x1x128.rank)
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  gather_S50000x128_S800000x1_S800000x128_1_0_n_n_0_1_1128_wf : GatherDims.WF S50000x128 S800000x1 S800000x128 [1] [0] [] [0] [] 1 ![1, 128]
  scatter_S200000x128_S800000x1_S800000x128_1_0_0_1_wf : ScatterDims.WF S200000x128 S800000x1 S800000x128 [1] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x2000x128.size a ≤ S4x50000x128.size a
  hwx0_1 : ∀ i : grid0.Coords, EltTy.bits .f32 = 32 ∨ (Rect.block (s := S4x50000x128) S4x2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4x128x128.size a ≤ S4x128x128.size a
  hwx0_2 : ∀ i : grid0.Coords, EltTy.bits .f32 = 32 ∨ (Rect.block (s := S4x128x128) S4x128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4x1x128.size a ≤ S4x1x128.size a
  hwx0_3 : ∀ i : grid0.Coords, EltTy.bits .f32 = 32 ∨ (Rect.block (s := S4x1x128) S4x1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4x2000x128.size a ≤ S4x50000x128.size a
  hwx0_4 : ∀ i : grid0.Coords, EltTy.bits .bf16 = 32 ∨ (Rect.block (s := S4x50000x128) S4x2000x128.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x4x1x128.size a ≤ S25x4x1x128.size a
  hwx0_5 : ∀ i : grid0.Coords, EltTy.bits .f32 = 32 ∨ (Rect.block (s := S25x4x1x128) S1x4x1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x4x1x128.size a ≤ S25x4x1x128.size a
  hwx0_6 : ∀ i : grid0.Coords, EltTy.bits .f32 = 32 ∨ (Rect.block (s := S25x4x1x128) S1x4x1x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4x2000x128.size a ≤ S4x50000x128.size a
  hwx1_1 : ∀ i : grid1.Coords, EltTy.bits .bf16 = 32 ∨ (Rect.block (s := S4x50000x128) S4x2000x128.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S4x1x128.size a ≤ S4x1x128.size a
  hwx1_2 : ∀ i : grid1.Coords, EltTy.bits .f32 = 32 ∨ (Rect.block (s := S4x1x128) S4x1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S4x1x128.size a ≤ S4x1x128.size a
  hwx1_3 : ∀ i : grid1.Coords, EltTy.bits .f32 = 32 ∨ (Rect.block (s := S4x1x128) S4x1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S4x1x128.size a ≤ S4x1x128.size a
  hwx1_4 : ∀ i : grid1.Coords, EltTy.bits .f32 = 32 ∨ (Rect.block (s := S4x1x128) S4x1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S4x1x128.size a ≤ S4x1x128.size a
  hwx1_5 : ∀ i : grid1.Coords, EltTy.bits .f32 = 32 ∨ (Rect.block (s := S4x1x128) S4x1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S4x128x128.size a ≤ S4x128x128.size a
  hwx1_6 : ∀ i : grid1.Coords, EltTy.bits .f32 = 32 ∨ (Rect.block (s := S4x128x128) S4x128x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S4x1x128.size a ≤ S4x1x128.size a
  hwx1_7 : ∀ i : grid1.Coords, EltTy.bits .f32 = 32 ∨ (Rect.block (s := S4x1x128) S4x1x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S128x128.size a ≤ S128x128.size a
  hwx1_8 : ∀ i : grid1.Coords, EltTy.bits .f32 = 32 ∨ (Rect.block (s := S128x128) S128x128.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x128.size a ≤ S1x128.size a
  hwx1_9 : ∀ i : grid1.Coords, EltTy.bits .f32 = 32 ∨ (Rect.block (s := S1x128) S1x128.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S2000x128.size a ≤ S50000x128.size a
  hwx1_10 : ∀ i : grid1.Coords, EltTy.bits .f32 = 32 ∨ (Rect.block (s := S50000x128) S2000x128.size (cc1_transform_10 i) (hinb1_10 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S200000x128_S800000x1_S800000x128_1_0_0_1 : ScatterDims S200000x128 S800000x1 S800000x128 where
  updateWindowDims := [1]
  insertedWindowDims := [0]
  scatterDimsToOperandDims := [0]
  indexVectorDim := 1
  wf := scatter_S200000x128_S800000x1_S800000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S4x2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S4x128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v18) S4x1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v23_0) S4x2000x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v23_1) S1x4x1x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v23_2) S1x4x1x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_arg0) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v23_0) S4x2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v27) S4x1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v33) S4x1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v19) S4x1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v20) S4x1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg9) S4x128x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v21) S4x1x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg3) S128x128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v22) S1x128.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v34) S2000x128.size cc1_transform_10 reads1_10 true false 2 stage1_10 sem1_10
    hrank1 hreads1_10 hinb1_10 nbuf1_10 (Memref.isWhole_whole _) hwx1_10 hstage1_10

abbrev win1 : Fin 11 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | ⟨_ + 11, h⟩ => absurd h (Nat.not_lt.2 (Nat.le_add_left _ _))
abbrev spec1 : Fin 11 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S800000 : Shape := ⟨1, ![800000]⟩
abbrev S128x128 : Shape := ⟨2, ![128, 128]⟩
abbrev S128 : Shape := ⟨1, ![128]⟩
abbrev S4x128x128 : Shape := ⟨3, ![4, 128, 128]⟩
abbrev S4x128 : Shape := ⟨2, ![4, 128]⟩
abbrev S1x800000 : Shape := ⟨2, ![1, 800000]⟩
abbrev S_ : Shape := ⟨0, ![]⟩
abbrev S800000x1 : Shape := ⟨2, ![800000, 1]⟩
abbrev S800000x128 : Shape := ⟨2, ![800000, 128]⟩
abbrev S200000x128 : Shape := ⟨2, ![200000, 128]⟩
abbrev S4x50000x128 : Shape := ⟨3, ![4, 50000, 128]⟩
abbrev S1x50000x128 : Shape := ⟨3, ![1, 50000, 128]⟩
abbrev S4x1x128 : Shape := ⟨3, ![4, 1, 128]⟩
abbrev S1x128 : Shape := ⟨2, ![1, 128]⟩

abbrev nBuf : Space → Nat
  | .hbm => 98
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000, .i32⟩
  | .hbm, ⟨3, _⟩ => ⟨S128x128, .f32⟩
  | .hbm, ⟨4, _⟩ => ⟨S128, .f32⟩
  | .hbm, ⟨5, _⟩ => ⟨S4x128x128, .f32⟩
  | .hbm, ⟨6, _⟩ => ⟨S4x128, .f32⟩
  | .hbm, ⟨7, _⟩ => ⟨S4x128, .f32⟩
  | .hbm, ⟨8, _⟩ => ⟨S4x128, .f32⟩
  | .hbm, ⟨9, _⟩ => ⟨S4x128x128, .f32⟩
  | .hbm, ⟨10, _⟩ => ⟨S4x128, .f32⟩
  | .hbm, ⟨11, _⟩ => ⟨S1x800000, .i32⟩
  | .hbm, ⟨12, _⟩ => ⟨S800000, .i32⟩
  | .hbm, ⟨13, _⟩ => ⟨S1x800000, .i32⟩
  | .hbm, ⟨14, _⟩ => ⟨S800000, .i32⟩
  | .hbm, ⟨15, _⟩ => ⟨S_, .i32⟩
  | .hbm, ⟨16, _⟩ => ⟨S800000, .i32⟩
  | .hbm, ⟨17, _⟩ => ⟨S800000, .i1⟩
  | .hbm, ⟨18, _⟩ => ⟨S_, .i32⟩
  | .hbm, ⟨19, _⟩ => ⟨S800000, .i32⟩
  | .hbm, ⟨20, _⟩ => ⟨S800000, .i32⟩
  | .hbm, ⟨21, _⟩ => ⟨S800000, .i32⟩
  | .hbm, ⟨22, _⟩ => ⟨S800000x1, .i32⟩
  | .hbm, ⟨23, _⟩ => ⟨S800000x128, .f32⟩
  | .hbm, ⟨24, _⟩ => ⟨S_, .i32⟩
  | .hbm, ⟨25, _⟩ => ⟨S800000, .i32⟩
  | .hbm, ⟨26, _⟩ => ⟨S800000, .i32⟩
  | .hbm, ⟨27, _⟩ => ⟨S800000, .i32⟩
  | .hbm, ⟨28, _⟩ => ⟨S_, .f32⟩
  | .hbm, ⟨29, _⟩ => ⟨S200000x128, .f32⟩
  | .hbm, ⟨30, _⟩ => ⟨S800000x1, .i32⟩
  | .hbm, ⟨31, _⟩ => ⟨S200000x128, .f32⟩
  | .hbm, ⟨32, _⟩ => ⟨S4x50000x128, .f32⟩
  | .hbm, ⟨33, _⟩ => ⟨S1x50000x128, .f32⟩
  | .hbm, ⟨34, _⟩ => ⟨S4x50000x128, .f32⟩
  | .hbm, ⟨35, _⟩ => ⟨S4x50000x128, .f32⟩
  | .hbm, ⟨36, _⟩ => ⟨S4x50000x128, .f32⟩
  | .hbm, ⟨37, _⟩ => ⟨S4x1x128, .f32⟩
  | .hbm, ⟨38, _⟩ => ⟨S4x50000x128, .f32⟩
  | .hbm, ⟨39, _⟩ => ⟨S4x50000x128, .f32⟩
  | .hbm, ⟨40, _⟩ => ⟨S_, .f32⟩
  | .hbm, ⟨41, _⟩ => ⟨S4x128, .f32⟩
  | .hbm, ⟨42, _⟩ => ⟨S4x1x128, .f32⟩
  | .hbm, ⟨43, _⟩ => ⟨S_, .f32⟩
  | .hbm, ⟨44, _⟩ => ⟨S4x1x128, .f32⟩
  | .hbm, ⟨45, _⟩ => ⟨S4x1x128, .f32⟩
  | .hbm, ⟨46, _⟩ => ⟨S_, .i32⟩
  | .hbm, ⟨47, _⟩ => ⟨S_, .f32⟩
  | .hbm, ⟨48, _⟩ => ⟨S4x128, .f32⟩
  | .hbm, ⟨49, _⟩ => ⟨S4x1x128, .f32⟩
  | .hbm, ⟨50, _⟩ => ⟨S_, .f32⟩
  | .hbm, ⟨51, _⟩ => ⟨S4x1x128, .f32⟩
  | .hbm, ⟨52, _⟩ => ⟨S4x1x128, .f32⟩
  | .hbm, ⟨53, _⟩ => ⟨S4x50000x128, .f32⟩
  | .hbm, ⟨54, _⟩ => ⟨S4x50000x128, .f32⟩
  | .hbm, ⟨55, _⟩ => ⟨S4x50000x128, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S4x128, .f32⟩
  | .hbm, ⟨61, _⟩ => ⟨S4x1x128, .f32⟩
  | .hbm, ⟨62, _⟩ => ⟨S4x1x128, .f32⟩
  | .hbm, ⟨63, _⟩ => ⟨S4x1x128, .f32⟩
  | .hbm, ⟨64, _⟩ => ⟨S_, .f32⟩
  | .hbm, ⟨65, _⟩ => ⟨S_, .i1⟩
  | .hbm, ⟨66, _⟩ => ⟨S_, .f32⟩
  | .hbm, ⟨67, _⟩ => ⟨S_, .f32⟩
  | .hbm, ⟨68, _⟩ => ⟨S4x1x128, .f32⟩
  | .hbm, ⟨69, _⟩ => ⟨S4x1x128, .f32⟩
  | .hbm, ⟨70, _⟩ => ⟨S4x50000x128, .f32⟩
  | .hbm, ⟨71, _⟩ => ⟨S4x50000x128, .f32⟩
  | .hbm, ⟨72, _⟩ => ⟨S_, .f32⟩
  | .hbm, ⟨73, _⟩ => ⟨S4x1x128, .f32⟩
  | .hbm, ⟨74, _⟩ => ⟨S4x1x128, .f32⟩
  | .hbm, ⟨75, _⟩ => ⟨S4x1x128, .f32⟩
  | .hbm, ⟨76, _⟩ => ⟨S4x50000x128, .f32⟩
  | .hbm, ⟨77, _⟩ => ⟨S4x50000x128, .f32⟩
  | .hbm, ⟨78, _⟩ => ⟨S4x1x128, .f32⟩
  | .hbm, ⟨79, _⟩ => ⟨S4x50000x128, .f32⟩
  | .hbm, ⟨80, _⟩ => ⟨S4x50000x128, .f32⟩
  | .hbm, ⟨81, _⟩ => ⟨S4x1x128, .f32⟩
  | .hbm, ⟨82, _⟩ => ⟨S4x50000x128, .f32⟩
  | .hbm, ⟨83, _⟩ => ⟨S4x50000x128, .f32⟩
  | .hbm, ⟨84, _⟩ => ⟨S_, .f32⟩
  | .hbm, ⟨85, _⟩ => ⟨S4x50000x128, .f32⟩
  | .hbm, ⟨86, _⟩ => ⟨S4x50000x128, .f32⟩
  | .hbm, ⟨87, _⟩ => ⟨S4x50000x128, .f32⟩
  | .hbm, ⟨88, _⟩ => ⟨S4x1x128, .f32⟩
  | .hbm, ⟨89, _⟩ => ⟨S4x50000x128, .f32⟩
  | .hbm, ⟨90, _⟩ => ⟨S4x50000x128, .f32⟩
  | .hbm, ⟨91, _⟩ => ⟨S50000x128, .f32⟩
  | .hbm, ⟨92, _⟩ => ⟨S1x128, .f32⟩
  | .hbm, ⟨93, _⟩ => ⟨S50000x128, .f32⟩
  | .hbm, ⟨94, _⟩ => ⟨S50000x128, .f32⟩
  | .hbm, ⟨95, _⟩ => ⟨S_, .f32⟩
  | .hbm, ⟨96, _⟩ => ⟨S50000x128, .f32⟩
  | .hbm, ⟨97, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_c_1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_2 : Ref sig .tc := ⟨.hbm, 40, rfl⟩
abbrev main_v25 : Ref sig .tc := ⟨.hbm, 41, rfl⟩
abbrev main_v26 : Ref sig .tc := ⟨.hbm, 42, rfl⟩
abbrev main_cst_3 : Ref sig .tc := ⟨.hbm, 43, rfl⟩
abbrev main_v27 : Ref sig .tc := ⟨.hbm, 44, rfl⟩
abbrev main_v28 : Ref sig .tc := ⟨.hbm, 45, rfl⟩
abbrev main_c_4 : Ref sig .tc := ⟨.hbm, 46, rfl⟩
abbrev main_call0_cst : Ref sig .tc := ⟨.hbm, 47, rfl⟩
abbrev main_call0_v0 : Ref sig .tc := ⟨.hbm, 48, rfl⟩
abbrev main_call0_v1 : Ref sig .tc := ⟨.hbm, 49, rfl⟩
abbrev main_call0_cst_0 : Ref sig .tc := ⟨.hbm, 50, rfl⟩
abbrev main_call0_v2 : Ref sig .tc := ⟨.hbm, 51, rfl⟩
abbrev main_call0_v3 : Ref sig .tc := ⟨.hbm, 52, rfl⟩
abbrev main_call0_v4 : Ref sig .tc := ⟨.hbm, 53, rfl⟩
abbrev main_call0_v5 : Ref sig .tc := ⟨.hbm, 54, rfl⟩
abbrev main_call0_v6 : Ref sig .tc := ⟨.hbm, 55, rfl⟩
abbrev main_call0_v7 : Ref sig .tc := ⟨.hbm, 56, rfl⟩
abbrev main_call0_cst_1 : Ref sig .tc := ⟨.hbm, 57, rfl⟩
abbrev main_call0_v8 : Ref sig .tc := ⟨.hbm, 58, rfl⟩
abbrev main_call0_cst_2 : Ref sig .tc := ⟨.hbm, 59, rfl⟩
abbrev main_call0_v9 : Ref sig .tc := ⟨.hbm, 60, rfl⟩
abbrev main_call0_v10 : Ref sig .tc := ⟨.hbm, 61, rfl⟩
abbrev main_call0_v11 : Ref sig .tc := ⟨.hbm, 62, rfl⟩
abbrev main_call0_v12 : Ref sig .tc := ⟨.hbm, 63, rfl⟩
abbrev main_call0_cst_3 : Ref sig .tc := ⟨.hbm, 64, rfl⟩
abbrev main_call0_v13 : Ref sig .tc := ⟨.hbm, 65, rfl⟩
abbrev main_call0_cst_4 : Ref sig .tc := ⟨.hbm, 66, rfl⟩
abbrev main_call0_call0_v0 : Ref sig .tc := ⟨.hbm, 67, rfl⟩
abbrev main_call0_call0_v1 : Ref sig .tc := ⟨.hbm, 68, rfl⟩
abbrev main_v29 : Ref sig .tc := ⟨.hbm, 69, rfl⟩
abbrev main_v30 : Ref sig .tc := ⟨.hbm, 70, rfl⟩
abbrev main_v31 : Ref sig .tc := ⟨.hbm, 71, rfl⟩
abbrev main_cst_5 : Ref sig .tc := ⟨.hbm, 72, rfl⟩
abbrev main_v32 : Ref sig .tc := ⟨.hbm, 73, rfl⟩
abbrev main_v33 : Ref sig .tc := ⟨.hbm, 74, rfl⟩
abbrev main_v34 : Ref sig .tc := ⟨.hbm, 75, rfl⟩
abbrev main_v35 : Ref sig .tc := ⟨.hbm, 76, rfl⟩
abbrev main_v36 : Ref sig .tc := ⟨.hbm, 77, rfl⟩
abbrev main_v37 : Ref sig .tc := ⟨.hbm, 78, rfl⟩
abbrev main_v38 : Ref sig .tc := ⟨.hbm, 79, rfl⟩
abbrev main_v39 : Ref sig .tc := ⟨.hbm, 80, rfl⟩
abbrev main_v40 : Ref sig .tc := ⟨.hbm, 81, rfl⟩
abbrev main_v41 : Ref sig .tc := ⟨.hbm, 82, rfl⟩
abbrev main_v42 : Ref sig .tc := ⟨.hbm, 83, rfl⟩
abbrev main_call1_cst : Ref sig .tc := ⟨.hbm, 84, rfl⟩
abbrev main_call1_v0 : Ref sig .tc := ⟨.hbm, 85, rfl⟩
abbrev main_v43 : Ref sig .tc := ⟨.hbm, 86, rfl⟩
abbrev main_v44 : Ref sig .tc := ⟨.hbm, 87, rfl⟩
abbrev main_v45 : Ref sig .tc := ⟨.hbm, 88, rfl⟩
abbrev main_v46 : Ref sig .tc := ⟨.hbm, 89, rfl⟩
abbrev main_v47 : Ref sig .tc := ⟨.hbm, 90, rfl⟩
abbrev main_v48 : Ref sig .tc := ⟨.hbm, 91, rfl⟩
abbrev main_v49 : Ref sig .tc := ⟨.hbm, 92, rfl⟩
abbrev main_v50 : Ref sig .tc := ⟨.hbm, 93, rfl⟩
abbrev main_v51 : Ref sig .tc := ⟨.hbm, 94, rfl⟩
abbrev main_cst_6 : Ref sig .tc := ⟨.hbm, 95, rfl⟩
abbrev main_v52 : Ref sig .tc := ⟨.hbm, 96, rfl⟩
abbrev main_v53 : Ref sig .tc := ⟨.hbm, 97, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S200000x128 : S_.BroadcastsInDim S200000x128 (![] : Fin 0 → Fin S200000x128.rank)
  shapeCasts_S200000x128_S4x50000x128 : S200000x128.ShapeCasts S4x50000x128
  bcast_S50000x128_S1x50000x128_1_2 : S50000x128.BroadcastsInDim S1x50000x128 (![1, 2] : Fin 2 → Fin S1x50000x128.rank)
  bcast_S1x50000x128_S4x50000x128_0_1_2 : S1x50000x128.BroadcastsInDim S4x50000x128 (![0, 1, 2] : Fin 3 → Fin S4x50000x128.rank)
  bcast_S4x128_S4x1x128_0_2 : S4x128.BroadcastsInDim S4x1x128 (![0, 2] : Fin 2 → Fin S4x1x128.rank)
  bcast_S4x1x128_S4x50000x128_0_1_2 : S4x1x128.BroadcastsInDim S4x50000x128 (![0, 1, 2] : Fin 3 → Fin S4x50000x128.rank)
  reducesTo_S4x50000x128_S4x128_d1 : S4x50000x128.ReducesTo [1] S4x128
  h_S_ : 0 < S_.numel
  bcast_S_S4x1x128 : S_.BroadcastsInDim S4x1x128 (![] : Fin 0 → Fin S4x1x128.rank)
  bcast_S_S4x50000x128 : S_.BroadcastsInDim S4x50000x128 (![] : Fin 0 → Fin S4x50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S4x50000x128_S50000x128_d0 : S4x50000x128.ReducesTo [0] S50000x128
  gather_S50000x128_S800000x1_S800000x128_1_0_n_n_0_1_1128_wf : GatherDims.WF S50000x128 S800000x1 S800000x128 [1] [0] [] [0] [] 1 ![1, 128]
  scatter_S200000x128_S800000x1_S800000x128_1_0_0_1_wf : ScatterDims.WF S200000x128 S800000x1 S800000x128 [1] [0] [0] 1
  dot_S4x50000x128_S4x128x128_S4x50000x128_2_1_1_2_0_0_wf : DotDims.WF S4x50000x128 S4x128x128 S4x50000x128 [2] [1] [1] [2] [0] [0]
  dot_S50000x128_S128x128_S50000x128_1_0_0_1_n_n_wf : DotDims.WF S50000x128 S128x128 S50000x128 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S200000x128_S800000x1_S800000x128_1_0_0_1 : ScatterDims S200000x128 S800000x1 S800000x128 where
  updateWindowDims := [1]
  insertedWindowDims := [0]
  scatterDimsToOperandDims := [0]
  indexVectorDim := 1
  wf := scatter_S200000x128_S800000x1_S800000x128_1_0_0_1_wf
def dot_S4x50000x128_S4x128x128_S4x50000x128_2_1_1_2_0_0 : DotDims S4x50000x128 S4x128x128 S4x50000x128 where
  lhsContracting := [2]
  rhsContracting := [1]
  lhsNonContracting := [1]
  rhsNonContracting := [2]
  lhsBatch := [0]
  rhsBatch := [0]
  wf := dot_S4x50000x128_S4x128x128_S4x50000x128_2_1_1_2_0_0_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.KRun.lean ====
/-
  The kernel program's run with its result named.

  The program is four segments: the host operations before the first launch, the first launch, the host
  operations between the launches, the second launch. Its generated frame carries, through these segments,
  the contents of every buffer that outlives a launch, and ends with all of them at the last boundary's
  contents W4; it then keeps only the eleven argument arrays. Here the same launch keeps one buffer more:
  the result main_v34 ends at W4's contents, which is what the second launch's pipeline leaves in its
  output array.
-/
import proofs.«137962_j6932077216184_2_alg».proof.Proof.Gen.KernelIdeal.Frame

set_option maxRecDepth 16384

noncomputable section

namespace Cert.KernelIdeal.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel program terminates without a fault, with the result buffer at the
    last boundary's contents and the argument arrays as launched. -/
theorem run : θ_run defs (onTc (τ := τ) (main (F := F))) ⟨m, fun _ => 0, ρ⟩ (fun r => ∀ c : Dev nD,
      r.2.mem ((c.tc : Thread nD τ).loc main_v34) = Gen.W4 m ρ c (Proc.devRef .tc main_v34)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v34 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c)⟩)

end Cert.KernelIdeal.KRun

end
-- ==== Proof.AggK.lean ====
/-
  The per-relation neighbour sums as ONE function of the node features and the two integer arrays.

  Edge e runs from src(e) = edge_index[0, e] to dst(e) = edge_index[1, e] and has type t(e) = edge_type[e].
  The source is read as a row of x (a negative source counted from the end, then clamped into the array
  by the gather), row t(e) * 50000 + dst(e) of a 200000 x 128 array of zeros accumulates that row of x
  (an update whose row lies outside the array is dropped), and the 200000 rows are regrouped as
  4 relations x 50000 nodes. Both programs start with exactly these operations; what follows never
  opens them: it only needs that every entry is a finite sum of entries of x.
-/
import proofs.«137962_j6932077216184_2_alg».proof.KernelIdeal
import Idealize.ShloMosaic.PureOps.Ideal

noncomputable section

namespace Cert.KernelIdeal

open Idealize.ShloMosaic

variable [Facts]
open Facts₀ Facts

/-- The gather's start indices: the source of each edge, a negative one counted from the end, as a column. -/
def srcIdx (a1 : IVec S2x800000 32) : IVec S800000x1 32 :=
  broadcastInDim S800000x1 ![0] bcast_S800000_S800000x1_0
    (select
      (cmpi .slt (shapeCast S800000 (extractStridedSlice S1x800000 ![0, 0] a1 slices_S2x800000_S1x800000_0_0) shapeCasts_S1x800000_S800000)
        (broadcastInDim S800000 ![] bcast_S_S800000 (constantI S_ 32 0#32)))
      (addi (shapeCast S800000 (extractStridedSlice S1x800000 ![0, 0] a1 slices_S2x800000_S1x800000_0_0) shapeCasts_S1x800000_S800000)
        (broadcastInDim S800000 ![] bcast_S_S800000 (constantI S_ 32 50000#32)))
      (shapeCast S800000 (extractStridedSlice S1x800000 ![0, 0] a1 slices_S2x800000_S1x800000_0_0) shapeCasts_S1x800000_S800000))

/-- The scatter's row indices: type * 50000 + destination of each edge, as a column. -/
def segIdx (a1 : IVec S2x800000 32) (a2 : IVec S800000 32) : IVec S800000x1 32 :=
  broadcastInDim S800000x1 ![0] bcast_S800000_S800000x1_0
    (addi (muli a2 (broadcastInDim S800000 ![] bcast_S_S800000 (constantI S_ 32 50000#32)))
      (shapeCast S800000 (extractStridedSlice S1x800000 ![1, 0] a1 slices_S2x800000_S1x800000_1_0) shapeCasts_S1x800000_S800000))

/-- The neighbour sums, relation by relation: the gathered source rows accumulated at the scatter's rows. -/
def aggTerm (a0 : FVec Ideal S50000x128 .f32) (a1 : IVec S2x800000 32) (a2 : IVec S800000 32) : FVec Ideal S4x50000x128 .f32 :=
  shapeCast S4x50000x128
    (Host.scatterAdd scatter_S200000x128_S800000x1_S800000x128_1_0_0_1
      (broadcastInDim S200000x128 ![] bcast_S_S200000x128 (constant (F := Ideal) S_ .f32 0x00000000#32))
      (segIdx a1 a2)
      (Host.gather gather_S50000x128_S800000x1_S800000x128_1_0_n_n_0_1_1128 a0 (srcIdx a1)))
    shapeCasts_S200000x128_S4x50000x128

end Cert.KernelIdeal

end
-- ==== Proof.Spec.lean ====
/-
  The layer both programs compute, as ONE function of the argument arrays on the extended reals.

  Node features x (50000 x 128); for each of the 4 relations r an aggregate agg_r (the sum of the
  features of a node's in-neighbours along the edges of type r) and a two-layer perceptron with a batch
  normalisation over the 50000 nodes between the layers:

      h_r(n, g)   = sum_f (x(n, f) + agg_r(n, f)) * W1_r(f, g) + b1_r(g)
      mean_r(g)   = (sum_n h_r(n, g)) / 50000
      var_r(g)    = (sum_n (h_r(n, g) - mean_r(g))^2) / 50000
      a_r(n, g)   = max ((h_r(n, g) - mean_r(g)) * rsqrt (var_r(g) + eps) * gamma_r(g) + beta_r(g)) 0
      out(n, k)   = (sum_f x(n, f) * Ws(f, k) + bs(k)) + sum_r (sum_g a_r(n, g) * W2_r(g, k) + b2_r(k))

  The variance is written twice: centred (the mean of the squared deviations), and by moments clamped at
  zero, max (E[h^2] - E[h]^2) 0. They agree where every h_r(n, g) is a real number, and differ at an
  infinity (where E[h^2] - E[h]^2 is an indeterminate difference).
  Everything is stated over functions of coordinates, so no array shape appears here; the quotient is
  the extended reals' (Ideal.div), 50000 and eps are the two float words the programs carry.
-/
import Idealize.ShloMosaic.PureOps.Ideal
import Idealize.ShloMosaic.PureOps.Ideal.Laws

noncomputable section

open scoped BigOperators

namespace Cert.Rgin

open Idealize.ShloMosaic

/-- The float word for 50000 (the number of nodes), as an extended real. -/
def cN : EReal := Ideal.ofBits .f32 0x47435000#32

/-- The float word added to a variance before the reciprocal square root (1e-5 rounded to f32). -/
def cEps : EReal := Ideal.ofBits .f32 0x3727C5AC#32

/-- The first linear layer of relation r at node n, output feature g. -/
def lin1 (x : Fin 50000 → Fin 128 → EReal) (agg : Fin 4 → Fin 50000 → Fin 128 → EReal)
    (W1 : Fin 4 → Fin 128 → Fin 128 → EReal) (b1 : Fin 4 → Fin 128 → EReal)
    (r : Fin 4) (n : Fin 50000) (g : Fin 128) : EReal :=
  (∑ f : Fin 128, (x n f + agg r n f) * W1 r f g) + b1 r g

section Stats

variable (h : Fin 4 → Fin 50000 → Fin 128 → EReal)

/-- The mean of feature g of relation r over the nodes. -/
def mean (r : Fin 4) (g : Fin 128) : EReal := Ideal.div (∑ n : Fin 50000, h r n g) cN

/-- The variance by moments, clamped at zero: max (E[h^2] - E[h]^2) 0. -/
def varM (r : Fin 4) (g : Fin 128) : EReal :=
  max (Ideal.div (∑ n : Fin 50000, h r n g * h r n g) cN - mean h r g * mean h r g) 0

/-- The centred variance: the mean of the squared deviations from the mean. -/
def varC (r : Fin 4) (g : Fin 128) : EReal :=
  Ideal.div (∑ n : Fin 50000, (h r n g - mean h r g) * (h r n g - mean h r g)) cN

/-- Normalise with mean m and variance v, scale, shift, and clamp below at zero. -/
def act (m v gamma beta : Fin 4 → Fin 128 → EReal) (r : Fin 4) (n : Fin 50000) (g : Fin 128) : EReal :=
  max ((h r n g - m r g) * Ideal.rsqrt (v r g + cEps) * gamma r g + beta r g) 0

end Stats

/-- The self-loop linear layer plus the sum over the relations of the second linear layer of the activations a. -/
def out (x : Fin 50000 → Fin 128 → EReal) (Ws : Fin 128 → Fin 128 → EReal) (bs : Fin 128 → EReal)
    (a : Fin 4 → Fin 50000 → Fin 128 → EReal) (W2 : Fin 4 → Fin 128 → Fin 128 → EReal) (b2 : Fin 4 → Fin 128 → EReal)
    (n : Fin 50000) (k : Fin 128) : EReal :=
  ((∑ f : Fin 128, x n f * Ws f k) + bs k) + ∑ r : Fin 4, ((∑ g : Fin 128, a r n g * W2 r g k) + b2 r k)

/-- The whole layer with the CENTRED variance. -/
def layer (x : Fin 50000 → Fin 128 → EReal) (agg : Fin 4 → Fin 50000 → Fin 128 → EReal)
    (Ws : Fin 128 → Fin 128 → EReal) (bs : Fin 128 → EReal)
    (W1 : Fin 4 → Fin 128 → Fin 128 → EReal) (b1 gamma beta : Fin 4 → Fin 128 → EReal)
    (W2 : Fin 4 → Fin 128 → Fin 128 → EReal) (b2 : Fin 4 → Fin 128 → EReal) (n : Fin 50000) (k : Fin 128) : EReal :=
  out x Ws bs (act (lin1 x agg W1 b1) (mean (lin1 x agg W1 b1)) (varC (lin1 x agg W1 b1)) gamma beta) W2 b2 n k

/-- The whole layer with the variance BY MOMENTS. -/
def layerM (x : Fin 50000 → Fin 128 → EReal) (agg : Fin 4 → Fin 50000 → Fin 128 → EReal)
    (Ws : Fin 128 → Fin 128 → EReal) (bs : Fin 128 → EReal)
    (W1 : Fin 4 → Fin 128 → Fin 128 → EReal) (b1 gamma beta : Fin 4 → Fin 128 → EReal)
    (W2 : Fin 4 → Fin 128 → Fin 128 → EReal) (b2 : Fin 4 → Fin 128 → EReal) (n : Fin 50000) (k : Fin 128) : EReal :=
  out x Ws bs (act (lin1 x agg W1 b1) (mean (lin1 x agg W1 b1)) (varM (lin1 x agg W1 b1)) gamma beta) W2 b2 n k

end Cert.Rgin

end
-- ==== Proof.KArgs.lean ====
/-
  The argument arrays as functions of coordinates, for one device's launch memory: the vocabulary in which
  the kernel's value and the reference's value are compared.
-/
import proofs.«137962_j6932077216184_2_alg».proof.Proof.AggK
import proofs.«137962_j6932077216184_2_alg».proof.Proof.Gen.KernelIdeal
import proofs.«137962_j6932077216184_2_alg».proof.Proof.Spec
import Idealize.ShloMosaic.Lib.ValueIdx

noncomputable section

namespace Cert.KernelIdeal.KArgs

open Idealize.ShloMosaic Idealize.ShloMosaic.TcCoe Idealize.ShloMosaic.ValueIdx Idealize.SL.Sem
open Cert.KernelIdeal

variable (m : (ℓ : Loc nD τ sig) → Buf (Elt Ideal) ℓ) (c : Dev nD)

/-- Node features. -/
def x : Fin 50000 → Fin 128 → EReal := fun n f => (m ((c : Thread nD τ).loc main_arg0) : S50000x128.Idx → EReal) (ix2 n f)
/-- Neighbour sums per relation. -/
def agg : Fin 4 → Fin 50000 → Fin 128 → EReal := fun r n f =>
  aggTerm (m ((c : Thread nD τ).loc main_arg0)) (m ((c : Thread nD τ).loc main_arg1)) (m ((c : Thread nD τ).loc main_arg2)) (ix3 r n f)
/-- Self-loop weights and bias. -/
def Ws : Fin 128 → Fin 128 → EReal := fun f k => (m ((c : Thread nD τ).loc main_arg3) : S128x128.Idx → EReal) (ix2 f k)
def bs : Fin 128 → EReal := fun k => (m ((c : Thread nD τ).loc main_arg4) : S128.Idx → EReal) (ix1 k)
/-- First layer. -/
def W1 : Fin 4 → Fin 128 → Fin 128 → EReal := fun r f g => (m ((c : Thread nD τ).loc main_arg5) : S4x128x128.Idx → EReal) (ix3 r f g)
def b1 : Fin 4 → Fin 128 → EReal := fun r g => (m ((c : Thread nD τ).loc main_arg6) : S4x128.Idx → EReal) (ix2 r g)
/-- Scale and shift of the normalisation. -/
def gamma : Fin 4 → Fin 128 → EReal := fun r g => (m ((c : Thread nD τ).loc main_arg7) : S4x128.Idx → EReal) (ix2 r g)
def beta : Fin 4 → Fin 128 → EReal := fun r g => (m ((c : Thread nD τ).loc main_arg8) : S4x128.Idx → EReal) (ix2 r g)
/-- Second layer. -/
def W2 : Fin 4 → Fin 128 → Fin 128 → EReal := fun r g k => (m ((c : Thread nD τ).loc main_arg9) : S4x128x128.Idx → EReal) (ix3 r g k)
def b2 : Fin 4 → Fin 128 → EReal := fun r k => (m ((c : Thread nD τ).loc main_arg10) : S4x128.Idx → EReal) (ix2 r k)

/-- The hidden layer of every relation, of the argument arrays. -/
def hid : Fin 4 → Fin 50000 → Fin 128 → EReal := Cert.Rgin.lin1 (x m c) (agg m c) (W1 m c) (b1 m c)

end Cert.KernelIdeal.KArgs

end
-- ==== Proof.LibRealSum.lean ====
/-
  Finite sums of real numbers taken inside the extended reals.

  The extended reals do not distribute (∞ · (1 + (-1)) is not ∞ + (-∞)), so a factor cannot in general be moved
  across a sum there. When every summand and the factor are real numbers it can: the sum of the reals' images is the
  image of the real sum, and the real numbers are a field. The lemmas here are that statement in the shape a
  contraction with folded scales needs: Σ_k (a_k · s) · (b_k · t) = (Σ_k a_k · b_k) · (t · s).
-/
import Idealize.ShloMosaic.PureOps.Ideal

noncomputable section

namespace Cert.Lib.RealSum

/-- A finite sum of real numbers, taken in the extended reals, is the real sum. -/
theorem coe_sum {ι : Type} (s : Finset ι) (f : ι → ℝ) : ∑ k ∈ s, ((f k : ℝ) : EReal) = ((∑ k ∈ s, f k : ℝ) : EReal) := by
  classical
  induction s using Finset.induction_on with
  | empty => simp
  | insert a s ha ih => rw [Finset.sum_insert ha, Finset.sum_insert ha, ih, EReal.coe_add]

/-- Σ_k (a_k · s) · (b_k · t) = (Σ_k a_k · b_k) · (t · s) for real numbers a_k, b_k, s, t, read in the extended reals:
    a scale on each operand of a contraction is one scale on the contraction. -/
theorem sum_rescale_real {n : ℕ} (a b : Fin n → ℝ) (s t : ℝ) :
    ∑ k, (((a k : ℝ) : EReal) * (s : EReal)) * (((b k : ℝ) : EReal) * (t : EReal))
      = (∑ k, ((a k : ℝ) : EReal) * ((b k : ℝ) : EReal)) * ((t : EReal) * (s : EReal)) := by
  simp only [← EReal.coe_mul]
  rw [coe_sum, coe_sum, ← EReal.coe_mul, Finset.sum_mul]
  exact congrArg _ (Finset.sum_congr rfl fun k _ => by ring)

/-- The same for extended reals each known to be a real number. -/
theorem sum_rescale {n : ℕ} (q w : Fin n → EReal) (s t : EReal)
    (hq : ∀ k, ∃ r : ℝ, q k = (r : EReal)) (hw : ∀ k, ∃ r : ℝ, w k = (r : EReal))
    (hs : ∃ r : ℝ, s = (r : EReal)) (ht : ∃ r : ℝ, t = (r : EReal)) :
    ∑ k, (q k * s) * (w k * t) = (∑ k, q k * w k) * (t * s) := by
  choose a ha using hq
  choose b hb using hw
  obtain ⟨s', rfl⟩ := hs
  obtain ⟨t', rfl⟩ := ht
  simp only [ha, hb]
  exact sum_rescale_real a b s' t'

end Cert.Lib.RealSum

end
-- ==== Proof.VarLaw.lean ====
/-
  The variance of a finite family of real numbers, written two ways, is one number.

  For real numbers y_n (n in a finite index set of N elements), with mean mu = (sum_n y_n) / N,

      (sum_n (y_n - mu)^2) / N  =  (sum_n y_n^2) / N  -  mu^2,

  because sum_n (y_n - mu)^2 = sum_n y_n^2 - 2 mu sum_n y_n + N mu^2 and sum_n y_n = N mu. The left side is a
  mean of squares, hence not negative, so clamping the right side below at zero changes nothing.

  On the extended reals the two sides can differ (at an infinity the right side is an indeterminate
  difference), but when every term is the image of a real number every sum, product, difference and
  quotient by the real number N stays the image of the corresponding real expression, and the real
  identity carries over. The first linear layer h is real wherever the features, the neighbour sums,
  the weights and the biases are, being a finite sum of products of such numbers plus a bias.
-/
import proofs.«137962_j6932077216184_2_alg».proof.Proof.Spec
import proofs.«137962_j6932077216184_2_alg».proof.Proof.LibRealSum

noncomputable section

open scoped BigOperators

namespace Cert.Rgin

open Idealize.ShloMosaic

/-- The float word 0x47435000 (sign 0, exponent 142, significand 0x435000) denotes
    (2^23 + 0x435000) * 2^(142 - 127 - 23) = 12800000 / 256 = 50000. -/
theorem cN_eq : cN = ((50000 : ℝ) : EReal) := by
  simp [cN, Ideal.ofBits, Ideal.ieee]
  rw [← EReal.coe_mul]
  norm_num

/-- The sum of the squared deviations from mu, expanded: sum y^2 - 2 mu sum y + N mu^2. -/
theorem sum_sq_dev {ι : Type} [Fintype ι] (y : ι → ℝ) (μ : ℝ) :
    ∑ n, (y n - μ) * (y n - μ) = ∑ n, y n * y n - 2 * μ * ∑ n, y n + (Fintype.card ι : ℝ) * (μ * μ) := by
  have e : ∀ n, (y n - μ) * (y n - μ) = y n * y n - 2 * μ * y n + μ * μ := fun n => by ring
  simp only [e, Finset.sum_add_distrib, Finset.sum_sub_distrib, ← Finset.mul_sum, Finset.sum_const,
    Finset.card_univ, nsmul_eq_mul]
  ring

/-- The mean of the squared deviations from the mean is the mean of the squares minus the squared mean. -/
theorem var_real {ι : Type} [Fintype ι] (y : ι → ℝ) (N : ℝ) (hN : N ≠ 0) (hcard : (Fintype.card ι : ℝ) = N) :
    (∑ n, y n * y n) * (1 / N) - ((∑ n, y n) * (1 / N)) * ((∑ n, y n) * (1 / N))
      = (∑ n, (y n - (∑ n, y n) * (1 / N)) * (y n - (∑ n, y n) * (1 / N))) * (1 / N) := by
  rw [sum_sq_dev, hcard]
  field_simp
  ring

/-- A mean of squares over a positive count is not negative. -/
theorem var_real_nonneg {ι : Type} [Fintype ι] (y : ι → ℝ) (μ N : ℝ) (hN : 0 < N) :
    0 ≤ (∑ n, (y n - μ) * (y n - μ)) * (1 / N) :=
  mul_nonneg (Finset.sum_nonneg fun n _ => mul_self_nonneg _) (by positivity)

/-- Where every h is a real number, the variance by moments clamped at zero is the centred variance. -/
theorem varM_eq_varC (h : Fin 4 → Fin 50000 → Fin 128 → EReal) (hfin : ∀ r n g, ∃ y : ℝ, h r n g = (y : EReal)) :
    varM h = varC h := by
  choose y hy using hfin
  funext r g
  have hN : (50000 : ℝ) ≠ 0 := by norm_num
  have hcard : (Fintype.card (Fin 50000) : ℝ) = 50000 := by rw [Fintype.card_fin]; norm_num
  have hmean : mean h r g = (((∑ n, y r n g) * (1 / 50000) : ℝ) : EReal) := by
    unfold mean
    rw [cN_eq, Ideal.div_coe hN]
    simp only [hy]
    rw [Cert.Lib.RealSum.coe_sum, ← EReal.coe_mul]
  unfold varM varC
  rw [hmean, cN_eq, Ideal.div_coe hN, Ideal.div_coe hN]
  simp only [hy, ← EReal.coe_mul, ← EReal.coe_sub]
  rw [Cert.Lib.RealSum.coe_sum, Cert.Lib.RealSum.coe_sum, ← EReal.coe_mul, ← EReal.coe_mul, ← EReal.coe_sub,
    var_real (fun n => y r n g) 50000 hN hcard]
  exact max_eq_left (EReal.coe_nonneg.mpr (var_real_nonneg (fun n => y r n g) _ 50000 (by norm_num)))

/-- The first linear layer is a real number wherever the features, the neighbour sums, the weights and the biases are. -/
theorem lin1_real (x : Fin 50000 → Fin 128 → EReal) (agg : Fin 4 → Fin 50000 → Fin 128 → EReal)
    (W1 : Fin 4 → Fin 128 → Fin 128 → EReal) (b1 : Fin 4 → Fin 128 → EReal)
    (hx : ∀ n f, ∃ y : ℝ, x n f = (y : EReal)) (hagg : ∀ r n f, ∃ y : ℝ, agg r n f = (y : EReal))
    (hW : ∀ r f g, ∃ y : ℝ, W1 r f g = (y : EReal)) (hb : ∀ r g, ∃ y : ℝ, b1 r g = (y : EReal)) :
    ∀ r n g, ∃ y : ℝ, lin1 x agg W1 b1 r n g = (y : EReal) := by
  choose xr hxr using hx
  choose ar har using hagg
  choose wr hwr using hW
  choose br hbr using hb
  intro r n g
  refine ⟨(∑ f, (xr n f + ar r n f) * wr r f g) + br r g, ?_⟩
  unfold lin1
  simp only [hxr, har, hwr, hbr, ← EReal.coe_add, ← EReal.coe_mul]
  rw [Cert.Lib.RealSum.coe_sum, ← EReal.coe_add]

/-- Where the first linear layer is real, the layer with the variance by moments is the layer with the centred variance. -/
theorem layerM_eq_layer (x : Fin 50000 → Fin 128 → EReal) (agg : Fin 4 → Fin 50000 → Fin 128 → EReal)
    (Ws : Fin 128 → Fin 128 → EReal) (bs : Fin 128 → EReal)
    (W1 : Fin 4 → Fin 128 → Fin 128 → EReal) (b1 gamma beta : Fin 4 → Fin 128 → EReal)
    (W2 : Fin 4 → Fin 128 → Fin 128 → EReal) (b2 : Fin 4 → Fin 128 → EReal)
    (hfin : ∀ r n g, ∃ y : ℝ, lin1 x agg W1 b1 r n g = (y : EReal)) :
    layerM x agg Ws bs W1 b1 gamma beta W2 b2 = layer x agg Ws bs W1 b1 gamma beta W2 b2 := by
  unfold layerM layer
  rw [varM_eq_varC _ hfin]

end Cert.Rgin

end
-- ==== Proof.LibFiniteEntry.lean ====
/-
  One "every entry is finite" test of a precondition, read back at an entry.

  A precondition "all float inputs are finite" is, per input, an and-reduction over all axes of the entrywise
  comparison |v| < +∞ (the bound the word 0x7F800000), started from true. When such a reduction is true every
  entry's comparison is true, and an extended real v with max(v, -v) < +∞ is neither +∞ nor -∞: it is a real number.
-/
import Idealize.ShloMosaic.PureOps.Ideal
import Idealize.ShloMosaic.Lib.ReduceAll
import Idealize.ShloMosaic.Lib.ValueIdx
import Idealize.ShloMosaic.Lib.IdealHost

noncomputable section

namespace Cert.Lib.FiniteEntry

open Idealize.ShloMosaic Idealize.ShloMosaic.ValueIdx

/-- The comparison bound's word denotes +∞. -/
theorem inf_eq : Ideal.ofBits .f32 0x7F800000#32 = ⊤ := by
  simp [Ideal.ofBits, Ideal.ieee]

/-- |v| < +∞ came out true: v is a real number. -/
theorem real_of_abs_lt_inf (v : EReal)
    (h : FloatOps.cmpf (F := Ideal) (φ := .f32) .olt (FloatOps.hostAbsf v) (Ideal.ofBits .f32 0x7F800000#32) = 1#1) :
    ∃ r : ℝ, v = (r : EReal) := by
  have hlt : max v (-v) < ⊤ := by
    by_contra hn
    have h0 : FloatOps.cmpf (F := Ideal) (φ := .f32) .olt (FloatOps.hostAbsf v) (Ideal.ofBits .f32 0x7F800000#32) = 0#1 := by
      show BitVec.ofBool (decide (max v (-v) < Ideal.ofBits .f32 0x7F800000#32)) = 0#1
      rw [inf_eq, decide_eq_false hn]
      rfl
    rw [h0] at h
    exact absurd h (by decide)
  have h1 : v ≠ ⊤ := fun e => by rw [e] at hlt; simp at hlt
  have h2 : v ≠ ⊥ := fun e => by rw [e] at hlt; simp at hlt
  exact ⟨v.toReal, (EReal.coe_toReal h1 h2).symm⟩

/-- A rank-0 array has one index. -/
instance : Subsingleton (⟨0, ![]⟩ : Shape).Idx := ⟨fun a b => funext fun d => d.elim0⟩

/-- The whole test read back: if the and-reduction over all axes of "|a| < +∞" (the bound broadcast from a scalar
    constant) is true, every entry of a is a real number. -/
theorem all_real {s : Shape} {axes : List (Fin s.rank)} (a : FVec Ideal s .f32)
    (hb : (⟨0, ![]⟩ : Shape).BroadcastsInDim s ![]) (hr : s.ReducesTo axes ⟨0, ![]⟩) (hn : 0 < (⟨0, ![]⟩ : Shape).numel)
    (init : IVec ⟨0, ![]⟩ 1)
    (h : Host.reduce IntOp.andi
        (cmpf .olt (Host.absf a) (broadcastInDim s ![] hb (constant (F := Ideal) ⟨0, ![]⟩ .f32 0x7F800000#32))) init hr hn ix0 = 1#1)
    (i : s.Idx) : ∃ r : ℝ, a i = (r : EReal) := by
  have e := Host.reduce_andi_all _ _ _ _ ix0 h i
  rw [cmpf_apply, broadcastInDim_scalar_apply] at e
  exact real_of_abs_lt_inf (a i) e

end Cert.Lib.FiniteEntry

end
-- ==== Proof.Finite.lean ====
/-
  What the precondition gives: every float input is an array of real numbers, and so is every neighbour sum.

  The precondition is nine tests "every entry of a has |a| < +inf", one per float input, and-ed together.
  An and of truth words that came out true had every word true; each test, read back at an entry, says that
  entry is neither infinity: it is a real number.

  A neighbour sum is an entry of an array of zeros to which gathered rows of the features were added:
  zero plus a finite sum of entries of the features. A gathered entry is an entry of the features whatever
  the start indices are, so when the features are real every neighbour sum is a finite sum of real numbers,
  hence real; regrouping the rows as relations by nodes only renames the entries.
-/
import proofs.«137962_j6932077216184_2_alg».proof.Pre_finite_inputs
import proofs.«137962_j6932077216184_2_alg».proof.Proof.AggK
import proofs.«137962_j6932077216184_2_alg».proof.Proof.LibFiniteEntry
import proofs.«137962_j6932077216184_2_alg».proof.Proof.LibRealSum

noncomputable section

open scoped BigOperators

namespace Cert.Rgin.Finite

open Idealize.ShloMosaic Idealize.ShloMosaic.ValueIdx

/-- An and of two truth words (rank-0 arrays) that is true: both are true. -/
theorem and_split (x y : IVec (⟨0, ![]⟩ : Shape) 1) (h : andi x y ix0 = 1#1) : x ix0 = 1#1 ∧ y ix0 = 1#1 :=
  IntOp.andi_eq_one.1 (show IntOp.andi (x ix0) (y ix0) = 1#1 from h)

/-- The precondition read back: every entry of every float input is a real number. -/
theorem reals_of_pre [Cert.Pre_finite_inputs.Facts]
    (a0 : FVec Ideal Cert.Pre_finite_inputs.S50000x128 .f32) (a1 : IVec Cert.Pre_finite_inputs.S2x800000 32) (a2 : IVec Cert.Pre_finite_inputs.S800000 32)
    (a3 : FVec Ideal Cert.Pre_finite_inputs.S128x128 .f32) (a4 : FVec Ideal Cert.Pre_finite_inputs.S128 .f32) (a5 : FVec Ideal Cert.Pre_finite_inputs.S4x128x128 .f32)
    (a6 a7 a8 : FVec Ideal Cert.Pre_finite_inputs.S4x128 .f32) (a9 : FVec Ideal Cert.Pre_finite_inputs.S4x128x128 .f32) (a10 : FVec Ideal Cert.Pre_finite_inputs.S4x128 .f32)
    (h : Cert.Pre_finite_inputs.fn (F := Ideal) a0 a1 a2 a3 a4 a5 a6 a7 a8 a9 a10 = fun _ => 1#1) :
    (∀ i, ∃ y : ℝ, a0 i = (y : EReal)) ∧ (∀ i, ∃ y : ℝ, a3 i = (y : EReal)) ∧ (∀ i, ∃ y : ℝ, a4 i = (y : EReal)) ∧ (∀ i, ∃ y : ℝ, a5 i = (y : EReal)) ∧ (∀ i, ∃ y : ℝ, a6 i = (y : EReal)) ∧ (∀ i, ∃ y : ℝ, a7 i = (y : EReal)) ∧ (∀ i, ∃ y : ℝ, a8 i = (y : EReal)) ∧ (∀ i, ∃ y : ℝ, a9 i = (y : EReal)) ∧ (∀ i, ∃ y : ℝ, a10 i = (y : EReal)) := by
  have h0 := congrFun h ix0
  dsimp only [Cert.Pre_finite_inputs.fn, Cert.Pre_finite_inputs.fn_part1, Cert.Pre_finite_inputs.fn_part2] at h0
  obtain ⟨h0, e10⟩ := and_split _ _ h0
  obtain ⟨h0, e9⟩ := and_split _ _ h0
  obtain ⟨h0, e8⟩ := and_split _ _ h0
  obtain ⟨h0, e7⟩ := and_split _ _ h0
  obtain ⟨h0, e6⟩ := and_split _ _ h0
  obtain ⟨h0, e5⟩ := and_split _ _ h0
  obtain ⟨h0, e4⟩ := and_split _ _ h0
  obtain ⟨e0, e3⟩ := and_split _ _ h0
  exact ⟨Cert.Lib.FiniteEntry.all_real a0 _ _ _ _ e0, Cert.Lib.FiniteEntry.all_real a3 _ _ _ _ e3,
    Cert.Lib.FiniteEntry.all_real a4 _ _ _ _ e4, Cert.Lib.FiniteEntry.all_real a5 _ _ _ _ e5,
    Cert.Lib.FiniteEntry.all_real a6 _ _ _ _ e6, Cert.Lib.FiniteEntry.all_real a7 _ _ _ _ e7,
    Cert.Lib.FiniteEntry.all_real a8 _ _ _ _ e8, Cert.Lib.FiniteEntry.all_real a9 _ _ _ _ e9,
    Cert.Lib.FiniteEntry.all_real a10 _ _ _ _ e10⟩

/-- A finite sum of real numbers is a real number. -/
theorem sum_real {ι : Type} (s : Finset ι) (f : ι → EReal) (hf : ∀ j, ∃ y : ℝ, f j = (y : EReal)) :
    ∃ y : ℝ, ∑ j ∈ s, f j = (y : EReal) := by
  choose g hg using hf
  refine ⟨∑ j ∈ s, g j, ?_⟩
  simp only [hg]
  exact Cert.Lib.RealSum.coe_sum s g

/-- The sum of two real numbers is a real number. -/
theorem add_real (u v : EReal) (hu : ∃ y : ℝ, u = (y : EReal)) (hv : ∃ y : ℝ, v = (y : EReal)) :
    ∃ y : ℝ, u + v = (y : EReal) := by
  obtain ⟨a, rfl⟩ := hu
  obtain ⟨b, rfl⟩ := hv
  exact ⟨a + b, (EReal.coe_add a b).symm⟩

/-- Regrouping the entries of an array of real numbers under another shape gives an array of real numbers. -/
theorem shapeCast_real {s t : Shape} (x : s.Idx → EReal) (h : s.ShapeCasts t) (hx : ∀ k, ∃ y : ℝ, x k = (y : EReal))
    (j : t.Idx) : ∃ y : ℝ, shapeCast t x h j = (y : EReal) := by
  unfold shapeCast
  exact hx _

/-- A gathered entry is an entry of the operand: gathering from real numbers gives real numbers. -/
theorem gather_real {s si t : Shape} {w : Nat} (d : GatherDims s si t) (x : s.Idx → EReal) (idx : IVec si w)
    (hx : ∀ k, ∃ y : ℝ, x k = (y : EReal)) (j : t.Idx) : ∃ y : ℝ, Host.gather d x idx j = (y : EReal) := by
  unfold Host.gather
  exact hx _

/-- An accumulating scatter of real numbers into real numbers gives real numbers: each entry is the operand's
    plus a finite sum of updates. -/
theorem scatterAdd_real {s si su : Shape} {w : Nat} (d : ScatterDims s si su) (x : FVec Ideal s .f32) (idx : IVec si w)
    (upd : FVec Ideal su .f32) (hx : ∀ k, ∃ y : ℝ, x k = (y : EReal)) (hu : ∀ j, ∃ y : ℝ, upd j = (y : EReal))
    (i : s.Idx) : ∃ y : ℝ, Host.scatterAdd d x idx upd i = (y : EReal) := by
  unfold Host.scatterAdd
  rw [Ideal.hostScatterAdd_def]
  unfold Ideal.hostScatterAdd
  exact add_real _ _ (hx i) (sum_real _ upd hu)

/-- Every neighbour sum is a real number when every feature is. -/
theorem agg_real [Cert.KernelIdeal.Facts] (a0 : FVec Ideal Cert.KernelIdeal.S50000x128 .f32) (a1 : IVec Cert.KernelIdeal.S2x800000 32)
    (a2 : IVec Cert.KernelIdeal.S800000 32) (h0 : ∀ i, ∃ y : ℝ, a0 i = (y : EReal)) :
    ∀ i, ∃ y : ℝ, Cert.KernelIdeal.aggTerm a0 a1 a2 i = (y : EReal) := by
  intro i
  unfold Cert.KernelIdeal.aggTerm
  refine shapeCast_real _ _ (scatterAdd_real _ _ _ _ (fun k => ⟨0, ?_⟩) (gather_real _ _ _ h0)) i
  rw [broadcastInDim_scalar_apply, constant_apply, Ideal.ofBits_zero_f32, EReal.coe_zero]

end Cert.Rgin.Finite

end
-- ==== Proof.AggR.lean ====
/-
  The per-relation neighbour sums as ONE function of the node features and the two integer arrays.

  Edge e runs from src(e) = edge_index[0, e] to dst(e) = edge_index[1, e] and has type t(e) = edge_type[e].
  The source is read as a row of x (a negative source counted from the end, then clamped into the array
  by the gather), row t(e) * 50000 + dst(e) of a 200000 x 128 array of zeros accumulates that row of x
  (an update whose row lies outside the array is dropped), and the 200000 rows are regrouped as
  4 relations x 50000 nodes. Both programs start with exactly these operations; what follows never
  opens them: it only needs that every entry is a finite sum of entries of x.
-/
import proofs.«137962_j6932077216184_2_alg».proof.ReferenceIdeal
import Idealize.ShloMosaic.PureOps.Ideal

noncomputable section

namespace Cert.ReferenceIdeal

open Idealize.ShloMosaic

variable [Facts]
open Facts₀ Facts

/-- The gather's start indices: the source of each edge, a negative one counted from the end, as a column. -/
def srcIdx (a1 : IVec S2x800000 32) : IVec S800000x1 32 :=
  broadcastInDim S800000x1 ![0] bcast_S800000_S800000x1_0
    (select
      (cmpi .slt (shapeCast S800000 (extractStridedSlice S1x800000 ![0, 0] a1 slices_S2x800000_S1x800000_0_0) shapeCasts_S1x800000_S800000)
        (broadcastInDim S800000 ![] bcast_S_S800000 (constantI S_ 32 0#32)))
      (addi (shapeCast S800000 (extractStridedSlice S1x800000 ![0, 0] a1 slices_S2x800000_S1x800000_0_0) shapeCasts_S1x800000_S800000)
        (broadcastInDim S800000 ![] bcast_S_S800000 (constantI S_ 32 50000#32)))
      (shapeCast S800000 (extractStridedSlice S1x800000 ![0, 0] a1 slices_S2x800000_S1x800000_0_0) shapeCasts_S1x800000_S800000))

/-- The scatter's row indices: type * 50000 + destination of each edge, as a column. -/
def segIdx (a1 : IVec S2x800000 32) (a2 : IVec S800000 32) : IVec S800000x1 32 :=
  broadcastInDim S800000x1 ![0] bcast_S800000_S800000x1_0
    (addi (muli a2 (broadcastInDim S800000 ![] bcast_S_S800000 (constantI S_ 32 50000#32)))
      (shapeCast S800000 (extractStridedSlice S1x800000 ![1, 0] a1 slices_S2x800000_S1x800000_1_0) shapeCasts_S1x800000_S800000))

/-- The neighbour sums, relation by relation: the gathered source rows accumulated at the scatter's rows. -/
def aggTerm (a0 : FVec Ideal S50000x128 .f32) (a1 : IVec S2x800000 32) (a2 : IVec S800000 32) : FVec Ideal S4x50000x128 .f32 :=
  shapeCast S4x50000x128
    (Host.scatterAdd scatter_S200000x128_S800000x1_S800000x128_1_0_0_1
      (broadcastInDim S200000x128 ![] bcast_S_S200000x128 (constant (F := Ideal) S_ .f32 0x00000000#32))
      (segIdx a1 a2)
      (Host.gather gather_S50000x128_S800000x1_S800000x128_1_0_n_n_0_1_1128 a0 (srcIdx a1)))
    shapeCasts_S200000x128_S4x50000x128

end Cert.ReferenceIdeal

end
-- ==== Proof.RefTerm.lean ====
/-
  The reference's result as ONE term of its argument arrays: its operations composed in program order.

  hidden     h = (x spread over the 4 relations + the neighbour sums) . W1 + b1      (one batched product)
  colMean    the mean over the 50000 nodes, kept as a [4, 1, 128] array
  colVar     the centred variance, as the array library spells it: the mean of the squared deviations, divided by
             50000 - 0 (the "degrees of freedom" correction, zero here) and guarded by "if that divisor is positive"
  activated  normalise, scale by gamma, shift by beta, clamp below at zero
  result     x . Ws + bs plus the sum over the relations of activated . W2 + b2
-/
import proofs.«137962_j6932077216184_2_alg».proof.Proof.AggR

noncomputable section

namespace Cert.ReferenceIdeal.RefTerm

open Idealize.ShloMosaic Cert.ReferenceIdeal

variable [Facts]
open Facts₀ Facts

/-- A per-relation, per-feature parameter spread over the nodes: [4,128] to [4,1,128] to [4,50000,128]. -/
def spread (p : FVec Ideal S4x128 .f32) : FVec Ideal S4x50000x128 .f32 :=
  broadcastInDim S4x50000x128 ![0, 1, 2] bcast_S4x1x128_S4x50000x128_0_1_2 (broadcastInDim S4x1x128 ![0, 2] bcast_S4x128_S4x1x128_0_2 p)

/-- A [4,1,128] statistic spread over the nodes. -/
def spreadStat (p : FVec Ideal S4x1x128 .f32) : FVec Ideal S4x50000x128 .f32 :=
  broadcastInDim S4x50000x128 ![0, 1, 2] bcast_S4x1x128_S4x50000x128_0_1_2 p

/-- The sum over the nodes, kept with a unit node axis. -/
def colSum (h : FVec Ideal S4x50000x128 .f32) : FVec Ideal S4x1x128 .f32 :=
  broadcastInDim S4x1x128 ![0, 2] bcast_S4x128_S4x1x128_0_2
    (Host.reduceAdd h (constant (F := Ideal) S_ .f32 0x00000000#32) reducesTo_S4x50000x128_S4x128_d1 h_S_)

/-- The first linear layer of every relation. -/
def hidden (a0 : FVec Ideal S50000x128 .f32) (a1 : IVec S2x800000 32) (a2 : IVec S800000 32) (a5 : FVec Ideal S4x128x128 .f32)
    (a6 : FVec Ideal S4x128 .f32) : FVec Ideal S4x50000x128 .f32 :=
  addf
    (Host.dotGeneral dot_S4x50000x128_S4x128x128_S4x50000x128_2_1_1_2_0_0 none
      (addf
        (broadcastInDim S4x50000x128 ![0, 1, 2] bcast_S1x50000x128_S4x50000x128_0_1_2
          (broadcastInDim S1x50000x128 ![1, 2] bcast_S50000x128_S1x50000x128_1_2 a0))
        (aggTerm a0 a1 a2))
      a5)
    (spread a6)

/-- The mean over the nodes. -/
def colMean (h : FVec Ideal S4x50000x128 .f32) : FVec Ideal S4x1x128 .f32 :=
  Host.divf (colSum h) (broadcastInDim S4x1x128 ![] bcast_S_S4x1x128 (constant (F := Ideal) S_ .f32 0x47435000#32))

/-- The divisor of the variance: 50000 minus the correction 0, the latter converted from an integer. -/
def dof : FVec Ideal S_ .f32 :=
  subf (constant (F := Ideal) S_ .f32 0x47435000#32) (sitofp (F := Ideal) .f32 (constantI S_ 32 0#32))

/-- The centred variance with its guard. -/
def colVar (h : FVec Ideal S4x50000x128 .f32) : FVec Ideal S4x1x128 .f32 :=
  select
    (broadcastInDim S4x1x128 ![] bcast_S_S4x1x128 (cmpf .ogt dof (constant (F := Ideal) S_ .f32 0x00000000#32)))
    (Host.divf
      (colSum (mulf (subf h (spreadStat (colMean h))) (subf h (spreadStat (colMean h)))))
      (broadcastInDim S4x1x128 ![] bcast_S_S4x1x128 dof))
    (broadcastInDim S4x1x128 ![] bcast_S_S4x1x128 (id (constant (F := Ideal) S_ .f32 0x7FC00000#32)))

/-- Normalised, scaled, shifted and clamped below at zero. -/
def activated (h : FVec Ideal S4x50000x128 .f32) (a7 a8 : FVec Ideal S4x128 .f32) : FVec Ideal S4x50000x128 .f32 :=
  maximumf
    (addf
      (mulf
        (mulf (subf h (spreadStat (colMean h)))
          (spreadStat (Host.rsqrt (addf (colVar h) (broadcastInDim S4x1x128 ![] bcast_S_S4x1x128 (constant (F := Ideal) S_ .f32 0x3727C5AC#32))))))
        (spread a7))
      (spread a8))
    (broadcastInDim S4x50000x128 ![] bcast_S_S4x50000x128 (constant (F := Ideal) S_ .f32 0x00000000#32))

/-- The reference's result. -/
def result (a0 : FVec Ideal S50000x128 .f32) (a1 : IVec S2x800000 32) (a2 : IVec S800000 32) (a3 : FVec Ideal S128x128 .f32)
    (a4 : FVec Ideal S128 .f32) (a5 : FVec Ideal S4x128x128 .f32) (a6 a7 a8 : FVec Ideal S4x128 .f32) (a9 : FVec Ideal S4x128x128 .f32)
    (a10 : FVec Ideal S4x128 .f32) : FVec Ideal S50000x128 .f32 :=
  addf
    (addf (Host.dotGeneral dot_S50000x128_S128x128_S50000x128_1_0_0_1_n_n none a0 a3)
      (broadcastInDim S50000x128 ![0, 1] bcast_S1x128_S50000x128_0_1 (broadcastInDim S1x128 ![1] bcast_S128_S1x128_1 a4)))
    (Host.reduceAdd
      (addf (Host.dotGeneral dot_S4x50000x128_S4x128x128_S4x50000x128_2_1_1_2_0_0 none (activated (hidden a0 a1 a2 a5 a6) a7 a8) a9) (spread a10))
      (constant (F := Ideal) S_ .f32 0x00000000#32) reducesTo_S4x50000x128_S50000x128_d0 h_S_)

end Cert.ReferenceIdeal.RefTerm

end
-- ==== Proof.RefOps.lean ====
/-
  The reference as a straight line of array operations.

  The program is 87 operations in a row: the 61 the main function states itself (58 in its first half, 3 in its
  second), the 23 of the variance (20 of its own and the 3 of the guarded choice it ends in) standing where the
  variance is applied, over that application's own arrays, and the 3 of the clamp at zero likewise.
-/
import proofs.«137962_j6932077216184_2_alg».proof.Proof.RefTerm
import proofs.«137962_j6932077216184_2_alg».proof.Proof.Gen.ReferenceIdeal
import Idealize.ShloMosaic.Lib.StableHlo.Run

noncomputable section

namespace Cert.ReferenceIdeal.RefRun

open Cert.ReferenceIdeal Idealize.ShloMosaic Idealize.ShloMosaic.TcCoe Idealize.SL.Sem Idealize.ShloMosaic.StableHlo

variable [Facts]
open Facts₀ Facts

variable {F : FTy → Type} [FloatOps F]

/-- The 87 operations in program order, each applied function's operations in the place of its application. -/
abbrev ops : List (HloOp τ sig (Elt F)) :=
  [ StableHlo.unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v0 main_v1 rfl shapeCasts_S1x800000_S800000,
    StableHlo.unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v2 main_v3 rfl shapeCasts_S1x800000_S800000,
    StableHlo.nullary main_c (constantI S_ 32 0#32),
    StableHlo.unary main_c main_v4 (broadcastInDim S800000 ![] bcast_S_S800000 : (⟨S_, .i32⟩ : BufTy).Contents (Elt F) → (⟨S800000, .i32⟩ : BufTy).Contents (Elt F)),
    StableHlo.binary main_v1 main_v4 main_v5 (cmpi .slt : (⟨S800000, .i32⟩ : BufTy).Contents (Elt F) → (⟨S800000, .i32⟩ : BufTy).Contents (Elt F) → (⟨S800000, .i1⟩ : BufTy).Contents (Elt F)),
    StableHlo.nullary main_c_0 (constantI S_ 32 50000#32),
    StableHlo.unary main_c_0 main_v6 (broadcastInDim S800000 ![] bcast_S_S800000 : (⟨S_, .i32⟩ : BufTy).Contents (Elt F) → (⟨S800000, .i32⟩ : BufTy).Contents (Elt F)),
    StableHlo.binary main_v1 main_v6 main_v7 (addi : (⟨S800000, .i32⟩ : BufTy).Contents (Elt F) → (⟨S800000, .i32⟩ : BufTy).Contents (Elt F) → (⟨S800000, .i32⟩ : BufTy).Contents (Elt F)),
    StableHlo.ternary main_v5 main_v7 main_v1 main_v8 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v8 main_v9 (broadcastInDim S800000x1 ![0] bcast_S800000_S800000x1_0 : (⟨S800000, .i32⟩ : BufTy).Contents (Elt F) → (⟨S800000x1, .i32⟩ : BufTy).Contents (Elt F)),
    StableHlo.binary main_arg0 main_v9 main_v10 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.nullary main_c_1 (constantI S_ 32 50000#32),
    StableHlo.unary main_c_1 main_v11 (broadcastInDim S800000 ![] bcast_S_S800000 : (⟨S_, .i32⟩ : BufTy).Contents (Elt F) → (⟨S800000, .i32⟩ : BufTy).Contents (Elt F)),
    StableHlo.binary main_arg2 main_v11 main_v12 (muli : (⟨S800000, .i32⟩ : BufTy).Contents (Elt F) → (⟨S800000, .i32⟩ : BufTy).Contents (Elt F) → (⟨S800000, .i32⟩ : BufTy).Contents (Elt F)),
    StableHlo.binary main_v12 main_v3 main_v13 (addi : (⟨S800000, .i32⟩ : BufTy).Contents (Elt F) → (⟨S800000, .i32⟩ : BufTy).Contents (Elt F) → (⟨S800000, .i32⟩ : BufTy).Contents (Elt F)),
    StableHlo.nullary main_cst (constant S_ .f32 0x00000000#32),
    StableHlo.unary main_cst main_v14 (broadcastInDim S200000x128 ![] bcast_S_S200000x128 : (⟨S_, .f32⟩ : BufTy).Contents (Elt F) → (⟨S200000x128, .f32⟩ : BufTy).Contents (Elt F)),
    StableHlo.unary main_v13 main_v15 (broadcastInDim S800000x1 ![0] bcast_S800000_S800000x1_0 : (⟨S800000, .i32⟩ : BufTy).Contents (Elt F) → (⟨S800000x1, .i32⟩ : BufTy).Contents (Elt F)),
    StableHlo.ternary main_v14 main_v15 main_v10 main_v16 ((fun x i u => Host.scatterAdd scatter_S200000x128_S800000x1_S800000x128_1_0_0_1 x i u) : (⟨S200000x128, .f32⟩ : BufTy).Contents (Elt F) → (⟨S800000x1, .i32⟩ : BufTy).Contents (Elt F) → (⟨S800000x128, .f32⟩ : BufTy).Contents (Elt F) → (⟨S200000x128, .f32⟩ : BufTy).Contents (Elt F)),
    StableHlo.reshape main_v16 main_v17 rfl shapeCasts_S200000x128_S4x50000x128,
    StableHlo.unary main_arg0 main_v18 (broadcastInDim S1x50000x128 ![1, 2] bcast_S50000x128_S1x50000x128_1_2 : (⟨S50000x128, .f32⟩ : BufTy).Contents (Elt F) → (⟨S1x50000x128, .f32⟩ : BufTy).Contents (Elt F)),
    StableHlo.unary main_v18 main_v19 (broadcastInDim S4x50000x128 ![0, 1, 2] bcast_S1x50000x128_S4x50000x128_0_1_2 : (⟨S1x50000x128, .f32⟩ : BufTy).Contents (Elt F) → (⟨S4x50000x128, .f32⟩ : BufTy).Contents (Elt F)),
    StableHlo.binary main_v19 main_v17 main_v20 (addf : (⟨S4x50000x128, .f32⟩ : BufTy).Contents (Elt F) → (⟨S4x50000x128, .f32⟩ : BufTy).Contents (Elt F) → (⟨S4x50000x128, .f32⟩ : BufTy).Contents (Elt F)),
    StableHlo.binary main_v20 main_arg5 main_v21 ((fun l r => Host.dotGeneral dot_S4x50000x128_S4x128x128_S4x50000x128_2_1_1_2_0_0 none l r) : (⟨S4x50000x128, .f32⟩ : BufTy).Contents (Elt F) → (⟨S4x128x128, .f32⟩ : BufTy).Contents (Elt F) → (⟨S4x50000x128, .f32⟩ : BufTy).Contents (Elt F)),
    StableHlo.unary main_arg6 main_v22 (broadcastInDim S4x1x128 ![0, 2] bcast_S4x128_S4x1x128_0_2 : (⟨S4x128, .f32⟩ : BufTy).Contents (Elt F) → (⟨S4x1x128, .f32⟩ : BufTy).Contents (Elt F)),
    StableHlo.unary main_v22 main_v23 (broadcastInDim S4x50000x128 ![0, 1, 2] bcast_S4x1x128_S4x50000x128_0_1_2 : (⟨S4x1x128, .f32⟩ : BufTy).Contents (Elt F) → (⟨S4x50000x128, .f32⟩ : BufTy).Contents (Elt F)),
    StableHlo.binary main_v21 main_v23 main_v24 (addf : (⟨S4x50000x128, .f32⟩ : BufTy).Contents (Elt F) → (⟨S4x50000x128, .f32⟩ : BufTy).Contents (Elt F) → (⟨S4x50000x128, .f32⟩ : BufTy).Contents (Elt F)),
    StableHlo.nullary main_cst_2 (constant S_ .f32 0x00000000#32),
    StableHlo.binary main_v24 main_cst_2 main_v25 ((fun x v => Host.reduceAdd x v reducesTo_S4x50000x128_S4x128_d1 h_S_) : (⟨S4x50000x128, .f32⟩ : BufTy).Contents (Elt F) → (⟨S_, .f32⟩ : BufTy).Contents (Elt F) → (⟨S4x128, .f32⟩ : BufTy).Contents (Elt F)),
    StableHlo.unary main_v25 main_v26 (broadcastInDim S4x1x128 ![0, 2] bcast_S4x128_S4x1x128_0_2 : (⟨S4x128, .f32⟩ : BufTy).Contents (Elt F) → (⟨S4x1x128, .f32⟩ : BufTy).Contents (Elt F)),
    StableHlo.nullary main_cst_3 (constant S_ .f32 0x47435000#32),
    StableHlo.unary main_cst_3 main_v27 (broadcastInDim S4x1x128 ![] bcast_S_S4x1x128 : (⟨S_, .f32⟩ : BufTy).Contents (Elt F) → (⟨S4x1x128, .f32⟩ : BufTy).Contents (Elt F)),
    StableHlo.binary main_v26 main_v27 main_v28 (Host.divf : (⟨S4x1x128, .f32⟩ : BufTy).Contents (Elt F) → (⟨S4x1x128, .f32⟩ : BufTy).Contents (Elt F) → (⟨S4x1x128, .f32⟩ : BufTy).Contents (Elt F)),
    StableHlo.nullary main_c_4 (constantI S_ 32 0#32),
    StableHlo.TRef.nullary main_call0.cst (constant S_ .f32 0x00000000#32),
    StableHlo.TRef.binary (.of main_v24 : StableHlo.TRef sig ⟨S4x50000x128, .f32⟩) main_call0.cst main_call0.v0 (fun x v => Host.reduceAdd x v reducesTo_S4x50000x128_S4x128_d1 h_S_),
    StableHlo.TRef.unary main_call0.v0 main_call0.v1 (broadcastInDim S4x1x128 ![0, 2] bcast_S4x128_S4x1x128_0_2),
    StableHlo.TRef.nullary main_call0.cst_0 (constant S_ .f32 0x47435000#32),
    StableHlo.TRef.unary main_call0.cst_0 main_call0.v2 (broadcastInDim S4x1x128 ![] bcast_S_S4x1x128),
    StableHlo.TRef.binary main_call0.v1 main_call0.v2 main_call0.v3 Host.divf,
    StableHlo.TRef.unary main_call0.v3 main_call0.v4 (broadcastInDim S4x50000x128 ![0, 1, 2] bcast_S4x1x128_S4x50000x128_0_1_2),
    StableHlo.TRef.binary (.of main_v24 : StableHlo.TRef sig ⟨S4x50000x128, .f32⟩) main_call0.v4 main_call0.v5 subf,
    StableHlo.TRef.binary main_call0.v5 main_call0.v5 main_call0.v6 mulf,
    StableHlo.TRef.unary (.of main_c_4 : StableHlo.TRef sig ⟨S_, .i32⟩) main_call0.v7 (sitofp .f32),
    StableHlo.TRef.nullary main_call0.cst_1 (constant S_ .f32 0x47435000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S4x50000x128_S4x128_d1 h_S_),
    StableHlo.TRef.unary main_call0.v9 main_call0.v10 (broadcastInDim S4x1x128 ![0, 2] bcast_S4x128_S4x1x128_0_2),
    StableHlo.TRef.unary main_call0.v8 main_call0.v11 (broadcastInDim S4x1x128 ![] bcast_S_S4x1x128),
    StableHlo.TRef.binary main_call0.v10 main_call0.v11 main_call0.v12 Host.divf,
    StableHlo.TRef.nullary main_call0.cst_3 (constant S_ .f32 0x00000000#32),
    StableHlo.TRef.binary main_call0.v8 main_call0.cst_3 main_call0.v13 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S4x1x128 ![] bcast_S_S4x1x128),
    StableHlo.TRef.ternary main_call0.v13 main_call0.v12 main_call0.call0.v1 main_call0.call0.v2 (fun p a b => select (broadcastInDim S4x1x128 ![] bcast_S_S4x1x128 p) a b),
    StableHlo.unary main_v28 main_v30 (broadcastInDim S4x50000x128 ![0, 1, 2] bcast_S4x1x128_S4x50000x128_0_1_2 : (⟨S4x1x128, .f32⟩ : BufTy).Contents (Elt F) → (⟨S4x50000x128, .f32⟩ : BufTy).Contents (Elt F)),
    StableHlo.binary main_v24 main_v30 main_v31 (subf : (⟨S4x50000x128, .f32⟩ : BufTy).Contents (Elt F) → (⟨S4x50000x128, .f32⟩ : BufTy).Contents (Elt F) → (⟨S4x50000x128, .f32⟩ : BufTy).Contents (Elt F)),
    StableHlo.nullary main_cst_5 (constant S_ .f32 0x3727C5AC#32),
    StableHlo.unary main_cst_5 main_v32 (broadcastInDim S4x1x128 ![] bcast_S_S4x1x128 : (⟨S_, .f32⟩ : BufTy).Contents (Elt F) → (⟨S4x1x128, .f32⟩ : BufTy).Contents (Elt F)),
    StableHlo.binary main_v29 main_v32 main_v33 (addf : (⟨S4x1x128, .f32⟩ : BufTy).Contents (Elt F) → (⟨S4x1x128, .f32⟩ : BufTy).Contents (Elt F) → (⟨S4x1x128, .f32⟩ : BufTy).Contents (Elt F)),
    StableHlo.unary main_v33 main_v34 (Host.rsqrt : (⟨S4x1x128, .f32⟩ : BufTy).Contents (Elt F) → (⟨S4x1x128, .f32⟩ : BufTy).Contents (Elt F)),
    StableHlo.unary main_v34 main_v35 (broadcastInDim S4x50000x128 ![0, 1, 2] bcast_S4x1x128_S4x50000x128_0_1_2 : (⟨S4x1x128, .f32⟩ : BufTy).Contents (Elt F) → (⟨S4x50000x128, .f32⟩ : BufTy).Contents (Elt F)),
    StableHlo.binary main_v31 main_v35 main_v36 (mulf : (⟨S4x50000x128, .f32⟩ : BufTy).Contents (Elt F) → (⟨S4x50000x128, .f32⟩ : BufTy).Contents (Elt F) → (⟨S4x50000x128, .f32⟩ : BufTy).Contents (Elt F)),
    StableHlo.unary main_arg7 main_v37 (broadcastInDim S4x1x128 ![0, 2] bcast_S4x128_S4x1x128_0_2 : (⟨S4x128, .f32⟩ : BufTy).Contents (Elt F) → (⟨S4x1x128, .f32⟩ : BufTy).Contents (Elt F)),
    StableHlo.unary main_v37 main_v38 (broadcastInDim S4x50000x128 ![0, 1, 2] bcast_S4x1x128_S4x50000x128_0_1_2 : (⟨S4x1x128, .f32⟩ : BufTy).Contents (Elt F) → (⟨S4x50000x128, .f32⟩ : BufTy).Contents (Elt F)),
    StableHlo.binary main_v36 main_v38 main_v39 (mulf : (⟨S4x50000x128, .f32⟩ : BufTy).Contents (Elt F) → (⟨S4x50000x128, .f32⟩ : BufTy).Contents (Elt F) → (⟨S4x50000x128, .f32⟩ : BufTy).Contents (Elt F)),
    StableHlo.unary main_arg8 main_v40 (broadcastInDim S4x1x128 ![0, 2] bcast_S4x128_S4x1x128_0_2 : (⟨S4x128, .f32⟩ : BufTy).Contents (Elt F) → (⟨S4x1x128, .f32⟩ : BufTy).Contents (Elt F)),
    StableHlo.unary main_v40 main_v41 (broadcastInDim S4x50000x128 ![0, 1, 2] bcast_S4x1x128_S4x50000x128_0_1_2 : (⟨S4x1x128, .f32⟩ : BufTy).Contents (Elt F) → (⟨S4x50000x128, .f32⟩ : BufTy).Contents (Elt F)),
    StableHlo.binary main_v39 main_v41 main_v42 (addf : (⟨S4x50000x128, .f32⟩ : BufTy).Contents (Elt F) → (⟨S4x50000x128, .f32⟩ : BufTy).Contents (Elt F) → (⟨S4x50000x128, .f32⟩ : BufTy).Contents (Elt F)),
    StableHlo.TRef.nullary main_call1.cst (constant S_ .f32 0x00000000#32),
    StableHlo.TRef.unary main_call1.cst main_call1.v0 (broadcastInDim S4x50000x128 ![] bcast_S_S4x50000x128),
    StableHlo.TRef.binary (.of main_v42 : StableHlo.TRef sig ⟨S4x50000x128, .f32⟩) main_call1.v0 main_call1.v1 maximumf,
    StableHlo.binary main_v43 main_arg9 main_v44 ((fun l r => Host.dotGeneral dot_S4x50000x128_S4x128x128_S4x50000x128_2_1_1_2_0_0 none l r) : (⟨S4x50000x128, .f32⟩ : BufTy).Contents (Elt F) → (⟨S4x128x128, .f32⟩ : BufTy).Contents (Elt F) → (⟨S4x50000x128, .f32⟩ : BufTy).Contents (Elt F)),
    StableHlo.unary main_arg10 main_v45 (broadcastInDim S4x1x128 ![0, 2] bcast_S4x128_S4x1x128_0_2 : (⟨S4x128, .f32⟩ : BufTy).Contents (Elt F) → (⟨S4x1x128, .f32⟩ : BufTy).Contents (Elt F)),
    StableHlo.unary main_v45 main_v46 (broadcastInDim S4x50000x128 ![0, 1, 2] bcast_S4x1x128_S4x50000x128_0_1_2 : (⟨S4x1x128, .f32⟩ : BufTy).Contents (Elt F) → (⟨S4x50000x128, .f32⟩ : BufTy).Contents (Elt F)),
    StableHlo.binary main_v44 main_v46 main_v47 (addf : (⟨S4x50000x128, .f32⟩ : BufTy).Contents (Elt F) → (⟨S4x50000x128, .f32⟩ : BufTy).Contents (Elt F) → (⟨S4x50000x128, .f32⟩ : BufTy).Contents (Elt F)),
    StableHlo.binary main_arg0 main_arg3 main_v48 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg4 main_v49 (broadcastInDim S1x128 ![1] bcast_S128_S1x128_1 : (⟨S128, .f32⟩ : BufTy).Contents (Elt F) → (⟨S1x128, .f32⟩ : BufTy).Contents (Elt F)),
    StableHlo.unary main_v49 main_v50 (broadcastInDim S50000x128 ![0, 1] bcast_S1x128_S50000x128_0_1 : (⟨S1x128, .f32⟩ : BufTy).Contents (Elt F) → (⟨S50000x128, .f32⟩ : BufTy).Contents (Elt F)),
    StableHlo.binary main_v48 main_v50 main_v51 (addf : (⟨S50000x128, .f32⟩ : BufTy).Contents (Elt F) → (⟨S50000x128, .f32⟩ : BufTy).Contents (Elt F) → (⟨S50000x128, .f32⟩ : BufTy).Contents (Elt F)),
    StableHlo.nullary main_cst_6 (constant S_ .f32 0x00000000#32),
    StableHlo.binary main_v47 main_cst_6 main_v52 ((fun x v => Host.reduceAdd x v reducesTo_S4x50000x128_S50000x128_d0 h_S_) : (⟨S4x50000x128, .f32⟩ : BufTy).Contents (Elt F) → (⟨S_, .f32⟩ : BufTy).Contents (Elt F) → (⟨S50000x128, .f32⟩ : BufTy).Contents (Elt F)),
    StableHlo.binary main_v51 main_v52 main_v53 (addf : (⟨S50000x128, .f32⟩ : BufTy).Contents (Elt F) → (⟨S50000x128, .f32⟩ : BufTy).Contents (Elt F) → (⟨S50000x128, .f32⟩ : BufTy).Contents (Elt F)) ]

-- 87 binds re-associated: the rewriting under the chain recurses once per operation
set_option maxRecDepth 8192 in
set_option maxHeartbeats 4000000 in
/-- The main function is that straight line: its two halves and the three applied functions opened, both sides are
    one chain of steps once the sequencing is re-associated. -/
theorem main_eq (c : Dev nD) : main (F := F) c = seq ops := by
  simp only [main, main_part0, main_part1, fn_var.body, fn_where.body, fn_relu.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
/-- Every operation touches arrays of the one core only. -/
theorem ops_sub : (ops : List (HloOp τ sig (Elt F))).Forall fun op => op.bufs ⊆ tcRefs τ sig :=
  ⟨unary_bufs_sub .., reshape_bufs_sub .., unary_bufs_sub .., reshape_bufs_sub .., nullary_bufs_sub .., unary_bufs_sub ..,
    binary_bufs_sub .., nullary_bufs_sub .., unary_bufs_sub .., binary_bufs_sub .., ternary_bufs_sub .., unary_bufs_sub ..,
    binary_bufs_sub .., nullary_bufs_sub .., unary_bufs_sub .., binary_bufs_sub .., binary_bufs_sub .., nullary_bufs_sub ..,
    unary_bufs_sub .., unary_bufs_sub .., ternary_bufs_sub .., reshape_bufs_sub .., unary_bufs_sub .., unary_bufs_sub ..,
    binary_bufs_sub .., binary_bufs_sub .., unary_bufs_sub .., unary_bufs_sub .., binary_bufs_sub .., nullary_bufs_sub ..,
    binary_bufs_sub .., unary_bufs_sub .., nullary_bufs_sub .., unary_bufs_sub .., binary_bufs_sub .., nullary_bufs_sub ..,
    nullary_bufs_sub .., binary_bufs_sub .., unary_bufs_sub .., nullary_bufs_sub .., unary_bufs_sub .., binary_bufs_sub ..,
    unary_bufs_sub .., binary_bufs_sub .., binary_bufs_sub .., unary_bufs_sub .., nullary_bufs_sub .., binary_bufs_sub ..,
    nullary_bufs_sub .., binary_bufs_sub .., unary_bufs_sub .., unary_bufs_sub .., binary_bufs_sub .., nullary_bufs_sub ..,
    binary_bufs_sub .., nullary_bufs_sub .., unary_bufs_sub .., unary_bufs_sub .., ternary_bufs_sub .., unary_bufs_sub ..,
    binary_bufs_sub .., nullary_bufs_sub .., unary_bufs_sub .., binary_bufs_sub .., unary_bufs_sub .., unary_bufs_sub ..,
    binary_bufs_sub .., unary_bufs_sub .., unary_bufs_sub .., binary_bufs_sub .., unary_bufs_sub .., unary_bufs_sub ..,
    binary_bufs_sub .., nullary_bufs_sub .., unary_bufs_sub .., binary_bufs_sub .., binary_bufs_sub .., unary_bufs_sub ..,
    unary_bufs_sub .., binary_bufs_sub .., binary_bufs_sub .., unary_bufs_sub .., unary_bufs_sub .., binary_bufs_sub ..,
    nullary_bufs_sub .., binary_bufs_sub .., binary_bufs_sub ..⟩

end Cert.ReferenceIdeal.RefRun

end
-- ==== Proof.RefRun.lean ====
/-
  The reference's run, read back as one term of its arguments.

  Run in order from any memory, each array the straight line writes ends holding the operation's function of its
  operands' contents; the last one therefore holds the composition of them all, which is `RefTerm.result` of the
  eleven argument arrays, and no operation writes an argument.
-/
import proofs.«137962_j6932077216184_2_alg».proof.Proof.RefOps

noncomputable section

namespace Cert.ReferenceIdeal.RefRun

open Cert.ReferenceIdeal Idealize.ShloMosaic Idealize.ShloMosaic.TcCoe Idealize.SL.Sem Idealize.ShloMosaic.StableHlo

variable [Facts]
open Facts₀ Facts

attribute [local irreducible] Host.reduceAdd Host.gather Host.scatterAdd in
set_option maxRecDepth 8192 in
set_option maxHeartbeats 40000000 in
/-- The last array after the line: each operation's result read at its own array and passed over at every other,
    what is left is the composition, equal to the stated term by unfolding its definitions. -/
theorem out_eq (V : Valuation τ sig (Elt Ideal)) :
    after (ops (F := Ideal)) V (main_v53 : DevRef τ sig)
      = RefTerm.result (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) := by
  after_results_simp
  rfl

/-! No operation writes an argument: each keeps its contents. -/

set_option maxRecDepth 8192 in
set_option maxHeartbeats 4000000 in
theorem arg0_eq (V : Valuation τ sig (Elt Ideal)) :
    after (ops (F := Ideal)) V (main_arg0 : DevRef τ sig) = V (main_arg0 : DevRef τ sig) := by
  after_results_simp

set_option maxRecDepth 8192 in
set_option maxHeartbeats 4000000 in
theorem arg1_eq (V : Valuation τ sig (Elt Ideal)) :
    after (ops (F := Ideal)) V (main_arg1 : DevRef τ sig) = V (main_arg1 : DevRef τ sig) := by
  after_results_simp

set_option maxRecDepth 8192 in
set_option maxHeartbeats 4000000 in
theorem arg2_eq (V : Valuation τ sig (Elt Ideal)) :
    after (ops (F := Ideal)) V (main_arg2 : DevRef τ sig) = V (main_arg2 : DevRef τ sig) := by
  after_results_simp

set_option maxRecDepth 8192 in
set_option maxHeartbeats 4000000 in
theorem arg3_eq (V : Valuation τ sig (Elt Ideal)) :
    after (ops (F := Ideal)) V (main_arg3 : DevRef τ sig) = V (main_arg3 : DevRef τ sig) := by
  after_results_simp

set_option maxRecDepth 8192 in
set_option maxHeartbeats 4000000 in
theorem arg4_eq (V : Valuation τ sig (Elt Ideal)) :
    after (ops (F := Ideal)) V (main_arg4 : DevRef τ sig) = V (main_arg4 : DevRef τ sig) := by
  after_results_simp

set_option maxRecDepth 8192 in
set_option maxHeartbeats 4000000 in
theorem arg5_eq (V : Valuation τ sig (Elt Ideal)) :
    after (ops (F := Ideal)) V (main_arg5 : DevRef τ sig) = V (main_arg5 : DevRef τ sig) := by
  after_results_simp

set_option maxRecDepth 8192 in
set_option maxHeartbeats 4000000 in
theorem arg6_eq (V : Valuation τ sig (Elt Ideal)) :
    after (ops (F := Ideal)) V (main_arg6 : DevRef τ sig) = V (main_arg6 : DevRef τ sig) := by
  after_results_simp

set_option maxRecDepth 8192 in
set_option maxHeartbeats 4000000 in
theorem arg7_eq (V : Valuation τ sig (Elt Ideal)) :
    after (ops (F := Ideal)) V (main_arg7 : DevRef τ sig) = V (main_arg7 : DevRef τ sig) := by
  after_results_simp

set_option maxRecDepth 8192 in
set_option maxHeartbeats 4000000 in
theorem arg8_eq (V : Valuation τ sig (Elt Ideal)) :
    after (ops (F := Ideal)) V (main_arg8 : DevRef τ sig) = V (main_arg8 : DevRef τ sig) := by
  after_results_simp

set_option maxRecDepth 8192 in
set_option maxHeartbeats 4000000 in
theorem arg9_eq (V : Valuation τ sig (Elt Ideal)) :
    after (ops (F := Ideal)) V (main_arg9 : DevRef τ sig) = V (main_arg9 : DevRef τ sig) := by
  after_results_simp

set_option maxRecDepth 8192 in
set_option maxHeartbeats 4000000 in
theorem arg10_eq (V : Valuation τ sig (Elt Ideal)) :
    after (ops (F := Ideal)) V (main_arg10 : DevRef τ sig) = V (main_arg10 : DevRef τ sig) := by
  after_results_simp

/-- On every device, from any memory with zero counters: every weakly fair execution of the reference terminates
    with its result array at `RefTerm.result` of the argument arrays' launch contents, and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v53) = RefTerm.result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨(h c main_v53).trans (out_eq (launchContents m c)),
      (h c main_arg0).trans (arg0_eq (launchContents m c)),
      (h c main_arg1).trans (arg1_eq (launchContents m c)),
      (h c main_arg2).trans (arg2_eq (launchContents m c)),
      (h c main_arg3).trans (arg3_eq (launchContents m c)),
      (h c main_arg4).trans (arg4_eq (launchContents m c)),
      (h c main_arg5).trans (arg5_eq (launchContents m c)),
      (h c main_arg6).trans (arg6_eq (launchContents m c)),
      (h c main_arg7).trans (arg7_eq (launchContents m c)),
      (h c main_arg8).trans (arg8_eq (launchContents m c)),
      (h c main_arg9).trans (arg9_eq (launchContents m c)),
      (h c main_arg10).trans (arg10_eq (launchContents m c))⟩)
    (run_seq scopedRefs_eq scopedSems_eq defs main (fun _ => ops) main_eq (fun _ => ops_sub) m ρ)

end Cert.ReferenceIdeal.RefRun

end
-- ==== Proof.LibReduceAt.lean ====
/-
  Reductions over one axis read at an index of the result, at the ideal instance, with the reduced index named by
  its coordinates.

  For an a by b array: a row's sum, a row's minimum and a column's maximum (a kernel's vector reductions) are the sum,
  the fold of min and the fold of max over the coordinate that was reduced away, of the array's entries at (i, j).
  For an n by a by b array the host's one-operand reduce with a commutative associative operation, along the last axis
  or along the middle axis, is likewise the fold from its initial value over that coordinate of the entries at
  (n, i, j). The folds are over the whole finite type of the reduced coordinate, in no particular order.
-/
import Idealize.ShloMosaic.PureOps.Ideal.Laws
import Idealize.ShloMosaic.PureOps.Reduce
import Idealize.ShloMosaic.Lib.ValueIdx

noncomputable section

namespace Idealize.ShloMosaic.ReduceAt

open Idealize.ShloMosaic Idealize.ShloMosaic.ValueIdx

variable {a b n : ℕ} {φ : FTy}

/-! ### Rank 2: the index put back by a reduction along the columns' axis, or along the rows' axis -/

theorem lift_along_row (h : (⟨2, ![a, b]⟩ : Shape).Reduces [(1 : Fin 2)] ⟨1, ![a]⟩) (i : Fin a) (j : Fin b) :
    h.lift (ix1 i) j = ix2 i j := by
  funext ax
  apply Fin.ext
  match ax with
  | ⟨0, _⟩ => rfl
  | ⟨1, _⟩ => rfl

theorem lift_along_col (h : (⟨2, ![a, b]⟩ : Shape).Reduces [(0 : Fin 2)] ⟨1, ![b]⟩) (j : Fin b) (i : Fin a) :
    h.lift (ix1 j) i = ix2 i j := by
  funext ax
  apply Fin.ext
  match ax with
  | ⟨0, _⟩ => rfl
  | ⟨1, _⟩ => rfl

/-- A row's sum. -/
theorem row_sum_apply (v : FVec Ideal (⟨2, ![a, b]⟩ : Shape) φ) (acc : BitVec φ.bits)
    (h : (⟨2, ![a, b]⟩ : Shape).Reduces [(1 : Fin 2)] ⟨1, ![a]⟩) (hφ : FKind.Formats φ) (hacc : acc = FKind.add.neutral φ hφ)
    (i : Fin a) :
    multiReduction .add [(1 : Fin 2)] ⟨1, ![a]⟩ v acc h hφ hacc (ix1 i) = ∑ j : Fin b, v (ix2 i j) :=
  (Ideal.multiReduction_add_single v acc h hφ hacc (ix1 i)).trans
    (Finset.sum_congr rfl fun j _ => congrArg v (lift_along_row h i j))

/-- A column's sum. -/
theorem col_sum_apply (v : FVec Ideal (⟨2, ![a, b]⟩ : Shape) φ) (acc : BitVec φ.bits)
    (h : (⟨2, ![a, b]⟩ : Shape).Reduces [(0 : Fin 2)] ⟨1, ![b]⟩) (hφ : FKind.Formats φ) (hacc : acc = FKind.add.neutral φ hφ)
    (j : Fin b) :
    multiReduction .add [(0 : Fin 2)] ⟨1, ![b]⟩ v acc h hφ hacc (ix1 j) = ∑ i : Fin a, v (ix2 i j) :=
  (Ideal.multiReduction_add_single v acc h hφ hacc (ix1 j)).trans
    (Finset.sum_congr rfl fun i _ => congrArg v (lift_along_col h j i))

/-- A row's minimum, from the accumulator's value. -/
theorem row_min_apply (v : FVec Ideal (⟨2, ![a, b]⟩ : Shape) φ) (acc : BitVec φ.bits)
    (h : (⟨2, ![a, b]⟩ : Shape).Reduces [(1 : Fin 2)] ⟨1, ![a]⟩) (hφ : FKind.Formats φ) (hacc : acc = FKind.minimumf.neutral φ hφ)
    (i : Fin a) :
    multiReduction .minimumf [(1 : Fin 2)] ⟨1, ![a]⟩ v acc h hφ hacc (ix1 i)
      = (Finset.univ : Finset (Fin b)).fold min (Ideal.ofBits φ acc) (fun j => v (ix2 i j)) := by
  rw [multiReduction_minimumf_eq_fold, h.fold_filter_drop_single]
  have e : (v ∘ h.lift (ix1 i)) = fun j : Fin b => v (ix2 i j) := funext fun j => congrArg v (lift_along_row h i j)
  rw [e]
  rfl

/-- A column's maximum, from the accumulator's value. -/
theorem col_max_apply (v : FVec Ideal (⟨2, ![a, b]⟩ : Shape) φ) (acc : BitVec φ.bits)
    (h : (⟨2, ![a, b]⟩ : Shape).Reduces [(0 : Fin 2)] ⟨1, ![b]⟩) (hφ : FKind.Formats φ) (hacc : acc = FKind.maximumf.neutral φ hφ)
    (j : Fin b) :
    multiReduction .maximumf [(0 : Fin 2)] ⟨1, ![b]⟩ v acc h hφ hacc (ix1 j)
      = (Finset.univ : Finset (Fin a)).fold max (Ideal.ofBits φ acc) (fun i => v (ix2 i j)) := by
  rw [Ideal.multiReduction_maximumf_single]
  have e : (v ∘ h.lift (ix1 j)) = fun i : Fin a => v (ix2 i j) := funext fun i => congrArg v (lift_along_col h j i)
  rw [e]
  rfl

/-! ### Rank 3: the host's reduce along the last axis, or along the middle axis -/

theorem lift_along_last (h : (⟨3, ![n, a, b]⟩ : Shape).Reduces [(2 : Fin 3)] ⟨2, ![n, a]⟩) (p : Fin n) (i : Fin a) (j : Fin b) :
    h.lift (ix2 p i) j = ix3 p i j := by
  funext ax
  apply Fin.ext
  match ax with
  | ⟨0, _⟩ => rfl
  | ⟨1, _⟩ => rfl
  | ⟨2, _⟩ => rfl

theorem lift_along_middle (h : (⟨3, ![n, a, b]⟩ : Shape).Reduces [(1 : Fin 3)] ⟨2, ![n, b]⟩) (p : Fin n) (j : Fin b) (i : Fin a) :
    h.lift (ix2 p j) i = ix3 p i j := by
  funext ax
  apply Fin.ext
  match ax with
  | ⟨0, _⟩ => rfl
  | ⟨1, _⟩ => rfl
  | ⟨2, _⟩ => rfl

/-- The host's reduce along the last axis. -/
theorem host_reduce_last_apply {u : Shape} (f : EReal → EReal → EReal) [Std.Commutative f] [Std.Associative f]
    (x : (⟨3, ![n, a, b]⟩ : Shape).Idx → EReal) (init : u.Idx → EReal)
    (h' : (⟨3, ![n, a, b]⟩ : Shape).ReducesTo [(2 : Fin 3)] ⟨2, ![n, a]⟩) (hu : 0 < u.numel)
    (h : (⟨3, ![n, a, b]⟩ : Shape).Reduces [(2 : Fin 3)] ⟨2, ![n, a]⟩) (p : Fin n) (i : Fin a) :
    Host.reduce f x init h' hu (ix2 p i)
      = (Finset.univ : Finset (Fin b)).fold f (init (Shape.Idx.first hu)) (fun j => x (ix3 p i j)) := by
  rw [Host.reduce_eq_fold, Shape.ReducesTo.drop_eq_drop h' h, h.fold_filter_drop_single]
  have e : (x ∘ h.lift (ix2 p i)) = fun j : Fin b => x (ix3 p i j) := funext fun j => congrArg x (lift_along_last h p i j)
  rw [e]
  rfl

/-- The host's reduce along the middle axis. -/
theorem host_reduce_middle_apply {u : Shape} (f : EReal → EReal → EReal) [Std.Commutative f] [Std.Associative f]
    (x : (⟨3, ![n, a, b]⟩ : Shape).Idx → EReal) (init : u.Idx → EReal)
    (h' : (⟨3, ![n, a, b]⟩ : Shape).ReducesTo [(1 : Fin 3)] ⟨2, ![n, b]⟩) (hu : 0 < u.numel)
    (h : (⟨3, ![n, a, b]⟩ : Shape).Reduces [(1 : Fin 3)] ⟨2, ![n, b]⟩) (p : Fin n) (j : Fin b) :
    Host.reduce f x init h' hu (ix2 p j)
      = (Finset.univ : Finset (Fin a)).fold f (init (Shape.Idx.first hu)) (fun i => x (ix3 p i j)) := by
  rw [Host.reduce_eq_fold, Shape.ReducesTo.drop_eq_drop h' h, h.fold_filter_drop_single]
  have e : (x ∘ h.lift (ix2 p j)) = fun i : Fin a => x (ix3 p i j) := funext fun i => congrArg x (lift_along_middle h p j i)
  rw [e]
  rfl

end Idealize.ShloMosaic.ReduceAt

end
-- ==== Proof.RefValueOps.lean ====
/-
  The reference's building blocks read at an index, at the ideal instance.

  Every array operation the reference composes is, entry by entry, an elementary expression on the extended reals:
  a parameter spread over new axes reads the parameter at the coordinates it has; a sum along an axis is the finite
  sum over that coordinate; a (batched) matrix product is the finite sum over the contracted coordinate of the
  products of the entries. Coordinates are named one by one, so that no array shape survives on the right-hand sides.
-/
import proofs.«137962_j6932077216184_2_alg».proof.Proof.RefTerm
import proofs.«137962_j6932077216184_2_alg».proof.Proof.LibReduceAt
import Idealize.ShloMosaic.Lib.Pipeline.Value
import Idealize.ShloMosaic.Lib.ValueIdx
import Idealize.ShloMosaic.Lib.IdealHost
import Idealize.ShloMosaic.Lib.StackMember
import Idealize.ShloMosaic.PureOps.Ideal.Laws

noncomputable section

open scoped BigOperators

namespace Cert.ReferenceIdeal.RefValue

open Idealize.ShloMosaic Idealize.ShloMosaic.ValueIdx Idealize.ShloMosaic.Pipeline Cert.ReferenceIdeal

variable [Facts]
open Facts₀ Facts

/-! ### Parameters spread over new axes -/

/-- A [4,128] parameter with a unit node axis put in: the parameter at (relation, feature). -/
theorem unitNode_apply (p : FVec Ideal S4x128 .f32) (r : Fin 4) (u : Fin 1) (g : Fin 128) :
    broadcastInDim S4x1x128 ![0, 2] bcast_S4x128_S4x1x128_0_2 p (ix3 r u g) = p (ix2 r g) := by
  refine broadcastInDim_apply _ _ p (ix3 r u g) (ix2 r g) fun a => ?_
  match a with
  | ⟨0, _⟩ => rfl
  | ⟨1, _⟩ => rfl

/-- A [4,1,128] statistic spread over the nodes: the statistic at (relation, 0, feature). -/
theorem spreadStat_apply (p : FVec Ideal S4x1x128 .f32) (r : Fin 4) (n : Fin 50000) (g : Fin 128) :
    RefTerm.spreadStat p (ix3 r n g) = p (ix3 r (0 : Fin 1) g) := by
  unfold RefTerm.spreadStat
  refine broadcastInDim_apply _ _ p (ix3 r n g) (ix3 r (0 : Fin 1) g) fun a => ?_
  match a with
  | ⟨0, _⟩ => rfl
  | ⟨1, _⟩ => rfl
  | ⟨2, _⟩ => rfl

/-- A [4,128] parameter spread over the nodes: the parameter at (relation, feature). -/
theorem spread_apply (p : FVec Ideal S4x128 .f32) (r : Fin 4) (n : Fin 50000) (g : Fin 128) :
    RefTerm.spread p (ix3 r n g) = p (ix2 r g) := by
  unfold RefTerm.spread
  refine (broadcastInDim_apply _ _ _ (ix3 r n g) (ix3 r (0 : Fin 1) g) fun a => ?_).trans (unitNode_apply p r 0 g)
  match a with
  | ⟨0, _⟩ => rfl
  | ⟨1, _⟩ => rfl
  | ⟨2, _⟩ => rfl

/-- The node features set against every relation: the feature at (node, feature). -/
theorem spreadX_apply (x : FVec Ideal S50000x128 .f32) (r : Fin 4) (n : Fin 50000) (f : Fin 128) :
    broadcastInDim S4x50000x128 ![0, 1, 2] bcast_S1x50000x128_S4x50000x128_0_1_2
        (broadcastInDim S1x50000x128 ![1, 2] bcast_S50000x128_S1x50000x128_1_2 x) (ix3 r n f)
      = x (ix2 n f) := by
  refine (broadcastInDim_apply _ _ _ (ix3 r n f) (ix3 (0 : Fin 1) n f) fun a => ?_).trans
    (broadcastInDim_apply _ _ x (ix3 (0 : Fin 1) n f) (ix2 n f) fun a => ?_)
  · match a with
    | ⟨0, _⟩ => rfl
    | ⟨1, _⟩ => rfl
    | ⟨2, _⟩ => rfl
  · match a with
    | ⟨0, _⟩ => rfl
    | ⟨1, _⟩ => rfl

/-- A [128] bias set against every node: the bias at the feature. -/
theorem spreadBias_apply (b : FVec Ideal S128 .f32) (n : Fin 50000) (k : Fin 128) :
    broadcastInDim S50000x128 ![0, 1] bcast_S1x128_S50000x128_0_1 (broadcastInDim S1x128 ![1] bcast_S128_S1x128_1 b) (ix2 n k)
      = b (ix1 k) := by
  refine (broadcastInDim_apply _ _ _ (ix2 n k) (ix2 (0 : Fin 1) k) fun a => ?_).trans
    (broadcastInDim_apply _ _ b (ix2 (0 : Fin 1) k) (ix1 k) fun a => ?_)
  · match a with
    | ⟨0, _⟩ => rfl
    | ⟨1, _⟩ => rfl
  · match a with
    | ⟨0, _⟩ => rfl

/-! ### Sums along an axis -/

/-- The index put back by a sum along the leading axis of a rank-3 array. -/
theorem lift_along_first {n a b : ℕ} (h : (⟨3, ![n, a, b]⟩ : Shape).Reduces [(0 : Fin 3)] ⟨2, ![a, b]⟩) (i : Fin a) (j : Fin b)
    (p : Fin n) : h.lift (ix2 i j) p = ix3 p i j := by
  funext ax
  apply Fin.ext
  match ax with
  | ⟨0, _⟩ => rfl
  | ⟨1, _⟩ => rfl
  | ⟨2, _⟩ => rfl

/-- The sum over the nodes from the zero word, at (relation, feature). -/
theorem nodeSum_apply (h : FVec Ideal S4x50000x128 .f32) (r : Fin 4) (g : Fin 128) :
    Host.reduceAdd h (constant (F := Ideal) S_ .f32 0x00000000#32) reducesTo_S4x50000x128_S4x128_d1 h_S_ (ix2 r g)
      = ∑ n : Fin 50000, h (ix3 r n g) := by
  have hR : S4x50000x128.Reduces [(1 : Fin 3)] S4x128 :=
    ⟨reducesTo_S4x50000x128_S4x128_d1.1, Nat.zero_lt_two, reducesTo_S4x50000x128_S4x128_d1.2⟩
  rw [hostReduceAdd_apply, Ideal.hostReduceAdd_single _ hR, constant_apply, Ideal.ofBits_zero_f32, zero_add]
  show ∑ n : Fin 50000, h (hR.lift (ix2 r g) n) = _
  exact Finset.sum_congr rfl fun n _ => congrArg h (ReduceAt.lift_along_middle hR r g n)

/-- The sum over the relations from the zero word, at (node, feature). -/
theorem relSum_apply (z : FVec Ideal S4x50000x128 .f32) (n : Fin 50000) (k : Fin 128) :
    Host.reduceAdd z (constant (F := Ideal) S_ .f32 0x00000000#32) reducesTo_S4x50000x128_S50000x128_d0 h_S_ (ix2 n k)
      = ∑ r : Fin 4, z (ix3 r n k) := by
  have hR : S4x50000x128.Reduces [(0 : Fin 3)] S50000x128 :=
    ⟨reducesTo_S4x50000x128_S50000x128_d0.1, Nat.zero_lt_two, reducesTo_S4x50000x128_S50000x128_d0.2⟩
  rw [hostReduceAdd_apply, Ideal.hostReduceAdd_single _ hR, constant_apply, Ideal.ofBits_zero_f32, zero_add]
  show ∑ r : Fin 4, z (hR.lift (ix2 n k) r) = _
  exact Finset.sum_congr rfl fun r _ => congrArg z (lift_along_first hR n k r)

/-- The sum over the nodes kept with its unit node axis, at (relation, 0, feature). -/
theorem colSum_apply (h : FVec Ideal S4x50000x128 .f32) (r : Fin 4) (u : Fin 1) (g : Fin 128) :
    RefTerm.colSum h (ix3 r u g) = ∑ n : Fin 50000, h (ix3 r n g) := by
  unfold RefTerm.colSum
  rw [unitNode_apply, nodeSum_apply]

/-! ### Products -/

/-- The product relation by relation, contracting the left factor's features with the right factor's rows. -/
theorem dot3_apply (l : FVec Ideal S4x50000x128 .f32) (w : FVec Ideal S4x128x128 .f32) (r : Fin 4) (n : Fin 50000) (g : Fin 128) :
    Host.dotGeneral dot_S4x50000x128_S4x128x128_S4x50000x128_2_1_1_2_0_0 none l w (ix3 r n g)
      = ∑ f : Fin 128, l (ix3 r n f) * w (ix3 r f g) :=
  StackMember.dotGeneral_stack_apply dot_S4x50000x128_S4x128x128_S4x50000x128_2_1_1_2_0_0_wf none l w r n g

/-- The plain product of the node features with a weight matrix. -/
theorem dot2_apply (x : FVec Ideal S50000x128 .f32) (w : FVec Ideal S128x128 .f32) (n : Fin 50000) (k : Fin 128) :
    Host.dotGeneral dot_S50000x128_S128x128_S50000x128_1_0_0_1_n_n none x w (ix2 n k)
      = ∑ f : Fin 128, x (ix2 n f) * w (ix2 f k) :=
  StackMember.dotGeneral_plain_apply none x w n k

end Cert.ReferenceIdeal.RefValue

end
-- ==== Proof.RefValue.lean ====
/-
  The reference's result, entry by entry, is the layer of the specification.

  Stage by stage: the mean and the centred variance over the nodes (the latter behind a guard "the divisor 50000 - 0
  is positive", which holds, so the guarded branch is the quotient and the not-a-number word is never read), the
  normalised, scaled, shifted and clamped activation, the first linear layer, and at last the self-loop layer plus the
  sum over the four relations of the second linear layer. Each stage read at an index is the matching function of
  the specification applied to the coordinate-wise reading of its operand.
-/
import proofs.«137962_j6932077216184_2_alg».proof.Proof.RefValueOps
import proofs.«137962_j6932077216184_2_alg».proof.Proof.Spec

noncomputable section

open scoped BigOperators

namespace Cert.ReferenceIdeal.RefValue

open Idealize.ShloMosaic Idealize.ShloMosaic.ValueIdx Cert.ReferenceIdeal

variable [Facts]
open Facts₀ Facts

/-! ### The divisor and the guard -/

/-- The float word carried for the number of nodes denotes fifty thousand: (2^23 + 4411392) * 2^(142 - 127 - 23). -/
theorem cN_val : Cert.Rgin.cN = ((50000 : ℝ) : EReal) := by
  unfold Cert.Rgin.cN
  simp [Ideal.ofBits, Ideal.ieee, -EReal.coe_mul]
  norm_num

/-- The variance's divisor, 50000 minus the integer 0 read as a float, is the number of nodes. -/
theorem dof_apply : RefTerm.dof ix0 = Cert.Rgin.cN := by
  unfold RefTerm.dof Cert.Rgin.cN
  rw [subf_apply, constant_apply, sitofp_apply]
  have e : FloatOps.sitofp (F := Ideal) .f32 (constantI S_ 32 0#32 ix0) = 0 := by
    show (((0#32 : BitVec 32).toInt : ℝ) : EReal) = 0
    simp
  rw [e, sub_zero]

/-- The guard "the divisor is positive" is true at every entry. -/
theorem guard_apply (j : S4x1x128.Idx) :
    broadcastInDim S4x1x128 ![] bcast_S_S4x1x128 (cmpf .ogt RefTerm.dof (constant (F := Ideal) S_ .f32 0x00000000#32)) j = 1#1 := by
  rw [broadcastInDim_scalar_apply, cmpf_apply, dof_apply, constant_apply, Ideal.ofBits_zero_f32, Ideal.cmpf_def, cN_val]
  show BitVec.ofBool (decide ((0 : EReal) < ((50000 : ℝ) : EReal))) = 1#1
  rw [decide_eq_true (EReal.coe_pos.mpr (by norm_num))]
  rfl

/-! ### The statistics over the nodes -/

/-- The host's reciprocal square root at an entry. -/
theorem hostRsqrt_apply {s : Shape} (a : FVec Ideal s .f32) (i : s.Idx) : Host.rsqrt a i = Ideal.rsqrt (a i) := rfl

/-- The mean over the nodes, at (relation, 0, feature). -/
theorem colMean_apply (h : FVec Ideal S4x50000x128 .f32) (r : Fin 4) (u : Fin 1) (g : Fin 128) :
    RefTerm.colMean h (ix3 r u g) = Cert.Rgin.mean (fun r n g => h (ix3 r n g)) r g := by
  unfold RefTerm.colMean Cert.Rgin.mean Cert.Rgin.cN
  rw [hostDivf_apply, colSum_apply, broadcastInDim_scalar_apply, constant_apply]

/-- The guarded centred variance over the nodes, at (relation, 0, feature). -/
theorem colVar_apply (h : FVec Ideal S4x50000x128 .f32) (r : Fin 4) (u : Fin 1) (g : Fin 128) :
    RefTerm.colVar h (ix3 r u g) = Cert.Rgin.varC (fun r n g => h (ix3 r n g)) r g := by
  unfold RefTerm.colVar
  rw [select_apply, guard_apply, select_one, hostDivf_apply, colSum_apply, broadcastInDim_scalar_apply, dof_apply]
  unfold Cert.Rgin.varC
  refine congrArg (fun s => Ideal.div s Cert.Rgin.cN) (Finset.sum_congr rfl fun n _ => ?_)
  rw [mulf_apply, subf_apply, spreadStat_apply, colMean_apply]

/-- The activation, at (relation, node, feature). -/
theorem activated_apply (h : FVec Ideal S4x50000x128 .f32) (a7 a8 : FVec Ideal S4x128 .f32) (r : Fin 4) (n : Fin 50000) (g : Fin 128) :
    RefTerm.activated h a7 a8 (ix3 r n g)
      = Cert.Rgin.act (fun r n g => h (ix3 r n g)) (Cert.Rgin.mean (fun r n g => h (ix3 r n g)))
          (Cert.Rgin.varC (fun r n g => h (ix3 r n g))) (fun r g => a7 (ix2 r g)) (fun r g => a8 (ix2 r g)) r n g := by
  unfold RefTerm.activated Cert.Rgin.act Cert.Rgin.cEps
  rw [maximumf_apply, addf_apply, mulf_apply, mulf_apply, subf_apply, spreadStat_apply, spreadStat_apply, colMean_apply,
    spread_apply, spread_apply, hostRsqrt_apply, addf_apply, colVar_apply, broadcastInDim_scalar_apply, constant_apply,
    broadcastInDim_scalar_apply, constant_apply, Ideal.ofBits_zero_f32]

/-! ### The two linear layers -/

/-- The first linear layer, at (relation, node, feature). -/
theorem hidden_apply (a0 : FVec Ideal S50000x128 .f32) (a1 : IVec S2x800000 32) (a2 : IVec S800000 32) (a5 : FVec Ideal S4x128x128 .f32)
    (a6 : FVec Ideal S4x128 .f32) (r : Fin 4) (n : Fin 50000) (g : Fin 128) :
    RefTerm.hidden a0 a1 a2 a5 a6 (ix3 r n g)
      = Cert.Rgin.lin1 (fun n f => a0 (ix2 n f)) (fun r n f => aggTerm a0 a1 a2 (ix3 r n f)) (fun r f g => a5 (ix3 r f g))
          (fun r g => a6 (ix2 r g)) r n g := by
  unfold RefTerm.hidden Cert.Rgin.lin1
  rw [addf_apply, dot3_apply, spread_apply]
  refine congrArg (· + a6 (ix2 r g)) (Finset.sum_congr rfl fun f _ => ?_)
  rw [addf_apply, spreadX_apply]

/-- The result at (node, feature) is the layer with the centred variance. -/
theorem result_apply_ix (a0 : FVec Ideal S50000x128 .f32) (a1 : IVec S2x800000 32) (a2 : IVec S800000 32) (a3 : FVec Ideal S128x128 .f32)
    (a4 : FVec Ideal S128 .f32) (a5 : FVec Ideal S4x128x128 .f32) (a6 a7 a8 : FVec Ideal S4x128 .f32) (a9 : FVec Ideal S4x128x128 .f32)
    (a10 : FVec Ideal S4x128 .f32) (n : Fin 50000) (k : Fin 128) :
    RefTerm.result a0 a1 a2 a3 a4 a5 a6 a7 a8 a9 a10 (ix2 n k)
      = Cert.Rgin.layer (fun n f => a0 (ix2 n f)) (fun r n f => aggTerm a0 a1 a2 (ix3 r n f)) (fun f k => a3 (ix2 f k)) (fun k => a4 (ix1 k))
          (fun r f g => a5 (ix3 r f g)) (fun r g => a6 (ix2 r g)) (fun r g => a7 (ix2 r g)) (fun r g => a8 (ix2 r g))
          (fun r g k => a9 (ix3 r g k)) (fun r k => a10 (ix2 r k)) n k := by
  have eh : (fun r n g => RefTerm.hidden a0 a1 a2 a5 a6 (ix3 r n g))
      = Cert.Rgin.lin1 (fun n f => a0 (ix2 n f)) (fun r n f => aggTerm a0 a1 a2 (ix3 r n f)) (fun r f g => a5 (ix3 r f g))
          (fun r g => a6 (ix2 r g)) :=
    funext fun r => funext fun n => funext fun g => hidden_apply a0 a1 a2 a5 a6 r n g
  unfold RefTerm.result Cert.Rgin.layer Cert.Rgin.out
  rw [addf_apply, addf_apply, dot2_apply, spreadBias_apply, relSum_apply]
  refine congrArg (_ + ·) (Finset.sum_congr rfl fun r _ => ?_)
  rw [addf_apply, dot3_apply, spread_apply]
  refine congrArg (· + a10 (ix2 r k)) (Finset.sum_congr rfl fun g _ => ?_)
  rw [activated_apply, eh]

/-- The result at any index of the output array. -/
theorem result_apply (a0 : FVec Ideal S50000x128 .f32) (a1 : IVec S2x800000 32) (a2 : IVec S800000 32) (a3 : FVec Ideal S128x128 .f32)
    (a4 : FVec Ideal S128 .f32) (a5 : FVec Ideal S4x128x128 .f32) (a6 a7 a8 : FVec Ideal S4x128 .f32) (a9 : FVec Ideal S4x128x128 .f32)
    (a10 : FVec Ideal S4x128 .f32) (i : S50000x128.Idx) :
    RefTerm.result a0 a1 a2 a3 a4 a5 a6 a7 a8 a9 a10 i
      = Cert.Rgin.layer (fun n f => a0 (ix2 n f)) (fun r n f => aggTerm a0 a1 a2 (ix3 r n f)) (fun f k => a3 (ix2 f k)) (fun k => a4 (ix1 k))
          (fun r f g => a5 (ix3 r f g)) (fun r g => a6 (ix2 r g)) (fun r g => a7 (ix2 r g)) (fun r g => a8 (ix2 r g))
          (fun r g k => a9 (ix3 r g k)) (fun r k => a10 (ix2 r k)) (i 0) (i 1) := by
  obtain ⟨n, k, rfl⟩ : ∃ (n : Fin 50000) (k : Fin 128), i = ix2 n k := ⟨i 0, i 1, eq_ix2 i⟩
  exact result_apply_ix a0 a1 a2 a3 a4 a5 a6 a7 a8 a9 a10 n k

end Cert.ReferenceIdeal.RefValue

end
-- ==== Proof.Claims.lean ====
/-
  The certificate's claims from the two runs and the two values.

  The kernel program ends with its result at the layer computed with the variance BY MOMENTS (clamped at
  zero) of the argument arrays; the reference ends at the layer with the CENTRED variance. Under the
  precondition every float input is a real number, so every entry of the hidden layer is a real number (the
  neighbour sums are finite sums of node features), and there the two variances are one number: the two
  results agree entry by entry.
-/
import proofs.«137962_j6932077216184_2_alg».proof.Defs
import proofs.«137962_j6932077216184_2_alg».proof.Proof.Gen.Kernel.Frame
import proofs.«137962_j6932077216184_2_alg».proof.Proof.Gen.Pre_finite_inputs
import proofs.«137962_j6932077216184_2_alg».proof.Proof.KRun
import proofs.«137962_j6932077216184_2_alg».proof.Proof.KArgs
import proofs.«137962_j6932077216184_2_alg».proof.Proof.VarLaw
import proofs.«137962_j6932077216184_2_alg».proof.Proof.Finite
import proofs.«137962_j6932077216184_2_alg».proof.Proof.RefRun
import proofs.«137962_j6932077216184_2_alg».proof.Proof.RefValue

noncomputable section

namespace Cert.Proof.Claims

open Idealize.ShloMosaic Idealize.ShloMosaic.TcCoe Idealize.ShloMosaic.ValueIdx Idealize.SL.Sem
open Cert.Rgin

/-- The two programs start with the same eighteen operations: their neighbour sums are one term. -/
theorem agg_same (a0 : FVec Ideal Cert.KernelIdeal.S50000x128 .f32) (a1 : IVec Cert.KernelIdeal.S2x800000 32)
    (a2 : IVec Cert.KernelIdeal.S800000 32) :
    Cert.ReferenceIdeal.aggTerm a0 a1 a2 = Cert.KernelIdeal.aggTerm a0 a1 a2 := rfl

theorem frame_k : Cert.frame_Kernel := fun m ρ _ => Cert.Kernel.Gen.frame m ρ

theorem frame_ki : Cert.frame_KernelIdeal := fun m ρ _ => Cert.KernelIdeal.Gen.frame m ρ

/-- The reference's frame is its run with the result forgotten. -/
theorem frame_ri : Cert.frame_ReferenceIdeal := fun m ρ _ =>
  (θ_run (Cert.ReferenceIdeal.defs (F := Ideal)) _ _).mono (fun _ h c => (h c).2) (Cert.ReferenceIdeal.RefRun.run m ρ)

/-- Under the precondition every entry of the hidden layer is a real number. -/
theorem hid_real (m : (ℓ : Loc Cert.KernelIdeal.nD Cert.KernelIdeal.τ Cert.KernelIdeal.sig) → Buf (Elt Ideal) ℓ)
    (hpre : Cert.Pre_KernelIdeal m) (c : Dev Cert.KernelIdeal.nD) :
    ∀ r n g, ∃ y : ℝ, lin1 (Cert.KernelIdeal.KArgs.x m c) (Cert.KernelIdeal.KArgs.agg m c) (Cert.KernelIdeal.KArgs.W1 m c)
      (Cert.KernelIdeal.KArgs.b1 m c) r n g = (y : EReal) := by
  obtain ⟨h0, h3, h4, h5, h6, h7, h8, h9, h10⟩ := Cert.Rgin.Finite.reals_of_pre _ _ _ _ _ _ _ _ _ _ _ (hpre c)
  exact lin1_real _ _ _ _ (fun n f => h0 _) (fun r n f => Cert.Rgin.Finite.agg_real _ _ _ h0 _) (fun r f g => h5 _) (fun r g => h6 _)

/-- The two programs, from memories agreeing on the arguments, end with equal results — given what the kernel
    program's result buffer holds. -/
theorem algebraic_of
    (hval : ∀ (m : (ℓ : Loc Cert.KernelIdeal.nD Cert.KernelIdeal.τ Cert.KernelIdeal.sig) → Buf (Elt Ideal) ℓ)
        (ρ : Dev Cert.KernelIdeal.nD → PrngReg) (c : Dev Cert.KernelIdeal.nD),
      (Cert.KernelIdeal.Gen.W4 m ρ c (Proc.devRef .tc Cert.KernelIdeal.main_v34) : Cert.KernelIdeal.S50000x128.Idx → EReal)
        = fun i => layerM (Cert.KernelIdeal.KArgs.x m c) (Cert.KernelIdeal.KArgs.agg m c) (Cert.KernelIdeal.KArgs.Ws m c)
            (Cert.KernelIdeal.KArgs.bs m c) (Cert.KernelIdeal.KArgs.W1 m c) (Cert.KernelIdeal.KArgs.b1 m c)
            (Cert.KernelIdeal.KArgs.gamma m c) (Cert.KernelIdeal.KArgs.beta m c) (Cert.KernelIdeal.KArgs.W2 m c)
            (Cert.KernelIdeal.KArgs.b2 m c) (i 0) (i 1)) :
    Cert.algebraic_KernelIdeal_ReferenceIdeal := by
  intro m ρ m' ρ' hpre hagree
  refine ⟨fun c => fun i => layer (Cert.KernelIdeal.KArgs.x m c) (Cert.KernelIdeal.KArgs.agg m c) (Cert.KernelIdeal.KArgs.Ws m c)
      (Cert.KernelIdeal.KArgs.bs m c) (Cert.KernelIdeal.KArgs.W1 m c) (Cert.KernelIdeal.KArgs.b1 m c)
      (Cert.KernelIdeal.KArgs.gamma m c) (Cert.KernelIdeal.KArgs.beta m c) (Cert.KernelIdeal.KArgs.W2 m c)
      (Cert.KernelIdeal.KArgs.b2 m c) (i 0) (i 1), ?_, ?_⟩
  · refine (θ_run (Cert.KernelIdeal.defs (F := Ideal)) _ _).mono (fun r h c => ⟨(h c).1.trans ?_, (h c).2⟩)
      (Cert.KernelIdeal.KRun.run (F := Ideal) m ρ)
    rw [hval m ρ c, layerM_eq_layer _ _ _ _ _ _ _ _ _ _ (hid_real m hpre c)]
  · refine (θ_run (Cert.ReferenceIdeal.defs (F := Ideal)) _ _).mono (fun r h c => ⟨(h c).1.trans ?_, (h c).2⟩)
      (Cert.ReferenceIdeal.RefRun.run m' ρ')
    obtain ⟨e0, e1, e2, e3, e4, e5, e6, e7, e8, e9, e10⟩ := hagree c
    rw [e0, e1, e2, e3, e4, e5, e6, e7, e8, e9, e10]
    funext i
    exact Cert.ReferenceIdeal.RefValue.result_apply _ _ _ _ _ _ _ _ _ _ _ i

end Cert.Proof.Claims

end
-- ==== Proof.KHost.lean ====
/-
  What the two launches find in their input arrays, read off the host operations around them.

  Before the first launch: the node features and the first layer's weights are the arguments themselves,
  the neighbour sums are the shared chain of the first eighteen operations, and the first layer's bias is
  the argument with a unit axis inserted.
-/
import proofs.«137962_j6932077216184_2_alg».proof.Proof.Gen.KernelIdeal.Frame
import proofs.«137962_j6932077216184_2_alg».proof.Proof.AggK
import Idealize.ShloMosaic.Lib.StableHlo.Run

set_option maxRecDepth 16384

noncomputable section

namespace Cert.KernelIdeal.KHost

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg) (c : Dev nD)

/-- No operation of the first stretch writes the buffer b (decided on the operations' result buffers). -/
local macro "unwritten0" : tactic =>
  `(tactic| exact List.forall_iff_forall_mem.mp (by
      simp only [hostOps0, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide)))

/-- The first launch finds the node features as launched. -/
theorem V1_arg0 : V1 m ρ c main_arg0 = m ((c : Thread nD τ).loc main_arg0) :=
  (StableHlo.after_of_forall_not_mem (b := Proc.devRef .tc main_arg0) _ _ (by unwritten0)).trans rfl

/-- The first launch finds the first layer's weights as launched. -/
theorem V1_arg5 : V1 m ρ c main_arg5 = m ((c : Thread nD τ).loc main_arg5) :=
  (StableHlo.after_of_forall_not_mem (b := Proc.devRef .tc main_arg5) _ _ (by unwritten0)).trans rfl

set_option maxHeartbeats 4000000 in
/-- The first launch finds the neighbour sums in main_v17. -/
theorem V1_v17 : (V1 m ρ c main_v17 : S4x50000x128.Idx → EReal)
    = aggTerm (m ((c : Thread nD τ).loc main_arg0)) (m ((c : Thread nD τ).loc main_arg1)) (m ((c : Thread nD τ).loc main_arg2)) := by
  show StableHlo.after hostOps0 (W0 m ρ c) (Proc.devRef .tc main_v17) = _
  after_results_simp
  rfl

/-- The first launch finds the first layer's bias with a unit axis inserted. -/
theorem V1_v18 : (V1 m ρ c main_v18 : S4x1x128.Idx → EReal)
    = shapeCast S4x1x128 (m ((c : Thread nD τ).loc main_arg6) : S4x128.Idx → EReal) Facts₀.shapeCasts_S4x128_S4x1x128 := by
  show StableHlo.after hostOps0 (W0 m ρ c) (Proc.devRef .tc main_v18) = _
  after_results
  rfl

/-! Before the second launch: the node features, the second layer's weights and the self-loop weights are the
    arguments; the hidden layer is what the first launch left in its first output array; the mean and the
    variance are host operations on the two arrays of per-tile partial sums; scale, shift and the two biases are
    the arguments with a unit axis inserted. -/

/-- No operation of the second stretch writes the buffer b (decided on the operations' result buffers). -/
local macro "unwritten1" : tactic =>
  `(tactic| exact List.forall_iff_forall_mem.mp (by
      simp only [hostOps1, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide)))

/-- The second launch finds the node features as launched. -/
theorem V3_arg0 : V3 m ρ c main_arg0 = m ((c : Thread nD τ).loc main_arg0) :=
  ((W4_arr m ρ c 0).trans (((dat1 (V3 m ρ) c).arrAt_in 0 rfl _).trans (A_eq1 (V3 m ρ) c 0))).symm.trans (W4_main_arg0 m ρ c)

/-- The second launch finds the second layer's weights as launched. -/
theorem V3_arg9 : V3 m ρ c main_arg9 = m ((c : Thread nD τ).loc main_arg9) :=
  ((W4_arr m ρ c 6).trans (((dat1 (V3 m ρ) c).arrAt_in 6 rfl _).trans (A_eq1 (V3 m ρ) c 6))).symm.trans (W4_main_arg9 m ρ c)

/-- The second launch finds the self-loop weights as launched. -/
theorem V3_arg3 : V3 m ρ c main_arg3 = m ((c : Thread nD τ).loc main_arg3) :=
  ((W4_arr m ρ c 8).trans (((dat1 (V3 m ρ) c).arrAt_in 8 rfl _).trans (A_eq1 (V3 m ρ) c 8))).symm.trans (W4_main_arg3 m ρ c)

/-- The second launch finds the hidden layer where the first launch's pipeline left it. -/
theorem V3_v23_0 : V3 m ρ c main_v23_0 = (dat0 (V1 m ρ) c).arrAt 4 cfg0.N :=
  (StableHlo.after_of_forall_not_mem (b := Proc.devRef .tc main_v23_0) _ _ (by unwritten1)).trans (W2_arr m ρ c 4)

/-- The mean over the nodes from the per-tile sums: their sum over the 25 tiles, divided by the node count. -/
def meanOf (S : FVec Ideal S25x4x1x128 .f32) : FVec Ideal S4x1x128 .f32 :=
  Host.divf (Host.reduceAdd S (constant (F := Ideal) S_ .f32 0x00000000#32) Facts₀.reducesTo_S25x4x1x128_S4x1x128_d0 Facts₀.h_S_)
    (broadcastInDim S4x1x128 ![] Facts₀.bcast_S_S4x1x128 (constant (F := Ideal) S_ .f32 0x47435000#32))

/-- The variance by moments from the per-tile sums of squares and the mean, clamped below at zero. -/
def varOf (S SS : FVec Ideal S25x4x1x128 .f32) : FVec Ideal S4x1x128 .f32 :=
  maximumf
    (subf
      (Host.divf (Host.reduceAdd SS (constant (F := Ideal) S_ .f32 0x00000000#32) Facts₀.reducesTo_S25x4x1x128_S4x1x128_d0 Facts₀.h_S_)
        (broadcastInDim S4x1x128 ![] Facts₀.bcast_S_S4x1x128 (constant (F := Ideal) S_ .f32 0x47435000#32)))
      (mulf (meanOf S) (meanOf S)))
    (broadcastInDim S4x1x128 ![] Facts₀.bcast_S_S4x1x128 (constant (F := Ideal) S_ .f32 0x00000000#32))

/-- The second launch finds the mean of the first launch's per-tile sums. -/
theorem V3_v27 : (V3 m ρ c main_v27 : S4x1x128.Idx → EReal) = meanOf ((dat0 (V1 m ρ) c).arrAt 5 cfg0.N) := by
  rw [← W2_arr m ρ c 5]
  show StableHlo.after hostOps1 (W2 m ρ c) (Proc.devRef .tc main_v27) = _
  after_results
  rfl

/-- The second launch finds the clamped variance by moments. -/
theorem V3_v33 : (V3 m ρ c main_v33 : S4x1x128.Idx → EReal)
    = varOf ((dat0 (V1 m ρ) c).arrAt 5 cfg0.N) ((dat0 (V1 m ρ) c).arrAt 6 cfg0.N) := by
  rw [← W2_arr m ρ c 5, ← W2_arr m ρ c 6]
  show StableHlo.after hostOps1 (W2 m ρ c) (Proc.devRef .tc main_v33) = _
  after_results
  rfl

/-- A buffer the first stretch wrote, that neither launch nor the second stretch touches, still holds it. -/
theorem V3_v19 : (V3 m ρ c main_v19 : S4x1x128.Idx → EReal)
    = shapeCast S4x1x128 (m ((c : Thread nD τ).loc main_arg7) : S4x128.Idx → EReal) Facts₀.shapeCasts_S4x128_S4x1x128 := by
  refine ((StableHlo.after_of_forall_not_mem (b := Proc.devRef .tc main_v19) _ _ (by unwritten1)).trans
    (W2_of_ne m ρ c main_v19 (by decide))).trans ?_
  show StableHlo.after hostOps0 (W0 m ρ c) (Proc.devRef .tc main_v19) = _
  after_results
  rfl

theorem V3_v20 : (V3 m ρ c main_v20 : S4x1x128.Idx → EReal)
    = shapeCast S4x1x128 (m ((c : Thread nD τ).loc main_arg8) : S4x128.Idx → EReal) Facts₀.shapeCasts_S4x128_S4x1x128 := by
  refine ((StableHlo.after_of_forall_not_mem (b := Proc.devRef .tc main_v20) _ _ (by unwritten1)).trans
    (W2_of_ne m ρ c main_v20 (by decide))).trans ?_
  show StableHlo.after hostOps0 (W0 m ρ c) (Proc.devRef .tc main_v20) = _
  after_results
  rfl

theorem V3_v21 : (V3 m ρ c main_v21 : S4x1x128.Idx → EReal)
    = shapeCast S4x1x128 (m ((c : Thread nD τ).loc main_arg10) : S4x128.Idx → EReal) Facts₀.shapeCasts_S4x128_S4x1x128 := by
  refine ((StableHlo.after_of_forall_not_mem (b := Proc.devRef .tc main_v21) _ _ (by unwritten1)).trans
    (W2_of_ne m ρ c main_v21 (by decide))).trans ?_
  show StableHlo.after hostOps0 (W0 m ρ c) (Proc.devRef .tc main_v21) = _
  after_results
  rfl

theorem V3_v22 : (V3 m ρ c main_v22 : S1x128.Idx → EReal)
    = shapeCast S1x128 (m ((c : Thread nD τ).loc main_arg4) : S128.Idx → EReal) Facts₀.shapeCasts_S128_S1x128 := by
  refine ((StableHlo.after_of_forall_not_mem (b := Proc.devRef .tc main_v22) _ _ (by unwritten1)).trans
    (W2_of_ne m ρ c main_v22 (by decide))).trans ?_
  show StableHlo.after hostOps0 (W0 m ρ c) (Proc.devRef .tc main_v22) = _
  after_results
  rfl

end Cert.KernelIdeal.KHost

end
-- ==== Proof.LibKeepdims3.lean ====
/-
  The "keepdims" forms at rank 3, and the sum along the last axis, read at an index.

  A sum along the last axis of an [a, b, c] array leaves an [a, b] array; "keepdims" puts a unit axis back in its
  place ([a, b] cast to [a, b, 1]) and a broadcast spreads the per-(i, j) quantity over the last axis again
  ([a, b, 1] to [a, b, c]). A block of rows [a, c] set against every middle coordinate goes [a, c] to [a, 1, c] to
  [a, b, c]; a block [b, c] set against every leading coordinate goes [b, c] to [1, b, c] to [a, b, c]. Each of these
  operations, read at coordinates, is its operand at the evident coordinates, whatever the extents. At the ideal
  instance the sum along the last axis of a matrix or of a rank-3 array, read at an index, is the finite sum over the
  last coordinate on the extended reals.
-/
import Idealize.ShloMosaic.Lib.Pipeline.Value
import Idealize.ShloMosaic.Lib.ValueIdx
import Idealize.ShloMosaic.PureOps.Ideal.Laws

open scoped BigOperators

namespace Idealize.ShloMosaic.Keepdims3

open Idealize.ShloMosaic Idealize.ShloMosaic.ValueIdx Idealize.ShloMosaic.Pipeline

section Layout
variable {α : Type}

/-- An `[a, c]` array cast to `[a, 1, c]` reads, at `(i, u, k)`, the operand at `(i, k)`, whatever the unit
    coordinate `u`. -/
theorem shapeCast_ac_a1c_apply {a c : ℕ} (x : (⟨2, ![a, c]⟩ : Shape).Idx → α)
    (h : (⟨2, ![a, c]⟩ : Shape).ShapeCasts ⟨3, ![a, 1, c]⟩) (i : Fin a) (u : Fin 1) (k : Fin c) :
    shapeCast ⟨3, ![a, 1, c]⟩ x h (ix3 i u k) = x (ix2 i k) :=
  shapeCast_apply x h _ _ (by
    have hu : u.val = 0 := by omega
    rw [Shape.rowMajor_val_three, Shape.rowMajor_val_two]
    show i.val * c + k.val = (i.val * 1 + u.val) * c + k.val
    rw [hu, Nat.mul_one, Nat.add_zero])

/-- An `[a, b]` array cast to `[a, b, 1]` reads, at `(i, j, u)`, the operand at `(i, j)`, whatever the unit
    coordinate `u`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, 1, c]` array broadcast to `[a, b, c]` reads, at `(i, j, k)`, the operand at `(i, 0, k)`. -/
theorem broadcastTo_a1c_abc_apply {a b c : ℕ} (v : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ v h (ix3 i j k) = v (ix3 i (0 : Fin 1) k) := by
  refine broadcastTo_apply v h (ix3 i j k) (ix3 i (0 : Fin 1) k) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl

/-- An `[a, b, 1]` array broadcast to `[a, b, c]` reads, at `(i, j, k)`, the operand at `(i, j, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- A `[1, b, c]` array broadcast to `[a, b, c]` reads, at `(i, j, k)`, the operand at `(0, j, k)`. -/
theorem broadcastTo_1bc_abc_apply {a b c : ℕ} (v : (⟨3, ![1, b, c]⟩ : Shape).Idx → α)
    (h : (⟨3, ![1, b, c]⟩ : Shape).Broadcasts ⟨3, ![a, b, c]⟩) (i : Fin a) (j : Fin b) (k : Fin c) :
    broadcastTo ⟨3, ![a, b, c]⟩ v h (ix3 i j k) = v (ix3 (0 : Fin 1) j k) := by
  refine broadcastTo_apply v h (ix3 i j k) (ix3 (0 : Fin 1) j k) fun ax => ?_
  match ax with
  | ⟨0, _⟩ => rfl
  | ⟨1, _⟩ =>
    show j.val = if b = 1 then 0 else j.val
    split
    · have := j.isLt; omega
    · rfl
  | ⟨2, _⟩ =>
    show k.val = if c = 1 then 0 else k.val
    split
    · have := k.isLt; omega
    · rfl

/-- A block of rows set against every middle coordinate: `[a, c]` to `[a, 1, c]` to `[a, b, c]` reads the row. -/
theorem rows_spread {a b c : ℕ} (x : (⟨2, ![a, c]⟩ : Shape).Idx → α)
    (h : (⟨2, ![a, c]⟩ : Shape).ShapeCasts ⟨3, ![a, 1, c]⟩) (h' : (⟨3, ![a, 1, c]⟩ : Shape).Broadcasts ⟨3, ![a, b, c]⟩)
    (i : Fin a) (j : Fin b) (k : Fin c) :
    broadcastTo ⟨3, ![a, b, c]⟩ (shapeCast ⟨3, ![a, 1, c]⟩ x h) h' (ix3 i j k) = x (ix2 i k) :=
  (broadcastTo_a1c_abc_apply _ h' i j k).trans (shapeCast_ac_a1c_apply x h i 0 k)

/-- A per-`(i, j)` quantity spread over the last axis: `[a, b]` to `[a, b, 1]` to `[a, b, c]`. -/
theorem lanes_spread {a b c : ℕ} (x : (⟨2, ![a, b]⟩ : Shape).Idx → α)
    (h : (⟨2, ![a, b]⟩ : Shape).ShapeCasts ⟨3, ![a, b, 1]⟩) (h' : (⟨3, ![a, b, 1]⟩ : Shape).Broadcasts ⟨3, ![a, b, c]⟩)
    (i : Fin a) (j : Fin b) (k : Fin c) :
    broadcastTo ⟨3, ![a, b, c]⟩ (shapeCast ⟨3, ![a, b, 1]⟩ x h) h' (ix3 i j k) = x (ix2 i j) :=
  (broadcastTo_ab1_abc_apply _ h' i j k).trans (shapeCast_ab_ab1_apply x h i j 0)

/-- A block set against every leading coordinate: `[b, c]` to `[1, b, c]` to `[a, b, c]` reads the block. -/
theorem block_spread {a b c : ℕ} (x : (⟨2, ![b, c]⟩ : Shape).Idx → α)
    (h : (⟨2, ![b, c]⟩ : Shape).ShapeCasts ⟨3, ![1, b, c]⟩) (h' : (⟨3, ![1, b, c]⟩ : Shape).Broadcasts ⟨3, ![a, b, c]⟩)
    (i : Fin a) (j : Fin b) (k : Fin c) :
    broadcastTo ⟨3, ![a, b, c]⟩ (shapeCast ⟨3, ![1, b, c]⟩ x h) h' (ix3 i j k) = x (ix2 j k) :=
  (broadcastTo_1bc_abc_apply _ h' i j k).trans (by
    refine shapeCast_apply x h _ _ ?_
    rw [Shape.rowMajor_val_three, Shape.rowMajor_val_two]
    show j.val * c + k.val = ((0 : Fin 1).val * b + j.val) * c + k.val
    rw [Fin.val_zero, Nat.zero_mul, Nat.zero_add])

end Layout

section LaneSum
variable {φ : FTy}

/-- The sum of a matrix along its last axis, at row `i`: the finite sum of the row's entries. -/
theorem laneSum2_apply {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (i : Fin a) :
    multiReduction .add [1] ⟨1, ![a]⟩ src acc h hφ hacc (ix1 i) = ∑ k : Fin b, src (ix2 i k) := by
  refine (Ideal.multiReduction_add_single src acc h hφ hacc (ix1 i)).trans ?_
  show ∑ k : Fin b, src (h.lift (ix1 i) k) = ∑ k : Fin b, src (ix2 i k)
  refine Finset.sum_congr rfl fun k _ => congrArg src (funext fun ax => ?_)
  match ax with
  | ⟨0, _⟩ => rfl
  | ⟨1, _⟩ => rfl

/-- The sum of a rank-3 array along its last axis, at `(i, j)`: the finite sum over the last coordinate. -/
theorem laneSum3_apply {a b c : ℕ} (src : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (i : Fin a) (j : Fin b) :
    multiReduction .add [2] ⟨2, ![a, b]⟩ src acc h hφ hacc (ix2 i j) = ∑ k : Fin c, src (ix3 i j k) := by
  refine (Ideal.multiReduction_add_single src acc h hφ hacc (ix2 i j)).trans ?_
  show ∑ k : Fin c, src (h.lift (ix2 i j) k) = ∑ k : Fin c, src (ix3 i j k)
  refine Finset.sum_congr rfl fun k _ => congrArg src (funext fun ax => ?_)
  match ax with
  | ⟨0, _⟩ => rfl
  | ⟨1, _⟩ => rfl
  | ⟨2, _⟩ => rfl

end LaneSum

end Idealize.ShloMosaic.Keepdims3
-- ==== Proof.LibVectorAsMatrix.lean ====
/-
  A length-n vector reshaped to a 1 × n row or to an n × 1 column, read at an index.

  A reshape keeps row-major positions. Entry (0, q) of the row has position q, and entry (r, 0) of the column has
  position r, so each reads the vector at its free coordinate. This is what a bias `b.reshape(1, n)` or a per-row
  scale `s.reshape(n, 1)` holds, for any element type.
-/
import Idealize.ShloMosaic.Lib.Pipeline.Value
import Idealize.ShloMosaic.Lib.ValueIdx

noncomputable section

namespace Idealize.ShloMosaic.VectorAsMatrix

open Idealize.ShloMosaic Idealize.ShloMosaic.ValueIdx

variable {α : Type} {n : Nat}

/-- [n] reshaped to [1, n]: entry (0, q) is the vector's entry q. -/
theorem row_apply (v : (⟨1, ![n]⟩ : Shape).Idx → α) (h : (⟨1, ![n]⟩ : Shape).ShapeCasts ⟨2, ![1, n]⟩) (p : Fin 1)
    (q : Fin n) : shapeCast ⟨2, ![1, n]⟩ v h (ix2 p q) = v (ix1 q) :=
  shapeCast_apply v h (ix2 p q) (ix1 q) (by
    rw [Shape.rowMajor_val_one, Shape.rowMajor_val_two]
    have hp : p = 0 := Fin.ext (by have := p.isLt; omega)
    subst hp
    show q.val = 0 * n + q.val
    omega)

/-- [n] reshaped to [n, 1]: entry (r, 0) is the vector's entry r. -/
theorem col_apply (v : (⟨1, ![n]⟩ : Shape).Idx → α) (h : (⟨1, ![n]⟩ : Shape).ShapeCasts ⟨2, ![n, 1]⟩) (r : Fin n)
    (q : Fin 1) : shapeCast ⟨2, ![n, 1]⟩ v h (ix2 r q) = v (ix1 r) :=
  shapeCast_apply v h (ix2 r q) (ix1 r) (by
    rw [Shape.rowMajor_val_one, Shape.rowMajor_val_two]
    have hq : q = 0 := Fin.ext (by have := q.isLt; omega)
    subst hq
    show r.val = r.val * 1 + 0
    omega)

end Idealize.ShloMosaic.VectorAsMatrix

end
-- ==== Proof.LibHostBroadcast.lean ====
/-
  The host's broadcast_in_dim in the few forms a dense layer uses, read at an index.

  A scalar spread over any shape; a length-b vector made a 1 by b row and the row repeated down a rows (a bias); a
  length-a vector made an a by 1 column and the column repeated across b columns (a per-row quantity kept as a column).
-/
import Idealize.ShloMosaic.Lib.Pipeline.Value
import Idealize.ShloMosaic.Lib.ValueIdx

namespace Idealize.ShloMosaic.HostBroadcast

open Idealize.ShloMosaic Idealize.ShloMosaic.ValueIdx Idealize.ShloMosaic.Pipeline

variable {α : Type}

/-- A scalar broadcast to any shape reads the scalar everywhere. -/
theorem scalar_apply {t : Shape} (dims : Fin (⟨0, ![]⟩ : Shape).rank → Fin t.rank)
    (h : (⟨0, ![]⟩ : Shape).BroadcastsInDim t dims) (x : (⟨0, ![]⟩ : Shape).Idx → α) (j : t.Idx) :
    broadcastInDim t dims h x j = x ix0 :=
  broadcastInDim_apply dims h x j ix0 (fun a => a.elim0)

/-- A length-b vector as a 1 by b row. -/
theorem vec_row_apply {b : ℕ} (h : (⟨1, ![b]⟩ : Shape).BroadcastsInDim ⟨2, ![1, b]⟩ ![1])
    (x : (⟨1, ![b]⟩ : Shape).Idx → α) (j : (⟨2, ![1, b]⟩ : Shape).Idx) :
    broadcastInDim ⟨2, ![1, b]⟩ ![1] h x j = x (ix1 (j 1)) :=
  broadcastInDim_apply _ h x j (ix1 (j 1)) (fun a => match a with
    | ⟨0, _⟩ => by
      show (j 1).val = if b = 1 then 0 else (j 1).val
      split
      · have := (j 1).isLt; simp at this; omega
      · rfl)

/-- A 1 by b row repeated down a rows. -/
theorem row_rows_apply {a b : ℕ} (h : (⟨2, ![1, b]⟩ : Shape).BroadcastsInDim ⟨2, ![a, b]⟩ ![0, 1])
    (x : (⟨2, ![1, b]⟩ : Shape).Idx → α) (j : (⟨2, ![a, b]⟩ : Shape).Idx) :
    broadcastInDim ⟨2, ![a, b]⟩ ![0, 1] h x j = x (ix2 (0 : Fin 1) (j 1)) :=
  broadcastInDim_apply _ h x j (ix2 (0 : Fin 1) (j 1)) (fun ax => match ax with
    | ⟨0, _⟩ => by
      show 0 = if (1 : ℕ) = 1 then 0 else (j 0).val
      rw [if_pos rfl]
    | ⟨1, _⟩ => by
      show (j 1).val = if b = 1 then 0 else (j 1).val
      split
      · have := (j 1).isLt; simp at this; omega
      · rfl)

/-- A bias: the vector at the column, whatever the row. -/
theorem bias_apply {a b : ℕ} (h1 : (⟨1, ![b]⟩ : Shape).BroadcastsInDim ⟨2, ![1, b]⟩ ![1])
    (h2 : (⟨2, ![1, b]⟩ : Shape).BroadcastsInDim ⟨2, ![a, b]⟩ ![0, 1])
    (x : (⟨1, ![b]⟩ : Shape).Idx → α) (j : (⟨2, ![a, b]⟩ : Shape).Idx) :
    broadcastInDim ⟨2, ![a, b]⟩ ![0, 1] h2 (broadcastInDim ⟨2, ![1, b]⟩ ![1] h1 x) j = x (ix1 (j 1)) :=
  (row_rows_apply h2 _ j).trans (vec_row_apply h1 x _)

/-- A length-a vector as an a by 1 column. -/
theorem vec_col_apply {a : ℕ} (h : (⟨1, ![a]⟩ : Shape).BroadcastsInDim ⟨2, ![a, 1]⟩ ![0])
    (x : (⟨1, ![a]⟩ : Shape).Idx → α) (j : (⟨2, ![a, 1]⟩ : Shape).Idx) :
    broadcastInDim ⟨2, ![a, 1]⟩ ![0] h x j = x (ix1 (j 0)) :=
  broadcastInDim_apply _ h x j (ix1 (j 0)) (fun ax => match ax with
    | ⟨0, _⟩ => by
      show (j 0).val = if a = 1 then 0 else (j 0).val
      split
      · have := (j 0).isLt; simp at this; omega
      · rfl)

/-- An a by 1 column repeated across b columns. -/
theorem col_cols_apply {a b : ℕ} (h : (⟨2, ![a, 1]⟩ : Shape).BroadcastsInDim ⟨2, ![a, b]⟩ ![0, 1])
    (x : (⟨2, ![a, 1]⟩ : Shape).Idx → α) (j : (⟨2, ![a, b]⟩ : Shape).Idx) :
    broadcastInDim ⟨2, ![a, b]⟩ ![0, 1] h x j = x (ix2 (j 0) (0 : Fin 1)) :=
  broadcastInDim_apply _ h x j (ix2 (j 0) (0 : Fin 1)) (fun ax => match ax with
    | ⟨0, _⟩ => by
      show (j 0).val = if a = 1 then 0 else (j 0).val
      split
      · have := (j 0).isLt; simp at this; omega
      · rfl
    | ⟨1, _⟩ => by
      show 0 = if (1 : ℕ) = 1 then 0 else (j 1).val
      rw [if_pos rfl])

/-- A per-row quantity kept as a column and spread over the row. -/
theorem column_apply {a b : ℕ} (h1 : (⟨1, ![a]⟩ : Shape).BroadcastsInDim ⟨2, ![a, 1]⟩ ![0])
    (h2 : (⟨2, ![a, 1]⟩ : Shape).BroadcastsInDim ⟨2, ![a, b]⟩ ![0, 1])
    (x : (⟨1, ![a]⟩ : Shape).Idx → α) (j : (⟨2, ![a, b]⟩ : Shape).Idx) :
    broadcastInDim ⟨2, ![a, b]⟩ ![0, 1] h2 (broadcastInDim ⟨2, ![a, 1]⟩ ![0] h1 x) j = x (ix1 (j 0)) :=
  (col_cols_apply h2 _ j).trans (vec_col_apply h1 x _)

end Idealize.ShloMosaic.HostBroadcast
-- ==== Proof.KRead.lean ====
/-
  The mean and variance arrays, and the parameters with a unit axis, read at coordinates.

  The per-tile sums S(t, r, 0, g) are summed over the 25 tiles by a host reduction started from the zero
  word, so the mean array at (r, 0, g) is (sum over t of S(t, r, 0, g)) / 50000, and the variance array is
  max ((sum over t of SS(t, r, 0, g)) / 50000 - mean * mean) 0. A [4,128] parameter reshaped to [4,1,128]
  reads at (r, 0, g) its entry (r, g); the [128] self-loop bias reshaped to [1,128] reads at (0, k) its entry k.
-/
import proofs.«137962_j6932077216184_2_alg».proof.Proof.KHost
import proofs.«137962_j6932077216184_2_alg».proof.Proof.Spec
import proofs.«137962_j6932077216184_2_alg».proof.Proof.LibKeepdims3
import proofs.«137962_j6932077216184_2_alg».proof.Proof.LibVectorAsMatrix
import proofs.«137962_j6932077216184_2_alg».proof.Proof.LibHostBroadcast
import Idealize.ShloMosaic.PureOps.Ideal.Laws
import Idealize.ShloMosaic.Lib.ValueIdx

noncomputable section

open scoped BigOperators

namespace Cert.KernelIdeal.KRead

open Idealize.ShloMosaic Idealize.ShloMosaic.ValueIdx
open Cert.KernelIdeal Cert.KernelIdeal.KHost Cert.Rgin

/-- Summing out the leading axis: the index inserted at tile t above (r, 0, g) is (t, r, 0, g). -/
theorem lift_tile (h : S25x4x1x128.Reduces [(0 : Fin 4)] S4x1x128) (r : Fin 4) (u : Fin 1) (g : Fin 128) (t : Fin 25) :
    h.lift (ix3 r u g) t = ix4 t r u g := by
  funext ax
  apply Fin.ext
  match ax with
  | ⟨0, _⟩ => rfl
  | ⟨1, _⟩ => rfl
  | ⟨2, _⟩ => rfl
  | ⟨3, _⟩ => rfl

/-- The host's sum over the 25 tiles, started from the zero word, at (r, 0, g). -/
theorem tileSum_apply (S : FVec Ideal S25x4x1x128 .f32) (r : Fin 4) (u : Fin 1) (g : Fin 128) :
    Host.reduceAdd S (constant (F := Ideal) S_ .f32 0x00000000#32) Facts₀.reducesTo_S25x4x1x128_S4x1x128_d0 Facts₀.h_S_ (ix3 r u g)
      = ∑ t : Fin 25, S (ix4 t r u g) := by
  have h : S25x4x1x128.Reduces [(0 : Fin 4)] S4x1x128 := by decide
  show Ideal.hostReduceAdd Facts₀.reducesTo_S25x4x1x128_S4x1x128_d0 S (Ideal.ofBits .f32 0x00000000#32) (ix3 r u g) = _
  rw [Ideal.hostReduceAdd_single _ h, Ideal.ofBits_zero_f32, zero_add]
  exact Finset.sum_congr rfl fun t _ => congrArg S (lift_tile h r u g t)

/-- The node count broadcast to the statistics' shape reads the node count. -/
theorem count_apply (i : S4x1x128.Idx) :
    broadcastInDim S4x1x128 ![] Facts₀.bcast_S_S4x1x128 (constant (F := Ideal) S_ .f32 0x47435000#32) i = cN :=
  HostBroadcast.scalar_apply _ _ _ i

/-- The zero word broadcast to the statistics' shape reads zero. -/
theorem zero_apply (i : S4x1x128.Idx) :
    broadcastInDim S4x1x128 ![] Facts₀.bcast_S_S4x1x128 (constant (F := Ideal) S_ .f32 0x00000000#32) i = 0 :=
  (HostBroadcast.scalar_apply _ _ _ i).trans Ideal.ofBits_zero_f32

/-- The mean array at (r, 0, g). -/
theorem meanOf_apply (S : FVec Ideal S25x4x1x128 .f32) (r : Fin 4) (u : Fin 1) (g : Fin 128) :
    meanOf S (ix3 r u g) = Ideal.div (∑ t : Fin 25, S (ix4 t r u g)) cN := by
  show Ideal.div (Host.reduceAdd S _ _ _ (ix3 r u g)) _ = _
  rw [tileSum_apply, count_apply]

/-- The variance array at (r, 0, g). -/
theorem varOf_apply (S SS : FVec Ideal S25x4x1x128 .f32) (r : Fin 4) (u : Fin 1) (g : Fin 128) :
    varOf S SS (ix3 r u g)
      = max (Ideal.div (∑ t : Fin 25, SS (ix4 t r u g)) cN
          - Ideal.div (∑ t : Fin 25, S (ix4 t r u g)) cN * Ideal.div (∑ t : Fin 25, S (ix4 t r u g)) cN) 0 := by
  show max (Ideal.div (Host.reduceAdd SS _ _ _ (ix3 r u g)) _ - meanOf S (ix3 r u g) * meanOf S (ix3 r u g)) _ = _
  rw [tileSum_apply, count_apply, zero_apply, meanOf_apply]

/-- A per-relation parameter with a unit axis inserted reads the parameter. -/
theorem param_apply (p : S4x128.Idx → EReal) (r : Fin 4) (u : Fin 1) (g : Fin 128) :
    shapeCast S4x1x128 p Facts₀.shapeCasts_S4x128_S4x1x128 (ix3 r u g) = p (ix2 r g) :=
  Keepdims3.shapeCast_ac_a1c_apply p _ r u g

/-- The self-loop bias as a row reads the bias. -/
theorem rowBias_apply (p : S128.Idx → EReal) (u : Fin 1) (k : Fin 128) :
    shapeCast S1x128 p Facts₀.shapeCasts_S128_S1x128 (ix2 u k) = p (ix1 k) :=
  VectorAsMatrix.row_apply p _ u k

end Cert.KernelIdeal.KRead

end
-- ==== Proof.KBridge.lean ====
/-
  What each launch finds in its input arrays, entry by entry, in terms of the argument arrays.
-/
import proofs.«137962_j6932077216184_2_alg».proof.Proof.KRead
import proofs.«137962_j6932077216184_2_alg».proof.Proof.KArgs

noncomputable section

namespace Cert.KernelIdeal.KBridge

open Idealize.ShloMosaic Idealize.ShloMosaic.TcCoe Idealize.ShloMosaic.ValueIdx Idealize.SL.Sem
open Cert.KernelIdeal Cert.KernelIdeal.Gen Cert.KernelIdeal.KHost Cert.KernelIdeal.KRead

variable (m : (ℓ : Loc nD τ sig) → Buf (Elt Ideal) ℓ) (ρ : Dev nD → PrngReg) (c : Dev nD)

/-! The first launch. -/

theorem x1 (n : Fin 50000) (f : Fin 128) : (V1 m ρ c main_arg0 : S50000x128.Idx → EReal) (ix2 n f) = KArgs.x m c n f := by
  rw [V1_arg0]; rfl

theorem agg1 (r : Fin 4) (n : Fin 50000) (f : Fin 128) : (V1 m ρ c main_v17 : S4x50000x128.Idx → EReal) (ix3 r n f) = KArgs.agg m c r n f := by
  rw [V1_v17]; rfl

theorem w1 (r : Fin 4) (f g : Fin 128) : (V1 m ρ c main_arg5 : S4x128x128.Idx → EReal) (ix3 r f g) = KArgs.W1 m c r f g := by
  rw [V1_arg5]; rfl

theorem b1 (r : Fin 4) (u : Fin 1) (g : Fin 128) : (V1 m ρ c main_v18 : S4x1x128.Idx → EReal) (ix3 r u g) = KArgs.b1 m c r g := by
  rw [V1_v18, param_apply]; rfl

/-! The second launch. -/

theorem x3 (n : Fin 50000) (f : Fin 128) : (V3 m ρ c main_arg0 : S50000x128.Idx → EReal) (ix2 n f) = KArgs.x m c n f := by
  rw [V3_arg0]; rfl

theorem w23 (r : Fin 4) (g k : Fin 128) : (V3 m ρ c main_arg9 : S4x128x128.Idx → EReal) (ix3 r g k) = KArgs.W2 m c r g k := by
  rw [V3_arg9]; rfl

theorem ws3 (f k : Fin 128) : (V3 m ρ c main_arg3 : S128x128.Idx → EReal) (ix2 f k) = KArgs.Ws m c f k := by
  rw [V3_arg3]; rfl

theorem gamma3 (r : Fin 4) (u : Fin 1) (g : Fin 128) : (V3 m ρ c main_v19 : S4x1x128.Idx → EReal) (ix3 r u g) = KArgs.gamma m c r g := by
  rw [V3_v19, param_apply]; rfl

theorem beta3 (r : Fin 4) (u : Fin 1) (g : Fin 128) : (V3 m ρ c main_v20 : S4x1x128.Idx → EReal) (ix3 r u g) = KArgs.beta m c r g := by
  rw [V3_v20, param_apply]; rfl

theorem b23 (r : Fin 4) (u : Fin 1) (k : Fin 128) : (V3 m ρ c main_v21 : S4x1x128.Idx → EReal) (ix3 r u k) = KArgs.b2 m c r k := by
  rw [V3_v21, param_apply]; rfl

theorem bs3 (u : Fin 1) (k : Fin 128) : (V3 m ρ c main_v22 : S1x128.Idx → EReal) (ix2 u k) = KArgs.bs m c k := by
  rw [V3_v22, rowBias_apply]; rfl

end Cert.KernelIdeal.KBridge

end
-- ==== Proof.LibMatmulRows.lean ====
/-
  A rank-2 by rank-2 matrix product read at an index, at the ideal instance.

  For dimension numbers that contract the left operand's axis 1 with the right operand's axis 0 and have no batch
  axis, the entry (r, c) of the product into a zero accumulator is the plain sum over k of a(r, k) * b(k, c) on the
  extended reals; the same for the host's dot_general. The two side facts about the free axes (hl0, hr1) are
  decided once per literal record of dimension numbers.
-/
import Idealize.ShloMosaic.PureOps.Ideal.Laws
import Idealize.ShloMosaic.Lib.ValueIdx

noncomputable section

namespace Idealize.ShloMosaic.MatmulRows

open Idealize.ShloMosaic Idealize.ShloMosaic.ValueIdx

variable {M K N : Nat} {φ₁ φ₂ : FTy}

/-- The operand indices of such a product at output index `i` and contraction position `k` are (i 0, k) and (k, i 1). -/
theorem operand_indices
    (d : DotDims (⟨2, ![M, K]⟩ : Shape) (⟨2, ![K, N]⟩ : Shape) (⟨2, ![M, N]⟩ : Shape))
    (hcl : d.lhsContracting = [1]) (hcr : d.rhsContracting = [0])
    (hrk : d.contr.rank = 1) (hs : d.contr.size ⟨0, by omega⟩ = K)
    (hl0 : ∀ i q, (d.lhsIdx i q 0).val = (i 0).val) (hr1 : ∀ i q, (d.rhsIdx i q 1).val = (i 1).val)
    (i : (⟨2, ![M, N]⟩ : Shape).Idx) (k : Fin K) :
    d.lhsIdx i ((contrEquiv1 d K hrk hs).symm k) = ix2 (i 0) k
    ∧ d.rhsIdx i ((contrEquiv1 d K hrk hs).symm k) = ix2 k (i 1) := by
  have hk := contrEquiv1_symm_val d K hrk hs k
  constructor
  · funext ax
    apply Fin.ext
    match ax with
    | ⟨0, _⟩ => exact hl0 _ _
    | ⟨1, _⟩ => exact (d.lhsIdx_val_of_single hcl _ _).trans hk
  · funext ax
    apply Fin.ext
    match ax with
    | ⟨0, _⟩ => exact (d.rhsIdx_val_of_single hcr _ _).trans hk
    | ⟨1, _⟩ => exact hr1 _ _

/-- A kernel's matrix product into the zero accumulator, entry by entry. -/
theorem matmul_zero_apply
    (d : DotDims (⟨2, ![M, K]⟩ : Shape) (⟨2, ![K, N]⟩ : Shape) (⟨2, ![M, N]⟩ : Shape)) (prec : Option ContractPrecision)
    (hcl : d.lhsContracting = [1]) (hcr : d.rhsContracting = [0])
    (hrk : d.contr.rank = 1) (hs : d.contr.size ⟨0, by omega⟩ = K)
    (hl0 : ∀ i q, (d.lhsIdx i q 0).val = (i 0).val) (hr1 : ∀ i q, (d.rhsIdx i q 1).val = (i 1).val)
    (a : FVec Ideal (⟨2, ![M, K]⟩ : Shape) φ₁) (b : FVec Ideal (⟨2, ![K, N]⟩ : Shape) φ₂)
    (i : (⟨2, ![M, N]⟩ : Shape).Idx) :
    FloatOps.matmul d prec a b (constant (F := Ideal) (⟨2, ![M, N]⟩ : Shape) .f32 0x00000000#32) i
      = ∑ k : Fin K, a (ix2 (i 0) k) * b (ix2 k (i 1)) := by
  rw [Ideal.matmul_constant_zero_apply, ← Equiv.sum_comp (contrEquiv1 d K hrk hs).symm]
  refine Finset.sum_congr rfl fun k _ => ?_
  obtain ⟨el, er⟩ := operand_indices d hcl hcr hrk hs hl0 hr1 i k
  rw [el, er]
  rfl

/-- The same with the factors named: whatever the left operand's row and the right operand's column are known to be. -/
theorem matmul_zero_rows
    (d : DotDims (⟨2, ![M, K]⟩ : Shape) (⟨2, ![K, N]⟩ : Shape) (⟨2, ![M, N]⟩ : Shape)) (prec : Option ContractPrecision)
    (hcl : d.lhsContracting = [1]) (hcr : d.rhsContracting = [0])
    (hrk : d.contr.rank = 1) (hs : d.contr.size ⟨0, by omega⟩ = K)
    (hl0 : ∀ i q, (d.lhsIdx i q 0).val = (i 0).val) (hr1 : ∀ i q, (d.rhsIdx i q 1).val = (i 1).val)
    (a : FVec Ideal (⟨2, ![M, K]⟩ : Shape) φ₁) (b : FVec Ideal (⟨2, ![K, N]⟩ : Shape) φ₂)
    (i : (⟨2, ![M, N]⟩ : Shape).Idx) (L R : Fin K → EReal)
    (hl : ∀ k, a (ix2 (i 0) k) = L k) (hr : ∀ k, b (ix2 k (i 1)) = R k) :
    FloatOps.matmul d prec a b (constant (F := Ideal) (⟨2, ![M, N]⟩ : Shape) .f32 0x00000000#32) i
      = ∑ k : Fin K, L k * R k :=
  (matmul_zero_apply d prec hcl hcr hrk hs hl0 hr1 a b i).trans
    (Finset.sum_congr rfl fun k _ => by rw [hl k, hr k])

/-- The host's dot_general, entry by entry: the same sum. -/
theorem dotGeneral_apply
    (d : DotDims (⟨2, ![M, K]⟩ : Shape) (⟨2, ![K, N]⟩ : Shape) (⟨2, ![M, N]⟩ : Shape)) (prec : Option ContractPrecision)
    (sched : HostSchedule)
    (hcl : d.lhsContracting = [1]) (hcr : d.rhsContracting = [0])
    (hrk : d.contr.rank = 1) (hs : d.contr.size ⟨0, by omega⟩ = K)
    (hl0 : ∀ i q, (d.lhsIdx i q 0).val = (i 0).val) (hr1 : ∀ i q, (d.rhsIdx i q 1).val = (i 1).val)
    (a : FVec Ideal (⟨2, ![M, K]⟩ : Shape) φ₁) (b : FVec Ideal (⟨2, ![K, N]⟩ : Shape) φ₂)
    (i : (⟨2, ![M, N]⟩ : Shape).Idx) :
    FloatOps.dotGeneral d prec sched a b i = ∑ k : Fin K, a (ix2 (i 0) k) * b (ix2 k (i 1)) := by
  rw [Ideal.dotGeneral_apply, ← Equiv.sum_comp (contrEquiv1 d K hrk hs).symm]
  refine Finset.sum_congr rfl fun k _ => ?_
  obtain ⟨el, er⟩ := operand_indices d hcl hcr hrk hs hl0 hr1 i k
  rw [el, er]
  rfl

end Idealize.ShloMosaic.MatmulRows

end
-- ==== Proof.Reg0Pay.lean ====
/-
  The first kernel's arithmetic, read one entry at a time on the extended reals.

  On a tile of 2000 nodes the kernel forms, for each of the four relations r, the first linear layer
  h_r(j, g) = sum_f (x(j, f) + agg_r(j, f)) * W1_r(f, g) + b1_r(g) of the tile's rows, and stores three things per
  relation: the 2000 x 128 block of h_r itself (as one slab of a stack of four), the 128 column sums of h_r over the
  tile's rows, and the 128 column sums of h_r * h_r. The four relations are spelled a little differently (the loads
  of one relation are interleaved with the arithmetic of the previous one), but each reads at an entry as the same
  formula of the four vectors it loads: the node block, the relation's slab of the aggregate, the relation's weight
  matrix and the relation's bias row. Changes of float format are the identity here.
-/
import proofs.«137962_j6932077216184_2_alg».proof.Proof.Gen.KernelIdeal.Skeleton
import proofs.«137962_j6932077216184_2_alg».proof.Proof.LibMatmulRows
import proofs.«137962_j6932077216184_2_alg».proof.Proof.LibReduceAt
import Idealize.ShloMosaic.Lib.Pipeline.Value
import Idealize.ShloMosaic.Lib.ValueLayout
import Idealize.ShloMosaic.Lib.ValueIdx

noncomputable section

open scoped BigOperators

namespace Cert.KernelIdeal.Reg0

open Idealize.ShloMosaic Idealize.ShloMosaic.ValueIdx Cert.KernelIdeal Cert.KernelIdeal.Gen

/-- One relation's linear layer on a tile, from the four loaded vectors: entry (j, g) is
    sum_f (x(j, f) + agg(0, j, f)) * w(0, f, g) + b(0, 0, g). -/
def tileLin (v0 : Vec Ideal S2000x128 .f32) (v1 : Vec Ideal S1x2000x128 .f32) (v4 : Vec Ideal S1x128x128 .f32)
    (v6 : Vec Ideal S1x1x128 .f32) (j : Fin 2000) (g : Fin 128) : EReal :=
  (∑ f : Fin 128, (v0 (ix2 j f) + v1 (ix3 (0 : Fin 1) j f)) * v4 (ix3 (0 : Fin 1) f g)) + v6 (ix3 (0 : Fin 1) (0 : Fin 1) g)

/-- A product of a 2000 x 128 block with a 128 x 128 matrix into the zero accumulator, plus a row vector spread over
    the rows: at (j, g) it is the sum over f of a(j, f) * w(f, g), plus b(0, g). -/
theorem affine_apply (a : FVec Ideal S2000x128 .bf16) (w : FVec Ideal S128x128 .bf16) (b : FVec Ideal S1x128 .f32)
    (j : Fin 2000) (g : Fin 128) :
    addf (matmul dot_S2000x128_S128x128_S2000x128_1_0_0_1_n_n none a w (constant (F := Ideal) S2000x128 .f32 0x00000000#32))
        (broadcastTo S2000x128 b broadcasts_S1x128_S2000x128) (ix2 j g)
      = (∑ f : Fin 128, a (ix2 j f) * w (ix2 f g)) + b (ix2 (0 : Fin 1) g) := by
  rw [addf_apply]
  congr 1
  · exact MatmulRows.matmul_zero_apply dot_S2000x128_S128x128_S2000x128_1_0_0_1_n_n none rfl rfl rfl rfl
      (fun i q => rfl) (fun i q => rfl) a w (ix2 j g)
  · refine broadcastTo_apply b broadcasts_S1x128_S2000x128 (ix2 j g) (ix2 (0 : Fin 1) g) fun ax => ?_
    match ax with
    | ⟨0, _⟩ => rfl
    | ⟨1, _⟩ => rfl

/-- The same with the three operands as the kernel forms them: the node block plus the aggregate's slab, the weight
    slab and the bias slab, each with its leading unit axis dropped. -/
theorem affine_slabs (v0 : Vec Ideal S2000x128 .f32) (v1 : Vec Ideal S1x2000x128 .f32) (v4 : Vec Ideal S1x128x128 .f32)
    (v6 : Vec Ideal S1x1x128 .f32) (j : Fin 2000) (g : Fin 128) :
    (∑ f : Fin 128, (v0 (ix2 j f) + shapeCast S2000x128 v1 shapeCasts_S1x2000x128_S2000x128 (ix2 j f))
        * shapeCast S128x128 v4 shapeCasts_S1x128x128_S128x128 (ix2 f g))
      + shapeCast S1x128 v6 shapeCasts_S1x1x128_S1x128 (ix2 (0 : Fin 1) g) = tileLin v0 v1 v4 v6 j g := by
  unfold tileLin
  congr 1
  · refine Finset.sum_congr rfl fun f _ => ?_
    rw [shapeCast_1ab_ab_apply v1 shapeCasts_S1x2000x128_S2000x128 j f,
      shapeCast_1ab_ab_apply v4 shapeCasts_S1x128x128_S128x128 f g]
  · exact shapeCast_1ab_ab_apply v6 shapeCasts_S1x1x128_S1x128 (0 : Fin 1) g

/-- Relation 0's layer at an entry. -/
theorem pay5_apply (v0 : Vec Ideal S2000x128 .f32) (v1 : Vec Ideal S1x2000x128 .f32) (v4 : Vec Ideal S1x128x128 .f32)
    (v6 : Vec Ideal S1x1x128 .f32) (j : Fin 2000) (g : Fin 128) :
    k0_pay5 v0 v1 v4 v6 (ix2 j g) = tileLin v0 v1 v4 v6 j g := by
  unfold k0_pay5
  refine (affine_apply _ _ _ j g).trans ?_
  exact affine_slabs v0 v1 v4 v6 j g

/-- Relation 1's layer at an entry. -/
theorem pay9_apply (v0 : Vec Ideal S2000x128 .f32) (v1 : Vec Ideal S1x2000x128 .f32) (v4 : Vec Ideal S1x128x128 .f32)
    (v6 : Vec Ideal S1x1x128 .f32) (j : Fin 2000) (g : Fin 128) :
    k0_pay9 v0 v1 v4 v6 (ix2 j g) = tileLin v0 v1 v4 v6 j g := by
  unfold k0_pay9
  refine (affine_apply _ _ _ j g).trans ?_
  exact affine_slabs v0 v1 v4 v6 j g

/-- Relation 2's layer at an entry (its sum of the node block and the aggregate's slab is formed one step earlier). -/
theorem pay14_apply (v0 : Vec Ideal S2000x128 .f32) (v1 : Vec Ideal S1x2000x128 .f32) (v4 : Vec Ideal S1x128x128 .f32)
    (v6 : Vec Ideal S1x1x128 .f32) (j : Fin 2000) (g : Fin 128) :
    k0_pay14 (k0_pay13 v0 v1) v4 v6 (ix2 j g) = tileLin v0 v1 v4 v6 j g := by
  unfold k0_pay14 k0_pay13
  refine (affine_apply _ _ _ j g).trans ?_
  exact affine_slabs v0 v1 v4 v6 j g

/-- Relation 3's layer at an entry (its three operands are formed one step earlier). -/
theorem pay1_apply (v0 : Vec Ideal S2000x128 .f32) (v1 : Vec Ideal S1x2000x128 .f32) (v4 : Vec Ideal S1x128x128 .f32)
    (v6 : Vec Ideal S1x1x128 .f32) (j : Fin 2000) (g : Fin 128) :
    k0_pay1 (k0_pay18 v4) (k0_pay19 v6) (k0_pay20 v0 v1) (ix2 j g) = tileLin v0 v1 v4 v6 j g := by
  unfold k0_pay1 k0_pay18 k0_pay19 k0_pay20
  refine (affine_apply _ _ _ j g).trans ?_
  exact affine_slabs v0 v1 v4 v6 j g

/-! ## What is stored, for any 2000 x 128 block h -/

/-- The block stored as a slab with a leading unit axis reads the block. -/
theorem slab_store (h : FVec Ideal S2000x128 .f32) (u : Fin 1) (j : Fin 2000) (g : Fin 128) :
    shapeCast S1x2000x128 (truncf .bf16 h bitsLt_bf16_f32) shapeCasts_S2000x128_S1x2000x128 (ix3 u j g) = h (ix2 j g) :=
  shapeCast_ab_1ab_apply (truncf .bf16 h bitsLt_bf16_f32) shapeCasts_S2000x128_S1x2000x128 u j g

/-- A length-128 vector viewed as a 1 x 1 x 1 x 128 array reads the vector at the last coordinate. -/
theorem row4_apply {α : Type} (v : S128.Idx → α) (u0 u1 u2 : Fin 1) (g : Fin 128) :
    shapeCast S1x1x1x128 (shapeCast S1x128 v shapeCasts_S128_S1x128) shapeCasts_S1x128_S1x1x1x128 (ix4 u0 u1 u2 g) = v (ix1 g) := by
  refine (shapeCast_apply _ shapeCasts_S1x128_S1x1x1x128 (ix4 u0 u1 u2 g) (ix2 (0 : Fin 1) g) ?_).trans
    (shapeCast_a_1a_apply v shapeCasts_S128_S1x128 (0 : Fin 1) g)
  rw [Shape.rowMajor_val_four, Shape.rowMajor_val_two]
  have h0 : u0.val = 0 := by omega
  have h1 : u1.val = 0 := by omega
  have h2 : u2.val = 0 := by omega
  show 0 * 128 + g.val = ((u0.val * 1 + u1.val) * 1 + u2.val) * 128 + g.val
  rw [h0, h1, h2]

/-- The stored column sums of a block: entry g is the sum over the 2000 rows of h(j, g). -/
theorem sum_store (h : FVec Ideal S2000x128 .f32) (u0 u1 u2 : Fin 1) (g : Fin 128) :
    shapeCast S1x1x1x128 (shapeCast S1x128
        (multiReduction .add [0] S128 h 0x00000000#32 reduces_S2000x128_S128 (.inl rfl) rfl) shapeCasts_S128_S1x128)
      shapeCasts_S1x128_S1x1x1x128 (ix4 u0 u1 u2 g) = ∑ j : Fin 2000, h (ix2 j g) :=
  (row4_apply _ u0 u1 u2 g).trans (ReduceAt.col_sum_apply h 0x00000000#32 reduces_S2000x128_S128 (.inl rfl) rfl g)

/-- The stored column sums of the squares of a block. -/
theorem sq_store (h : FVec Ideal S2000x128 .f32) (u0 u1 u2 : Fin 1) (g : Fin 128) :
    shapeCast S1x1x1x128 (shapeCast S1x128
        (multiReduction .add [0] S128 (mulf h h) 0x00000000#32 reduces_S2000x128_S128 (.inl rfl) rfl) shapeCasts_S128_S1x128)
      shapeCasts_S1x128_S1x1x1x128 (ix4 u0 u1 u2 g) = ∑ j : Fin 2000, h (ix2 j g) * h (ix2 j g) :=
  sum_store (mulf h h) u0 u1 u2 g

/-! ## The twelve stored payloads -/

section Stores
variable (v0 : Vec Ideal S2000x128 .f32) (v1 : Vec Ideal S1x2000x128 .f32) (v4 : Vec Ideal S1x128x128 .f32)
  (v6 : Vec Ideal S1x1x128 .f32)

/-- Relation 0: the stored block, its column sums, the column sums of its squares. -/
theorem pay6_apply (u : Fin 1) (j : Fin 2000) (g : Fin 128) :
    k0_pay6 v0 v1 v4 v6 (ix3 u j g) = tileLin v0 v1 v4 v6 j g := by
  unfold k0_pay6
  exact (slab_store _ u j g).trans (pay5_apply v0 v1 v4 v6 j g)
theorem pay7_apply (u0 u1 u2 : Fin 1) (g : Fin 128) :
    k0_pay7 v0 v1 v4 v6 (ix4 u0 u1 u2 g) = ∑ j : Fin 2000, tileLin v0 v1 v4 v6 j g := by
  unfold k0_pay7
  exact (sum_store _ u0 u1 u2 g).trans (Finset.sum_congr rfl fun j _ => pay5_apply v0 v1 v4 v6 j g)
theorem pay8_apply (u0 u1 u2 : Fin 1) (g : Fin 128) :
    k0_pay8 v0 v1 v4 v6 (ix4 u0 u1 u2 g) = ∑ j : Fin 2000, tileLin v0 v1 v4 v6 j g * tileLin v0 v1 v4 v6 j g := by
  unfold k0_pay8
  exact (sq_store _ u0 u1 u2 g).trans (Finset.sum_congr rfl fun j _ => by rw [pay5_apply v0 v1 v4 v6 j g])

/-- Relation 1. -/
theorem pay10_apply (u : Fin 1) (j : Fin 2000) (g : Fin 128) :
    k0_pay10 v0 v1 v4 v6 (ix3 u j g) = tileLin v0 v1 v4 v6 j g := by
  unfold k0_pay10
  exact (slab_store _ u j g).trans (pay9_apply v0 v1 v4 v6 j g)
theorem pay11_apply (u0 u1 u2 : Fin 1) (g : Fin 128) :
    k0_pay11 v0 v1 v4 v6 (ix4 u0 u1 u2 g) = ∑ j : Fin 2000, tileLin v0 v1 v4 v6 j g := by
  unfold k0_pay11
  exact (sum_store _ u0 u1 u2 g).trans (Finset.sum_congr rfl fun j _ => pay9_apply v0 v1 v4 v6 j g)
theorem pay12_apply (u0 u1 u2 : Fin 1) (g : Fin 128) :
    k0_pay12 v0 v1 v4 v6 (ix4 u0 u1 u2 g) = ∑ j : Fin 2000, tileLin v0 v1 v4 v6 j g * tileLin v0 v1 v4 v6 j g := by
  unfold k0_pay12
  exact (sq_store _ u0 u1 u2 g).trans (Finset.sum_congr rfl fun j _ => by rw [pay9_apply v0 v1 v4 v6 j g])

/-- Relation 2. -/
theorem pay15_apply (u : Fin 1) (j : Fin 2000) (g : Fin 128) :
    k0_pay15 (k0_pay13 v0 v1) v4 v6 (ix3 u j g) = tileLin v0 v1 v4 v6 j g := by
  unfold k0_pay15
  exact (slab_store _ u j g).trans (pay14_apply v0 v1 v4 v6 j g)
theorem pay16_apply (u0 u1 u2 : Fin 1) (g : Fin 128) :
    k0_pay16 (k0_pay13 v0 v1) v4 v6 (ix4 u0 u1 u2 g) = ∑ j : Fin 2000, tileLin v0 v1 v4 v6 j g := by
  unfold k0_pay16
  exact (sum_store _ u0 u1 u2 g).trans (Finset.sum_congr rfl fun j _ => pay14_apply v0 v1 v4 v6 j g)
theorem pay17_apply (u0 u1 u2 : Fin 1) (g : Fin 128) :
    k0_pay17 (k0_pay13 v0 v1) v4 v6 (ix4 u0 u1 u2 g) = ∑ j : Fin 2000, tileLin v0 v1 v4 v6 j g * tileLin v0 v1 v4 v6 j g := by
  unfold k0_pay17
  exact (sq_store _ u0 u1 u2 g).trans (Finset.sum_congr rfl fun j _ => by rw [pay14_apply v0 v1 v4 v6 j g])

/-- Relation 3. -/
theorem pay2_apply (u : Fin 1) (j : Fin 2000) (g : Fin 128) :
    k0_pay2 (k0_pay18 v4) (k0_pay19 v6) (k0_pay20 v0 v1) (ix3 u j g) = tileLin v0 v1 v4 v6 j g := by
  unfold k0_pay2
  exact (slab_store _ u j g).trans (pay1_apply v0 v1 v4 v6 j g)
theorem pay3_apply (u0 u1 u2 : Fin 1) (g : Fin 128) :
    k0_pay3 (k0_pay18 v4) (k0_pay19 v6) (k0_pay20 v0 v1) (ix4 u0 u1 u2 g) = ∑ j : Fin 2000, tileLin v0 v1 v4 v6 j g := by
  unfold k0_pay3
  exact (sum_store _ u0 u1 u2 g).trans (Finset.sum_congr rfl fun j _ => pay1_apply v0 v1 v4 v6 j g)
theorem pay4_apply (u0 u1 u2 : Fin 1) (g : Fin 128) :
    k0_pay4 (k0_pay18 v4) (k0_pay19 v6) (k0_pay20 v0 v1) (ix4 u0 u1 u2 g) = ∑ j : Fin 2000, tileLin v0 v1 v4 v6 j g * tileLin v0 v1 v4 v6 j g := by
  unfold k0_pay4
  exact (sq_store _ u0 u1 u2 g).trans (Finset.sum_congr rfl fun j _ => by rw [pay1_apply v0 v1 v4 v6 j g])

end Stores

end Cert.KernelIdeal.Reg0

end
-- ==== Proof.Reg0Blk.lean ====
/-
  What the first kernel leaves in its three output blocks at one grid point, as functions of the four input blocks.

  At a grid point the kernel sees a tile x of 2000 node rows, the four slabs agg_r of the aggregate on the same
  rows, the four weight matrices and the four bias rows. It writes a stack of four 2000 x 128 slabs (slab r is the
  first linear layer h_r of the tile) and two 1 x 4 x 1 x 128 arrays (row r holds the column sums of h_r over the
  tile's rows, respectively of h_r * h_r). Each output is written by four stores, one per relation, that tile its
  block; read back together they are ONE function of the block's index.
-/
import proofs.«137962_j6932077216184_2_alg».proof.Proof.Gen.KernelIdeal.Frame
import proofs.«137962_j6932077216184_2_alg».proof.Proof.Reg0Pay

noncomputable section

open scoped BigOperators

namespace Cert.KernelIdeal.Reg0

open Idealize.ShloMosaic Idealize.ShloMosaic.ValueIdx Cert.KernelIdeal Cert.KernelIdeal.Gen

/-- Relation r's linear layer on a tile, from the four input BLOCKS: entry (j, g) is
    sum_f (x(j, f) + agg(r, j, f)) * w(r, f, g) + b(r, 0, g). -/
def blkLin (x0 : Vec Ideal S2000x128 .f32) (x1 : Vec Ideal S4x2000x128 .f32) (x2 : Vec Ideal S4x128x128 .f32)
    (x3 : Vec Ideal S4x1x128 .f32) (r : Fin 4) (j : Fin 2000) (g : Fin 128) : EReal :=
  (∑ f : Fin 128, (x0 (ix2 j f) + x1 (ix3 r j f)) * x2 (ix3 r f g)) + x3 (ix3 r (0 : Fin 1) g)

/-! ## Where a slab's entry sits in its stack -/

theorem zero2 : (![0, 0] : Fin 2 → Nat) = fun _ => 0 := funext fun a => by fin_cases a <;> rfl

/-- Entry (u, j, f) of slab r of the aggregate's block is entry (r, j, f) of the block. -/
theorem emb_agg (r : Nat) (hr : r < 4) (inb) (u : Fin 1) (j : Fin 2000) (f : Fin 128) :
    (Rect.unit (s := S4x2000x128) ![r, 0, 0] S1x2000x128.size inb).emb (ix3 u j f) = ix3 (⟨r, hr⟩ : Fin 4) j f := by
  funext a; apply Fin.ext
  match a with
  | ⟨0, _⟩ => show r + 1 * u.val = r; have := u.isLt; omega
  | ⟨1, _⟩ => show 0 + 1 * j.val = j.val; omega
  | ⟨2, _⟩ => show 0 + 1 * f.val = f.val; omega

/-- Entry (u, f, g) of slab r of the weights is entry (r, f, g) of the stack. -/
theorem emb_w (r : Nat) (hr : r < 4) (inb) (u : Fin 1) (f g : Fin 128) :
    (Rect.unit (s := S4x128x128) ![r, 0, 0] S1x128x128.size inb).emb (ix3 u f g) = ix3 (⟨r, hr⟩ : Fin 4) f g := by
  funext a; apply Fin.ext
  match a with
  | ⟨0, _⟩ => show r + 1 * u.val = r; have := u.isLt; omega
  | ⟨1, _⟩ => show 0 + 1 * f.val = f.val; omega
  | ⟨2, _⟩ => show 0 + 1 * g.val = g.val; omega

/-- Entry (u, v, g) of slab r of the biases is entry (r, 0, g) of the stack. -/
theorem emb_b (r : Nat) (hr : r < 4) (inb) (u v : Fin 1) (g : Fin 128) :
    (Rect.unit (s := S4x1x128) ![r, 0, 0] S1x1x128.size inb).emb (ix3 u v g) = ix3 (⟨r, hr⟩ : Fin 4) (0 : Fin 1) g := by
  funext a; apply Fin.ext
  match a with
  | ⟨0, _⟩ => show r + 1 * u.val = r; have := u.isLt; omega
  | ⟨1, _⟩ => show 0 + 1 * v.val = 0; have := v.isLt; omega
  | ⟨2, _⟩ => show 0 + 1 * g.val = g.val; omega

/-- Entry (u0, u1, u2, g) of row r of a statistics block is entry (0, r, 0, g) of the block. -/
theorem emb_stat (r : Nat) (hr : r < 4) (inb) (u0 u1 u2 : Fin 1) (g : Fin 128) :
    (Rect.unit (s := S1x4x1x128) ![0, r, 0, 0] S1x1x1x128.size inb).emb (ix4 u0 u1 u2 g)
      = ix4 (0 : Fin 1) (⟨r, hr⟩ : Fin 4) (0 : Fin 1) g := by
  funext a; apply Fin.ext
  match a with
  | ⟨0, _⟩ => show 0 + 1 * u0.val = 0; have := u0.isLt; omega
  | ⟨1, _⟩ => show r + 1 * u1.val = r; have := u1.isLt; omega
  | ⟨2, _⟩ => show 0 + 1 * u2.val = 0; have := u2.isLt; omega
  | ⟨3, _⟩ => show 0 + 1 * g.val = g.val; omega

/-- The tile formula of relation r's four loads is the block formula at r. -/
theorem tile_blk (x0 : Vec Ideal S2000x128 .f32) (x1 : Vec Ideal S4x2000x128 .f32) (x2 : Vec Ideal S4x128x128 .f32)
    (x3 : Vec Ideal S4x1x128 .f32) (r : Nat) (hr : r < 4) (i0 i1 i2 i3) (j : Fin 2000) (g : Fin 128) :
    tileLin (View.ld x0 (Rect.unit (s := S2000x128) ![0, 0] S2000x128.size i0))
        (View.ld x1 (Rect.unit (s := S4x2000x128) ![r, 0, 0] S1x2000x128.size i1))
        (View.ld x2 (Rect.unit (s := S4x128x128) ![r, 0, 0] S1x128x128.size i2))
        (View.ld x3 (Rect.unit (s := S4x1x128) ![r, 0, 0] S1x1x128.size i3)) j g
      = blkLin x0 x1 x2 x3 ⟨r, hr⟩ j g := by
  unfold tileLin blkLin
  rw [View.ld_unit_zero (S := S2000x128) zero2]
  show (∑ f : Fin 128, (x0 (ix2 j f) + x1 ((Rect.unit (s := S4x2000x128) ![r, 0, 0] S1x2000x128.size i1).emb (ix3 (0 : Fin 1) j f)))
        * x2 ((Rect.unit (s := S4x128x128) ![r, 0, 0] S1x128x128.size i2).emb (ix3 (0 : Fin 1) f g)))
      + x3 ((Rect.unit (s := S4x1x128) ![r, 0, 0] S1x1x128.size i3).emb (ix3 (0 : Fin 1) (0 : Fin 1) g)) = _
  rw [emb_b r hr]
  congr 1
  refine Finset.sum_congr rfl fun f _ => ?_
  rw [emb_agg r hr, emb_w r hr]

/-! ## The three output blocks -/

section Blocks
variable (x0 : Vec Ideal S2000x128 .f32) (x1 : Vec Ideal S4x2000x128 .f32) (x2 : Vec Ideal S4x128x128 .f32)
  (x3 : Vec Ideal S4x1x128 .f32)

/-- The stack of the four relations' layers on the tile. -/
def blk4 : Vec Ideal S4x2000x128 .bf16 := fun y => blkLin x0 x1 x2 x3 (y 0) (y 1) (y 2)
/-- The four relations' column sums over the tile's rows. -/
def blk5 : Vec Ideal S1x4x1x128 .f32 := fun y => ∑ j : Fin 2000, blkLin x0 x1 x2 x3 (y 1) j (y 3)
/-- The four relations' column sums of squares over the tile's rows. -/
def blk6 : Vec Ideal S1x4x1x128 .f32 :=
  fun y => ∑ j : Fin 2000, blkLin x0 x1 x2 x3 (y 1) j (y 3) * blkLin x0 x1 x2 x3 (y 1) j (y 3)

/-- The stack of layers as the four slab stores leave it. -/
theorem out4_eq : out0_4 x0 x1 x2 x3 = blk4 x0 x1 x2 x3 := by
  funext y
  unfold out0_4
  refine View.canon_apply_of_pieces (Val := Elt Ideal) (blk4 x0 x1 x2 x3) _ ?_ y (cover0_4 _ _ _ _ y)
  refine List.forall_mem_cons.2 ⟨fun x => ?_, List.forall_mem_cons.2 ⟨fun x => ?_, List.forall_mem_cons.2 ⟨fun x => ?_,
    List.forall_mem_cons.2 ⟨fun x => ?_, fun _ h => absurd h List.not_mem_nil⟩⟩⟩⟩
  · obtain ⟨u, j, g, rfl⟩ : ∃ (u : Fin 1) (j : Fin 2000) (g : Fin 128), x = ix3 u j g := ⟨x 0, x 1, x 2, eq_ix3 x⟩
    refine (pay2_apply _ _ _ _ u j g).trans ?_
    refine (tile_blk x0 x1 x2 x3 3 (by omega) _ _ _ _ j g).trans ?_
    show _ = blk4 x0 x1 x2 x3 (r0_13.emb (ix3 u j g))
    rw [emb_agg 3 (by omega)]
    rfl
  · obtain ⟨u, j, g, rfl⟩ : ∃ (u : Fin 1) (j : Fin 2000) (g : Fin 128), x = ix3 u j g := ⟨x 0, x 1, x 2, eq_ix3 x⟩
    refine (pay15_apply _ _ _ _ u j g).trans ?_
    refine (tile_blk x0 x1 x2 x3 2 (by omega) _ _ _ _ j g).trans ?_
    show _ = blk4 x0 x1 x2 x3 (r0_9.emb (ix3 u j g))
    rw [emb_agg 2 (by omega)]
    rfl
  · obtain ⟨u, j, g, rfl⟩ : ∃ (u : Fin 1) (j : Fin 2000) (g : Fin 128), x = ix3 u j g := ⟨x 0, x 1, x 2, eq_ix3 x⟩
    refine (pay10_apply _ _ _ _ u j g).trans ?_
    refine (tile_blk x0 x1 x2 x3 1 (by omega) _ _ _ _ j g).trans ?_
    show _ = blk4 x0 x1 x2 x3 (r0_5.emb (ix3 u j g))
    rw [emb_agg 1 (by omega)]
    rfl
  · obtain ⟨u, j, g, rfl⟩ : ∃ (u : Fin 1) (j : Fin 2000) (g : Fin 128), x = ix3 u j g := ⟨x 0, x 1, x 2, eq_ix3 x⟩
    refine (pay6_apply _ _ _ _ u j g).trans ?_
    refine (tile_blk x0 x1 x2 x3 0 (by omega) _ _ _ _ j g).trans ?_
    show _ = blk4 x0 x1 x2 x3 (r0_1.emb (ix3 u j g))
    rw [emb_agg 0 (by omega)]
    rfl

/-- The column sums as the four row stores leave them. -/
theorem out5_eq : out0_5 x0 x1 x2 x3 = blk5 x0 x1 x2 x3 := by
  funext y
  unfold out0_5
  refine View.canon_apply_of_pieces (Val := Elt Ideal) (blk5 x0 x1 x2 x3) _ ?_ y (cover0_5 _ _ _ _ y)
  refine List.forall_mem_cons.2 ⟨fun x => ?_, List.forall_mem_cons.2 ⟨fun x => ?_, List.forall_mem_cons.2 ⟨fun x => ?_,
    List.forall_mem_cons.2 ⟨fun x => ?_, fun _ h => absurd h List.not_mem_nil⟩⟩⟩⟩
  · obtain ⟨u0, u1, u2, g, rfl⟩ : ∃ (u0 u1 u2 : Fin 1) (g : Fin 128), x = ix4 u0 u1 u2 g := ⟨x 0, x 1, x 2, x 3, eq_ix4 x⟩
    refine (pay3_apply _ _ _ _ u0 u1 u2 g).trans ?_
    refine (Finset.sum_congr rfl fun j _ => tile_blk x0 x1 x2 x3 3 (by omega) _ _ _ _ j g).trans ?_
    show _ = blk5 x0 x1 x2 x3 (r0_16.emb (ix4 u0 u1 u2 g))
    rw [emb_stat 3 (by omega)]
    rfl
  · obtain ⟨u0, u1, u2, g, rfl⟩ : ∃ (u0 u1 u2 : Fin 1) (g : Fin 128), x = ix4 u0 u1 u2 g := ⟨x 0, x 1, x 2, x 3, eq_ix4 x⟩
    refine (pay16_apply _ _ _ _ u0 u1 u2 g).trans ?_
    refine (Finset.sum_congr rfl fun j _ => tile_blk x0 x1 x2 x3 2 (by omega) _ _ _ _ j g).trans ?_
    show _ = blk5 x0 x1 x2 x3 (r0_12.emb (ix4 u0 u1 u2 g))
    rw [emb_stat 2 (by omega)]
    rfl
  · obtain ⟨u0, u1, u2, g, rfl⟩ : ∃ (u0 u1 u2 : Fin 1) (g : Fin 128), x = ix4 u0 u1 u2 g := ⟨x 0, x 1, x 2, x 3, eq_ix4 x⟩
    refine (pay11_apply _ _ _ _ u0 u1 u2 g).trans ?_
    refine (Finset.sum_congr rfl fun j _ => tile_blk x0 x1 x2 x3 1 (by omega) _ _ _ _ j g).trans ?_
    show _ = blk5 x0 x1 x2 x3 (r0_8.emb (ix4 u0 u1 u2 g))
    rw [emb_stat 1 (by omega)]
    rfl
  · obtain ⟨u0, u1, u2, g, rfl⟩ : ∃ (u0 u1 u2 : Fin 1) (g : Fin 128), x = ix4 u0 u1 u2 g := ⟨x 0, x 1, x 2, x 3, eq_ix4 x⟩
    refine (pay7_apply _ _ _ _ u0 u1 u2 g).trans ?_
    refine (Finset.sum_congr rfl fun j _ => tile_blk x0 x1 x2 x3 0 (by omega) _ _ _ _ j g).trans ?_
    show _ = blk5 x0 x1 x2 x3 (r0_4.emb (ix4 u0 u1 u2 g))
    rw [emb_stat 0 (by omega)]
    rfl

/-- The column sums of squares as the four row stores leave them. -/
theorem out6_eq : out0_6 x0 x1 x2 x3 = blk6 x0 x1 x2 x3 := by
  funext y
  unfold out0_6
  refine View.canon_apply_of_pieces (Val := Elt Ideal) (blk6 x0 x1 x2 x3) _ ?_ y (cover0_6 _ _ _ _ y)
  refine List.forall_mem_cons.2 ⟨fun x => ?_, List.forall_mem_cons.2 ⟨fun x => ?_, List.forall_mem_cons.2 ⟨fun x => ?_,
    List.forall_mem_cons.2 ⟨fun x => ?_, fun _ h => absurd h List.not_mem_nil⟩⟩⟩⟩
  · obtain ⟨u0, u1, u2, g, rfl⟩ : ∃ (u0 u1 u2 : Fin 1) (g : Fin 128), x = ix4 u0 u1 u2 g := ⟨x 0, x 1, x 2, x 3, eq_ix4 x⟩
    refine (pay4_apply _ _ _ _ u0 u1 u2 g).trans ?_
    refine (Finset.sum_congr rfl fun j _ => by rw [tile_blk x0 x1 x2 x3 3 (by omega)]).trans ?_
    show _ = blk6 x0 x1 x2 x3 (r0_16.emb (ix4 u0 u1 u2 g))
    rw [emb_stat 3 (by omega)]
    rfl
  · obtain ⟨u0, u1, u2, g, rfl⟩ : ∃ (u0 u1 u2 : Fin 1) (g : Fin 128), x = ix4 u0 u1 u2 g := ⟨x 0, x 1, x 2, x 3, eq_ix4 x⟩
    refine (pay17_apply _ _ _ _ u0 u1 u2 g).trans ?_
    refine (Finset.sum_congr rfl fun j _ => by rw [tile_blk x0 x1 x2 x3 2 (by omega)]).trans ?_
    show _ = blk6 x0 x1 x2 x3 (r0_12.emb (ix4 u0 u1 u2 g))
    rw [emb_stat 2 (by omega)]
    rfl
  · obtain ⟨u0, u1, u2, g, rfl⟩ : ∃ (u0 u1 u2 : Fin 1) (g : Fin 128), x = ix4 u0 u1 u2 g := ⟨x 0, x 1, x 2, x 3, eq_ix4 x⟩
    refine (pay12_apply _ _ _ _ u0 u1 u2 g).trans ?_
    refine (Finset.sum_congr rfl fun j _ => by rw [tile_blk x0 x1 x2 x3 1 (by omega)]).trans ?_
    show _ = blk6 x0 x1 x2 x3 (r0_8.emb (ix4 u0 u1 u2 g))
    rw [emb_stat 1 (by omega)]
    rfl
  · obtain ⟨u0, u1, u2, g, rfl⟩ : ∃ (u0 u1 u2 : Fin 1) (g : Fin 128), x = ix4 u0 u1 u2 g := ⟨x 0, x 1, x 2, x 3, eq_ix4 x⟩
    refine (pay8_apply _ _ _ _ u0 u1 u2 g).trans ?_
    refine (Finset.sum_congr rfl fun j _ => by rw [tile_blk x0 x1 x2 x3 0 (by omega)]).trans ?_
    show _ = blk6 x0 x1 x2 x3 (r0_4.emb (ix4 u0 u1 u2 g))
    rw [emb_stat 0 (by omega)]
    rfl

end Blocks

end Cert.KernelIdeal.Reg0

end
-- ==== Proof.Reg0Arr.lean ====
/-
  The first kernel's three output arrays after all 25 grid points, as functions of the arrays the kernel finds.

  Grid point t sees node rows 2000 t ... 2000 t + 1999: block t of the node features, block t (along the node axis)
  of each relation's aggregate, and all of the weights and biases. It writes back block t (along the node axis) of
  the stack of first linear layers, and row t of the two arrays of partial statistics. The 25 blocks tile the 50000
  node rows and the 25 rows tile the leading axis of extent 25, so after the last point every entry of the three
  arrays has been written, each by exactly the point that owns it:
    the stack holds h_r(n, g) at (r, n, g);
    the first statistics array holds, at (t, r, 0, g), the sum over the tile's rows j of h_r(2000 t + j, g);
    the second holds the same sum of h_r(2000 t + j, g)^2.
-/
import proofs.«137962_j6932077216184_2_alg».proof.Proof.Gen.KernelIdeal.Frame
import proofs.«137962_j6932077216184_2_alg».proof.Proof.Spec
import proofs.«137962_j6932077216184_2_alg».proof.Proof.Reg0Blk
import Idealize.ShloMosaic.Lib.Pipeline.Value

set_option maxRecDepth 16384

noncomputable section

open scoped BigOperators

namespace Cert.KernelIdeal.Reg0

open Idealize.ShloMosaic Idealize.ShloMosaic.ValueIdx Cert.KernelIdeal Cert.KernelIdeal.Gen Cert.Rgin
open Idealize.ShloMosaic.TcCoe Idealize.SL.Sem
open Idealize.ShloMosaic.Pipeline (Dat)

variable (V : (c : Dev nD) → (b : Ref sig .tc) → Buf (Elt Ideal) ((c : Thread nD τ).loc b)) (c : Dev nD)

/-- The node features the region finds, by coordinates. -/
def X : Fin 50000 → Fin 128 → EReal := fun n f => (V c main_arg0 : S50000x128.Idx → EReal) (ix2 n f)
/-- The four relations' aggregates. -/
def A : Fin 4 → Fin 50000 → Fin 128 → EReal := fun r n f => (V c main_v17 : S4x50000x128.Idx → EReal) (ix3 r n f)
/-- The four first-layer weight matrices. -/
def W : Fin 4 → Fin 128 → Fin 128 → EReal := fun r f g => (V c main_arg5 : S4x128x128.Idx → EReal) (ix3 r f g)
/-- The four first-layer bias rows. -/
def B : Fin 4 → Fin 128 → EReal := fun r g => (V c main_v18 : S4x1x128.Idx → EReal) (ix3 r (0 : Fin 1) g)

/-- Row j of tile t among the 50000 node rows. -/
def row (t : Fin 25) (j : Fin 2000) : Fin 50000 := ⟨t.val * 2000 + j.val, by have := t.isLt; have := j.isLt; omega⟩

/-- The printed index maps over the grid: the node axis moves with the point, every other block index is zero. -/
theorem idx_facts : ∀ t : Fin cfg0.N,
    (win0_0.index t (0 : Fin 2) = t.val ∧ win0_0.index t (1 : Fin 2) = 0)
    ∧ (win0_1.index t (0 : Fin 3) = 0 ∧ win0_1.index t (1 : Fin 3) = t.val ∧ win0_1.index t (2 : Fin 3) = 0)
    ∧ (win0_2.index t (0 : Fin 3) = 0 ∧ win0_2.index t (1 : Fin 3) = 0 ∧ win0_2.index t (2 : Fin 3) = 0)
    ∧ (win0_3.index t (0 : Fin 3) = 0 ∧ win0_3.index t (1 : Fin 3) = 0 ∧ win0_3.index t (2 : Fin 3) = 0)
    ∧ (win0_4.index t (0 : Fin 3) = 0 ∧ win0_4.index t (1 : Fin 3) = t.val ∧ win0_4.index t (2 : Fin 3) = 0)
    ∧ (win0_5.index t (0 : Fin 4) = t.val ∧ win0_5.index t (1 : Fin 4) = 0 ∧ win0_5.index t (2 : Fin 4) = 0 ∧ win0_5.index t (3 : Fin 4) = 0)
    ∧ (win0_6.index t (0 : Fin 4) = t.val ∧ win0_6.index t (1 : Fin 4) = 0 ∧ win0_6.index t (2 : Fin 4) = 0 ∧ win0_6.index t (3 : Fin 4) = 0) :=
  (by decide +kernel : ∀ t : Fin grid0.N, _)

/-- A grid point is below 25. -/
theorem point_lt (t : Fin cfg0.N) : t.val < 25 := lt_of_lt_of_eq t.isLt N_0

/-! ## The input blocks at a point, entry by entry -/

/-- Entry (j, f) of the node block at point t is the node array at row 2000 t + j. -/
theorem iblk_x (t : Fin cfg0.N) (j : Fin 2000) (f : Fin 128) (n : Fin 50000) (hn : n.val = t.val * 2000 + j.val) :
    (iblk0 V c 0 t : Vec Ideal S2000x128 .f32) (ix2 j f) = (V c main_arg0 : S50000x128.Idx → EReal) (ix2 n f) := by
  obtain ⟨⟨e0, e1⟩, -⟩ := idx_facts t
  unfold iblk0
  rw [View.read_apply]
  show (V c main_arg0 : S50000x128.Idx → EReal) _ = _
  congr 1
  funext a
  apply Fin.ext
  match a with
  | ⟨0, _⟩ => show win0_0.index t (0 : Fin 2) * 2000 + 1 * j.val = n.val; rw [e0, hn]; omega
  | ⟨1, _⟩ => show win0_0.index t (1 : Fin 2) * 128 + 1 * f.val = f.val; rw [e1]; omega

/-- Entry (r, j, f) of the aggregate's block at point t is the aggregate at (r, 2000 t + j, f). -/
theorem iblk_a (t : Fin cfg0.N) (r : Fin 4) (j : Fin 2000) (f : Fin 128) (n : Fin 50000) (hn : n.val = t.val * 2000 + j.val) :
    (iblk0 V c 1 t : Vec Ideal S4x2000x128 .f32) (ix3 r j f) = (V c main_v17 : S4x50000x128.Idx → EReal) (ix3 r n f) := by
  obtain ⟨-, ⟨e0, e1, e2⟩, -⟩ := idx_facts t
  unfold iblk0
  rw [View.read_apply]
  show (V c main_v17 : S4x50000x128.Idx → EReal) _ = _
  congr 1
  funext a
  apply Fin.ext
  match a with
  | ⟨0, _⟩ => show win0_1.index t (0 : Fin 3) * 4 + 1 * r.val = r.val; rw [e0]; omega
  | ⟨1, _⟩ => show win0_1.index t (1 : Fin 3) * 2000 + 1 * j.val = n.val; rw [e1, hn]; omega
  | ⟨2, _⟩ => show win0_1.index t (2 : Fin 3) * 128 + 1 * f.val = f.val; rw [e2]; omega

/-- The weights' block at every point is the whole stack of weight matrices. -/
theorem iblk_w (t : Fin cfg0.N) (r : Fin 4) (f g : Fin 128) :
    (iblk0 V c 2 t : Vec Ideal S4x128x128 .f32) (ix3 r f g) = (V c main_arg5 : S4x128x128.Idx → EReal) (ix3 r f g) := by
  obtain ⟨-, -, ⟨e0, e1, e2⟩, -⟩ := idx_facts t
  unfold iblk0
  rw [View.read_apply]
  show (V c main_arg5 : S4x128x128.Idx → EReal) _ = _
  congr 1
  funext a
  apply Fin.ext
  match a with
  | ⟨0, _⟩ => show win0_2.index t (0 : Fin 3) * 4 + 1 * r.val = r.val; rw [e0]; omega
  | ⟨1, _⟩ => show win0_2.index t (1 : Fin 3) * 128 + 1 * f.val = f.val; rw [e1]; omega
  | ⟨2, _⟩ => show win0_2.index t (2 : Fin 3) * 128 + 1 * g.val = g.val; rw [e2]; omega

/-- The biases' block at every point is the whole stack of bias rows. -/
theorem iblk_b (t : Fin cfg0.N) (r : Fin 4) (g : Fin 128) :
    (iblk0 V c 3 t : Vec Ideal S4x1x128 .f32) (ix3 r (0 : Fin 1) g) = (V c main_v18 : S4x1x128.Idx → EReal) (ix3 r (0 : Fin 1) g) := by
  obtain ⟨-, -, -, ⟨e0, e1, e2⟩, -⟩ := idx_facts t
  unfold iblk0
  rw [View.read_apply]
  show (V c main_v18 : S4x1x128.Idx → EReal) _ = _
  congr 1
  funext a
  apply Fin.ext
  match a with
  | ⟨0, _⟩ => show win0_3.index t (0 : Fin 3) * 4 + 1 * r.val = r.val; rw [e0]; omega
  | ⟨1, _⟩ => show win0_3.index t (1 : Fin 3) * 1 + 1 * 0 = 0; rw [e1]
  | ⟨2, _⟩ => show win0_3.index t (2 : Fin 3) * 128 + 1 * g.val = g.val; rw [e2]; omega

/-- The block formula at point t is the layer at the tile's node row: with the four input blocks read off the arrays,
    relation r's entry (j, g) is h_r(2000 t + j, g). -/
theorem lin_blk (t : Fin cfg0.N) (r r' : Fin 4) (j : Fin 2000) (g g' : Fin 128) (n : Fin 50000)
    (hr : r'.val = r.val) (hn : n.val = t.val * 2000 + j.val) (hg : g'.val = g.val) :
    blkLin (iblk0 V c 0 t) (iblk0 V c 1 t) (iblk0 V c 2 t) (iblk0 V c 3 t) r j g
      = lin1 (X V c) (A V c) (W V c) (B V c) r' n g' := by
  obtain rfl : r' = r := Fin.ext hr
  obtain rfl : g' = g := Fin.ext hg
  unfold blkLin lin1 X A W B
  refine congrArg₂ (· + ·) (Finset.sum_congr rfl fun f _ => ?_) (iblk_b V c t r' g')
  exact congrArg₂ (· * ·) (congrArg₂ (· + ·) (iblk_x V c t j f n hn) (iblk_a V c t r' j f n hn)) (iblk_w V c t r' f g')

/-! ## The three arrays, and what each point writes back -/

/-- The stack of first linear layers over all nodes: h_r(n, g) at (r, n, g). -/
def arrLin : Vec Ideal S4x50000x128 .bf16 := fun i => lin1 (X V c) (A V c) (W V c) (B V c) (i 0) (i 1) (i 2)
/-- The per-tile column sums: at (t, r, 0, g), the sum over the tile's rows j of h_r(2000 t + j, g). -/
def arrSum : Vec Ideal S25x4x1x128 .f32 :=
  fun i => ∑ j : Fin 2000, lin1 (X V c) (A V c) (W V c) (B V c) (i 1) (row (i 0) j) (i 3)
/-- The per-tile column sums of squares. -/
def arrSq : Vec Ideal S25x4x1x128 .f32 :=
  fun i => ∑ j : Fin 2000, lin1 (X V c) (A V c) (W V c) (B V c) (i 1) (row (i 0) j) (i 3)
    * lin1 (X V c) (A V c) (W V c) (B V c) (i 1) (row (i 0) j) (i 3)

/-- Point t writes back block t (along the node axis) of the stack of layers. -/
theorem flushed4_eq (t : Fin cfg0.N) :
    (dat0 (F := Ideal) V c).flushed 4 t = ((cfg0.win 4).blk t).view.read (Elt Ideal) (arrLin V c) := by
  show (cfg0.win 4).cut (grid0.coords t) ((dat0 (F := Ideal) V c).after 4 t) = _
  rw [after0_4, out4_eq (iblk0 V c 0 t) (iblk0 V c 1 t) (iblk0 V c 2 t) (iblk0 V c 3 t)]
  obtain ⟨-, -, -, -, ⟨e0, e1, e2⟩, -⟩ := idx_facts t
  funext y
  show blk4 (iblk0 V c 0 t) (iblk0 V c 1 t) (iblk0 V c 2 t) (iblk0 V c 3 t) y = arrLin V c (((cfg0.win 4).blk t).view.emb y)
  refine lin_blk V c t (y 0) _ (y 1) (y 2) _ _ ?_ ?_ ?_
  · show win0_4.index t (0 : Fin 3) * 4 + 1 * (y 0).val = (y 0).val; rw [e0]; omega
  · show win0_4.index t (1 : Fin 3) * 2000 + 1 * (y 1).val = t.val * 2000 + (y 1).val; rw [e1]; omega
  · show win0_4.index t (2 : Fin 3) * 128 + 1 * (y 2).val = (y 2).val; rw [e2]; omega

/-- Point t writes back row t of the column sums. -/
theorem flushed5_eq (t : Fin cfg0.N) :
    (dat0 (F := Ideal) V c).flushed 5 t = ((cfg0.win 5).blk t).view.read (Elt Ideal) (arrSum V c) := by
  show (cfg0.win 5).cut (grid0.coords t) ((dat0 (F := Ideal) V c).after 5 t) = _
  rw [after0_5, out5_eq (iblk0 V c 0 t) (iblk0 V c 1 t) (iblk0 V c 2 t) (iblk0 V c 3 t)]
  obtain ⟨-, -, -, -, -, ⟨e0, e1, e2, e3⟩, -⟩ := idx_facts t
  funext y
  show blk5 (iblk0 V c 0 t) (iblk0 V c 1 t) (iblk0 V c 2 t) (iblk0 V c 3 t) y = arrSum V c (((cfg0.win 5).blk t).view.emb y)
  have hy0 : (y 0).val < 1 := (y 0).isLt
  refine Finset.sum_congr rfl fun j _ => lin_blk V c t (y 1) _ j (y 3) _ _ ?_ ?_ ?_
  · show win0_5.index t (1 : Fin 4) * 4 + 1 * (y 1).val = (y 1).val; rw [e1]; omega
  · show (win0_5.index t (0 : Fin 4) * 1 + 1 * (y 0).val) * 2000 + j.val = t.val * 2000 + j.val; rw [e0]; omega
  · show win0_5.index t (3 : Fin 4) * 128 + 1 * (y 3).val = (y 3).val; rw [e3]; omega

/-- Point t writes back row t of the column sums of squares. -/
theorem flushed6_eq (t : Fin cfg0.N) :
    (dat0 (F := Ideal) V c).flushed 6 t = ((cfg0.win 6).blk t).view.read (Elt Ideal) (arrSq V c) := by
  show (cfg0.win 6).cut (grid0.coords t) ((dat0 (F := Ideal) V c).after 6 t) = _
  rw [after0_6, out6_eq (iblk0 V c 0 t) (iblk0 V c 1 t) (iblk0 V c 2 t) (iblk0 V c 3 t)]
  obtain ⟨-, -, -, -, -, -, ⟨e0, e1, e2, e3⟩⟩ := idx_facts t
  funext y
  show blk6 (iblk0 V c 0 t) (iblk0 V c 1 t) (iblk0 V c 2 t) (iblk0 V c 3 t) y = arrSq V c (((cfg0.win 6).blk t).view.emb y)
  have hy0 : (y 0).val < 1 := (y 0).isLt
  have key : ∀ j : Fin 2000, blkLin (iblk0 V c 0 t) (iblk0 V c 1 t) (iblk0 V c 2 t) (iblk0 V c 3 t) (y 1) j (y 3)
      = lin1 (X V c) (A V c) (W V c) (B V c) ((((cfg0.win 6).blk t).view.emb y) 1)
          (row ((((cfg0.win 6).blk t).view.emb y) 0) j) ((((cfg0.win 6).blk t).view.emb y) 3) := fun j => by
    refine lin_blk V c t (y 1) _ j (y 3) _ _ ?_ ?_ ?_
    · show win0_6.index t (1 : Fin 4) * 4 + 1 * (y 1).val = (y 1).val; rw [e1]; omega
    · show (win0_6.index t (0 : Fin 4) * 1 + 1 * (y 0).val) * 2000 + j.val = t.val * 2000 + j.val; rw [e0]; omega
    · show win0_6.index t (3 : Fin 4) * 128 + 1 * (y 3).val = (y 3).val; rw [e3]; omega
  exact Finset.sum_congr rfl fun j _ => congrArg₂ (· * ·) (key j) (key j)

/-! ## Every entry is written: the blocks tile the arrays -/

theorem mem_blk4 (t : Fin cfg0.N) (i : S4x50000x128.Idx) :
    i ∈ ((cfg0.win 4).blk t).view.set ↔ ∀ a : Fin 3, win0_4.index t a * S4x2000x128.size a ≤ (i a).val
      ∧ (i a).val < win0_4.index t a * S4x2000x128.size a + S4x2000x128.size a := by
  show i ∈ ((View.whole main_v23_0).slice (win0_4.rect t)).set ↔ _
  rw [View.set_slice_whole, Rect.mem_set_unit]
  exact Iff.rfl

theorem mem_blk5 (t : Fin cfg0.N) (i : S25x4x1x128.Idx) :
    i ∈ ((cfg0.win 5).blk t).view.set ↔ ∀ a : Fin 4, win0_5.index t a * S1x4x1x128.size a ≤ (i a).val
      ∧ (i a).val < win0_5.index t a * S1x4x1x128.size a + S1x4x1x128.size a := by
  show i ∈ ((View.whole main_v23_1).slice (win0_5.rect t)).set ↔ _
  rw [View.set_slice_whole, Rect.mem_set_unit]
  exact Iff.rfl

theorem mem_blk6 (t : Fin cfg0.N) (i : S25x4x1x128.Idx) :
    i ∈ ((cfg0.win 6).blk t).view.set ↔ ∀ a : Fin 4, win0_6.index t a * S1x4x1x128.size a ≤ (i a).val
      ∧ (i a).val < win0_6.index t a * S1x4x1x128.size a + S1x4x1x128.size a := by
  show i ∈ ((View.whole main_v23_2).slice (win0_6.rect t)).set ↔ _
  rw [View.set_slice_whole, Rect.mem_set_unit]
  exact Iff.rfl

/-- Node row n lies in the block of point n / 2000. -/
theorem cover4 (i : S4x50000x128.Idx) :
    ∃ t : Fin cfg0.N, (cfg0.win 4).flush t = true ∧ i ∈ ((cfg0.win 4).blk t).view.set := by
  have h0 : (i 0).val < 4 := (i 0).isLt
  have h1 : (i 1).val < 50000 := (i 1).isLt
  have h2 : (i 2).val < 128 := (i 2).isLt
  obtain ⟨t, ht⟩ : ∃ t : Fin cfg0.N, t.val = (i 1).val / 2000 :=
    ⟨⟨(i 1).val / 2000, lt_of_lt_of_eq (by omega : (i 1).val / 2000 < 25) N_0.symm⟩, rfl⟩
  obtain ⟨-, -, -, -, ⟨e0, e1, e2⟩, -⟩ := idx_facts t
  refine ⟨t, flush0_4 t, ?_⟩
  rw [mem_blk4]
  intro a
  match a with
  | ⟨0, _⟩ => show win0_4.index t (0 : Fin 3) * 4 ≤ (i 0).val ∧ (i 0).val < win0_4.index t (0 : Fin 3) * 4 + 4; rw [e0]; omega
  | ⟨1, _⟩ => show win0_4.index t (1 : Fin 3) * 2000 ≤ (i 1).val ∧ (i 1).val < win0_4.index t (1 : Fin 3) * 2000 + 2000; rw [e1, ht]; omega
  | ⟨2, _⟩ => show win0_4.index t (2 : Fin 3) * 128 ≤ (i 2).val ∧ (i 2).val < win0_4.index t (2 : Fin 3) * 128 + 128; rw [e2]; omega

/-- Leading coordinate t lies in the block of point t. -/
theorem cover5 (i : S25x4x1x128.Idx) :
    ∃ t : Fin cfg0.N, (cfg0.win 5).flush t = true ∧ i ∈ ((cfg0.win 5).blk t).view.set := by
  have h0 : (i 0).val < 25 := (i 0).isLt
  have h1 : (i 1).val < 4 := (i 1).isLt
  have h2 : (i 2).val < 1 := (i 2).isLt
  have h3 : (i 3).val < 128 := (i 3).isLt
  obtain ⟨t, ht⟩ : ∃ t : Fin cfg0.N, t.val = (i 0).val := ⟨⟨(i 0).val, lt_of_lt_of_eq h0 N_0.symm⟩, rfl⟩
  obtain ⟨-, -, -, -, -, ⟨e0, e1, e2, e3⟩, -⟩ := idx_facts t
  refine ⟨t, flush0_5 t, ?_⟩
  rw [mem_blk5]
  intro a
  match a with
  | ⟨0, _⟩ => show win0_5.index t (0 : Fin 4) * 1 ≤ (i 0).val ∧ (i 0).val < win0_5.index t (0 : Fin 4) * 1 + 1; rw [e0, ht]; omega
  | ⟨1, _⟩ => show win0_5.index t (1 : Fin 4) * 4 ≤ (i 1).val ∧ (i 1).val < win0_5.index t (1 : Fin 4) * 4 + 4; rw [e1]; omega
  | ⟨2, _⟩ => show win0_5.index t (2 : Fin 4) * 1 ≤ (i 2).val ∧ (i 2).val < win0_5.index t (2 : Fin 4) * 1 + 1; rw [e2]; omega
  | ⟨3, _⟩ => show win0_5.index t (3 : Fin 4) * 128 ≤ (i 3).val ∧ (i 3).val < win0_5.index t (3 : Fin 4) * 128 + 128; rw [e3]; omega

theorem cover6 (i : S25x4x1x128.Idx) :
    ∃ t : Fin cfg0.N, (cfg0.win 6).flush t = true ∧ i ∈ ((cfg0.win 6).blk t).view.set := by
  have h0 : (i 0).val < 25 := (i 0).isLt
  have h1 : (i 1).val < 4 := (i 1).isLt
  have h2 : (i 2).val < 1 := (i 2).isLt
  have h3 : (i 3).val < 128 := (i 3).isLt
  obtain ⟨t, ht⟩ : ∃ t : Fin cfg0.N, t.val = (i 0).val := ⟨⟨(i 0).val, lt_of_lt_of_eq h0 N_0.symm⟩, rfl⟩
  obtain ⟨-, -, -, -, -, -, ⟨e0, e1, e2, e3⟩⟩ := idx_facts t
  refine ⟨t, flush0_6 t, ?_⟩
  rw [mem_blk6]
  intro a
  match a with
  | ⟨0, _⟩ => show win0_6.index t (0 : Fin 4) * 1 ≤ (i 0).val ∧ (i 0).val < win0_6.index t (0 : Fin 4) * 1 + 1; rw [e0, ht]; omega
  | ⟨1, _⟩ => show win0_6.index t (1 : Fin 4) * 4 ≤ (i 1).val ∧ (i 1).val < win0_6.index t (1 : Fin 4) * 4 + 4; rw [e1]; omega
  | ⟨2, _⟩ => show win0_6.index t (2 : Fin 4) * 1 ≤ (i 2).val ∧ (i 2).val < win0_6.index t (2 : Fin 4) * 1 + 1; rw [e2]; omega
  | ⟨3, _⟩ => show win0_6.index t (3 : Fin 4) * 128 ≤ (i 3).val ∧ (i 3).val < win0_6.index t (3 : Fin 4) * 128 + 128; rw [e3]; omega

/-! ## The arrays after the last point -/

/-- The stack of first linear layers: entry (r, n, g) is h_r(n, g). -/
theorem arr4 : (dat0 (F := Ideal) V c).arrAt 4 cfg0.N = arrLin V c :=
  (dat0 (F := Ideal) V c).arrAt_eq_of_cover 4 (arrLin V c) (fun t _ => flushed4_eq V c t) cover4

/-- The per-tile column sums: entry (t, r, 0, g) is the sum over j of h_r(2000 t + j, g). -/
theorem arr5 : (dat0 (F := Ideal) V c).arrAt 5 cfg0.N = arrSum V c :=
  (dat0 (F := Ideal) V c).arrAt_eq_of_cover 5 (arrSum V c) (fun t _ => flushed5_eq V c t) cover5

/-- The per-tile column sums of squares: entry (t, r, 0, g) is the sum over j of h_r(2000 t + j, g)^2. -/
theorem arr6 : (dat0 (F := Ideal) V c).arrAt 6 cfg0.N = arrSq V c :=
  (dat0 (F := Ideal) V c).arrAt_eq_of_cover 6 (arrSq V c) (fun t _ => flushed6_eq V c t) cover6

/-! ## The same, with the functions written out and at coordinates -/

theorem arr4_fun : ((dat0 (F := Ideal) V c).arrAt 4 cfg0.N : S4x50000x128.Idx → EReal)
    = fun i => lin1 (X V c) (A V c) (W V c) (B V c) (i 0) (i 1) (i 2) := arr4 V c

theorem arr5_fun : ((dat0 (F := Ideal) V c).arrAt 5 cfg0.N : S25x4x1x128.Idx → EReal)
    = fun i => ∑ j : Fin 2000, lin1 (X V c) (A V c) (W V c) (B V c) (i 1) (row (i 0) j) (i 3) := arr5 V c

theorem arr6_fun : ((dat0 (F := Ideal) V c).arrAt 6 cfg0.N : S25x4x1x128.Idx → EReal)
    = fun i => ∑ j : Fin 2000, lin1 (X V c) (A V c) (W V c) (B V c) (i 1) (row (i 0) j) (i 3)
        * lin1 (X V c) (A V c) (W V c) (B V c) (i 1) (row (i 0) j) (i 3) := arr6 V c

theorem arr4_apply (r : Fin 4) (n : Fin 50000) (g : Fin 128) :
    ((dat0 (F := Ideal) V c).arrAt 4 cfg0.N : S4x50000x128.Idx → EReal) (ix3 r n g)
      = lin1 (X V c) (A V c) (W V c) (B V c) r n g := congrFun (arr4 V c) (ix3 r n g)

theorem arr5_apply (t : Fin 25) (r : Fin 4) (u : Fin 1) (g : Fin 128) :
    ((dat0 (F := Ideal) V c).arrAt 5 cfg0.N : S25x4x1x128.Idx → EReal) (ix4 t r u g)
      = ∑ j : Fin 2000, lin1 (X V c) (A V c) (W V c) (B V c) r (row t j) g := congrFun (arr5 V c) (ix4 t r u g)

theorem arr6_apply (t : Fin 25) (r : Fin 4) (u : Fin 1) (g : Fin 128) :
    ((dat0 (F := Ideal) V c).arrAt 6 cfg0.N : S25x4x1x128.Idx → EReal) (ix4 t r u g)
      = ∑ j : Fin 2000, lin1 (X V c) (A V c) (W V c) (B V c) r (row t j) g
          * lin1 (X V c) (A V c) (W V c) (B V c) r (row t j) g := congrFun (arr6 V c) (ix4 t r u g)

end Cert.KernelIdeal.Reg0

end
-- ==== Proof.Reg1Pay.lean ====
import proofs.«137962_j6932077216184_2_alg».proof.Proof.Gen.KernelIdeal.Frame
import proofs.«137962_j6932077216184_2_alg».proof.Proof.Spec
import proofs.«137962_j6932077216184_2_alg».proof.Proof.LibMatmulRows
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Reg1

open Idealize.ShloMosaic Idealize.ShloMosaic.ValueIdx Cert.KernelIdeal Cert.Rgin

/-! # The second region's arithmetic, entry by entry

Every vector operation of the body is read at one entry of the 2000 x 128 tile. The per-relation parameters arrive as
1 x 1 x 128 slabs that are viewed as one row and spread over the tile's rows; the features arrive as a 1 x 2000 x 128
slab viewed as a matrix; each matrix product into the zero accumulator is a finite sum over the 128 features. -/

/-- A [1, 1, 128] slab viewed as one row and spread over the rows of the tile reads, at (j, g), the slab's entry g. -/
theorem row_spread {α : Type} (v : S1x1x128.Idx → α) (h : S1x1x128.ShapeCasts S1x128) (h' : S1x128.Broadcasts S2000x128)
    (j : Fin 2000) (g : Fin 128) :
    broadcastTo S2000x128 (shapeCast S1x128 v h) h' (ix2 j g) = v (ix3 (0 : Fin 1) (0 : Fin 1) g) :=
  (broadcastTo_1b_ab_apply _ h' j g).trans (shapeCast_1ab_ab_apply v h (0 : Fin 1) g)

/-- The product of a tile of rows with a square matrix into the zero accumulator, entry by entry. -/
theorem mm_apply (a : FVec Ideal S2000x128 .bf16) (b : FVec Ideal S128x128 .bf16) (j : Fin 2000) (k : Fin 128) :
    FloatOps.matmul dot_S2000x128_S128x128_S2000x128_1_0_0_1_n_n none a b (constant (F := Ideal) S2000x128 .f32 0x00000000#32) (ix2 j k)
      = ∑ f : Fin 128, a (ix2 j f) * b (ix2 f k) :=
  MatmulRows.matmul_zero_apply dot_S2000x128_S128x128_S2000x128_1_0_0_1_n_n none rfl rfl rfl rfl
    (fun i q => rfl) (fun i q => rfl) a b (ix2 j k)

/-- One relation's activation at one entry: centre, scale by the reciprocal root of the shifted variance, scale, shift,
    clamp below at zero. -/
def hn (h m v gm bt : EReal) : EReal := max ((h - m) * Ideal.rsqrt (v + cEps) * gm + bt) 0

/-- One relation's contribution to an output entry: the activations of the node against a column of the second weight
    matrix, plus the bias. -/
def contrib (h : Fin 128 → EReal) (m v gm bt : Fin 128 → EReal) (w : Fin 128 → EReal) (b : EReal) : EReal :=
  (∑ g : Fin 128, hn (h g) (m g) (v g) (gm g) (bt g) * w g) + b

/-! ## The self-loop layer -/

theorem pay2_apply (v0 : Vec Ideal S2000x128 .f32) (v1 : Vec Ideal S128x128 .f32) (v2 : Vec Ideal S1x128 .f32) (j : Fin 2000) (k : Fin 128) :
    Gen.k1_pay2 v0 v1 v2 (ix2 j k) = (∑ f : Fin 128, v0 (ix2 j f) * v1 (ix2 f k)) + v2 (ix2 (0 : Fin 1) k) := by
  unfold Gen.k1_pay2
  rw [addf_apply, broadcastTo_1b_ab_apply, shapeCast_self]
  refine congrArg (· + v2 (ix2 (0 : Fin 1) k)) ?_
  exact mm_apply _ _ j k

/-! ## The parameters' slabs viewed as rows and matrices -/

theorem row_apply (v : Vec Ideal S1x1x128 .f32) (h : S1x1x128.ShapeCasts S1x128) (g : Fin 128) :
    shapeCast S1x128 v h (ix2 (0 : Fin 1) g) = v (ix3 (0 : Fin 1) (0 : Fin 1) g) :=
  shapeCast_1ab_ab_apply v h (0 : Fin 1) g

theorem pay3_apply (v : Vec Ideal S1x1x128 .f32) (g : Fin 128) : Gen.k1_pay3 v (ix2 (0 : Fin 1) g) = v (ix3 (0 : Fin 1) (0 : Fin 1) g) := row_apply v _ g
theorem pay4_apply (v : Vec Ideal S1x1x128 .f32) (g : Fin 128) : Gen.k1_pay4 v (ix2 (0 : Fin 1) g) = v (ix3 (0 : Fin 1) (0 : Fin 1) g) := row_apply v _ g
theorem pay6_apply (v : Vec Ideal S1x1x128 .f32) (g : Fin 128) : Gen.k1_pay6 v (ix2 (0 : Fin 1) g) = v (ix3 (0 : Fin 1) (0 : Fin 1) g) := row_apply v _ g
theorem pay10_apply (v : Vec Ideal S1x1x128 .f32) (g : Fin 128) : Gen.k1_pay10 v (ix2 (0 : Fin 1) g) = v (ix3 (0 : Fin 1) (0 : Fin 1) g) := row_apply v _ g
theorem pay12_apply (v : Vec Ideal S1x1x128 .f32) (g : Fin 128) : Gen.k1_pay12 v (ix2 (0 : Fin 1) g) = v (ix3 (0 : Fin 1) (0 : Fin 1) g) := row_apply v _ g
theorem pay17_apply (v : Vec Ideal S1x1x128 .f32) (g : Fin 128) : Gen.k1_pay17 v (ix2 (0 : Fin 1) g) = v (ix3 (0 : Fin 1) (0 : Fin 1) g) := row_apply v _ g
theorem pay22_apply (v : Vec Ideal S1x1x128 .f32) (g : Fin 128) : Gen.k1_pay22 v (ix2 (0 : Fin 1) g) = v (ix3 (0 : Fin 1) (0 : Fin 1) g) := row_apply v _ g

theorem mat_apply (v : Vec Ideal S1x128x128 .f32) (h : S1x128x128.ShapeCasts S128x128) (g k : Fin 128) :
    shapeCast S128x128 v h (ix2 g k) = v (ix3 (0 : Fin 1) g k) :=
  shapeCast_1ab_ab_apply v h g k

theorem pay5_apply (v : Vec Ideal S1x128x128 .f32) (g k : Fin 128) : Gen.k1_pay5 v (ix2 g k) = v (ix3 (0 : Fin 1) g k) := mat_apply v _ g k
theorem pay11_apply (v : Vec Ideal S1x128x128 .f32) (g k : Fin 128) : Gen.k1_pay11 v (ix2 g k) = v (ix3 (0 : Fin 1) g k) := mat_apply v _ g k
theorem pay16_apply (v : Vec Ideal S1x128x128 .f32) (g k : Fin 128) : Gen.k1_pay16 v (ix2 g k) = v (ix3 (0 : Fin 1) g k) := mat_apply v _ g k
theorem pay21_apply (v : Vec Ideal S1x128x128 .f32) (g k : Fin 128) : Gen.k1_pay21 v (ix2 g k) = v (ix3 (0 : Fin 1) g k) := mat_apply v _ g k

/-! ## Relation 0: the centred features and the reciprocal root arrive separately -/

theorem pay7_apply (v9 : Vec Ideal S1x2000x128 .bf16) (v12 : Vec Ideal S1x1x128 .f32) (j : Fin 2000) (g : Fin 128) :
    Gen.k1_pay7 v9 v12 (ix2 j g) = v9 (ix3 (0 : Fin 1) j g) - v12 (ix3 (0 : Fin 1) (0 : Fin 1) g) := by
  unfold Gen.k1_pay7
  rw [subf_apply, extf_apply, shapeCast_1ab_ab_apply, row_spread]

theorem pay8_apply (v14 : Vec Ideal S1x1x128 .f32) (j : Fin 2000) (g : Fin 128) :
    Gen.k1_pay8 v14 (ix2 j g) = Ideal.rsqrt (v14 (ix3 (0 : Fin 1) (0 : Fin 1) g) + cEps) := by
  unfold Gen.k1_pay8
  rw [broadcastTo_1b_ab_apply]
  show Ideal.rsqrt (shapeCast S1x128 v14 _ (ix2 (0 : Fin 1) g) + cEps) = _
  rw [shapeCast_1ab_ab_apply]

theorem pay9_apply (v8 : FVec Ideal S2000x128 .f32) (v17 v19 : FVec Ideal S1x128 .f32) (v21 : FVec Ideal S128x128 .f32)
    (v23 : FVec Ideal S1x128 .f32) (v25 v29 : FVec Ideal S2000x128 .f32) (j : Fin 2000) (k : Fin 128) :
    Gen.k1_pay9 v8 v17 v19 v21 v23 v25 v29 (ix2 j k)
      = v8 (ix2 j k) + ((∑ g : Fin 128, max (v25 (ix2 j g) * v29 (ix2 j g) * v17 (ix2 (0 : Fin 1) g) + v19 (ix2 (0 : Fin 1) g)) 0 * v21 (ix2 g k))
          + v23 (ix2 (0 : Fin 1) k)) := by
  unfold Gen.k1_pay9
  rw [addf_apply, addf_apply, broadcastTo_1b_ab_apply]
  refine congrArg (fun s => v8 (ix2 j k) + (s + v23 (ix2 (0 : Fin 1) k))) ?_
  refine (mm_apply _ _ j k).trans (Finset.sum_congr rfl fun g _ => ?_)
  rw [truncf_apply, truncf_apply, maximumf_apply, addf_apply, mulf_apply, mulf_apply, broadcastTo_1b_ab_apply,
    broadcastTo_1b_ab_apply, broadcast_apply]
  show max _ (Ideal.ofBits .f32 0x00000000#32) * _ = _
  rw [Ideal.ofBits_zero_f32]

/-- Relation 0's layer added to what has been accumulated. -/
theorem rel0_apply (acc : FVec Ideal S2000x128 .f32) (gm bt : Vec Ideal S1x1x128 .f32) (w : Vec Ideal S1x128x128 .f32)
    (b2 : Vec Ideal S1x1x128 .f32) (h : Vec Ideal S1x2000x128 .bf16) (mn vr : Vec Ideal S1x1x128 .f32) (j : Fin 2000) (k : Fin 128) :
    Gen.k1_pay9 acc (Gen.k1_pay3 gm) (Gen.k1_pay4 bt) (Gen.k1_pay5 w) (Gen.k1_pay6 b2) (Gen.k1_pay7 h mn) (Gen.k1_pay8 vr) (ix2 j k)
      = acc (ix2 j k) + contrib (fun g => h (ix3 (0 : Fin 1) j g)) (fun g => mn (ix3 (0 : Fin 1) (0 : Fin 1) g))
          (fun g => vr (ix3 (0 : Fin 1) (0 : Fin 1) g)) (fun g => gm (ix3 (0 : Fin 1) (0 : Fin 1) g))
          (fun g => bt (ix3 (0 : Fin 1) (0 : Fin 1) g)) (fun g => w (ix3 (0 : Fin 1) g k)) (b2 (ix3 (0 : Fin 1) (0 : Fin 1) k)) := by
  rw [pay9_apply, pay6_apply]
  refine congrArg (fun s => acc (ix2 j k) + (s + b2 (ix3 (0 : Fin 1) (0 : Fin 1) k))) (Finset.sum_congr rfl fun g _ => ?_)
  rw [pay7_apply, pay8_apply, pay3_apply, pay4_apply, pay5_apply]
  rfl

/-! ## Relation 1: the normalised features arrive as one piece, the scale as a spread row -/

theorem pay13_apply (v43 : Vec Ideal S1x2000x128 .bf16) (v46 v48 : Vec Ideal S1x1x128 .f32) (j : Fin 2000) (g : Fin 128) :
    Gen.k1_pay13 v43 v46 v48 (ix2 j g)
      = (v43 (ix3 (0 : Fin 1) j g) - v46 (ix3 (0 : Fin 1) (0 : Fin 1) g)) * Ideal.rsqrt (v48 (ix3 (0 : Fin 1) (0 : Fin 1) g) + cEps) := by
  unfold Gen.k1_pay13
  rw [mulf_apply, subf_apply, extf_apply, shapeCast_1ab_ab_apply, row_spread, broadcastTo_1b_ab_apply]
  show _ * Ideal.rsqrt (shapeCast S1x128 v48 _ (ix2 (0 : Fin 1) g) + cEps) = _
  rw [shapeCast_1ab_ab_apply]

theorem pay14_apply (v50 : Vec Ideal S1x1x128 .f32) (j : Fin 2000) (g : Fin 128) :
    Gen.k1_pay14 v50 (ix2 j g) = v50 (ix3 (0 : Fin 1) (0 : Fin 1) g) := by
  unfold Gen.k1_pay14
  exact row_spread v50 _ _ j g

theorem pay15_apply (v42 : FVec Ideal S2000x128 .f32) (v53 : FVec Ideal S1x128 .f32) (v55 : FVec Ideal S128x128 .f32)
    (v57 : FVec Ideal S1x128 .f32) (v64 v65 : FVec Ideal S2000x128 .f32) (j : Fin 2000) (k : Fin 128) :
    Gen.k1_pay15 v42 v53 v55 v57 v64 v65 (ix2 j k)
      = v42 (ix2 j k) + ((∑ g : Fin 128, max (v64 (ix2 j g) * v65 (ix2 j g) + v53 (ix2 (0 : Fin 1) g)) 0 * v55 (ix2 g k))
          + v57 (ix2 (0 : Fin 1) k)) := by
  unfold Gen.k1_pay15
  rw [addf_apply, addf_apply, broadcastTo_1b_ab_apply]
  refine congrArg (fun s => v42 (ix2 j k) + (s + v57 (ix2 (0 : Fin 1) k))) ?_
  refine (mm_apply _ _ j k).trans (Finset.sum_congr rfl fun g _ => ?_)
  rw [truncf_apply, truncf_apply, maximumf_apply, addf_apply, mulf_apply, broadcastTo_1b_ab_apply, broadcast_apply]
  show max _ (Ideal.ofBits .f32 0x00000000#32) * _ = _
  rw [Ideal.ofBits_zero_f32]

/-- Relation 1's layer added to what has been accumulated. -/
theorem rel1_apply (acc : FVec Ideal S2000x128 .f32) (bt : Vec Ideal S1x1x128 .f32) (w : Vec Ideal S1x128x128 .f32)
    (b2 : Vec Ideal S1x1x128 .f32) (h : Vec Ideal S1x2000x128 .bf16) (mn vr gm : Vec Ideal S1x1x128 .f32) (j : Fin 2000) (k : Fin 128) :
    Gen.k1_pay15 acc (Gen.k1_pay10 bt) (Gen.k1_pay11 w) (Gen.k1_pay12 b2) (Gen.k1_pay13 h mn vr) (Gen.k1_pay14 gm) (ix2 j k)
      = acc (ix2 j k) + contrib (fun g => h (ix3 (0 : Fin 1) j g)) (fun g => mn (ix3 (0 : Fin 1) (0 : Fin 1) g))
          (fun g => vr (ix3 (0 : Fin 1) (0 : Fin 1) g)) (fun g => gm (ix3 (0 : Fin 1) (0 : Fin 1) g))
          (fun g => bt (ix3 (0 : Fin 1) (0 : Fin 1) g)) (fun g => w (ix3 (0 : Fin 1) g k)) (b2 (ix3 (0 : Fin 1) (0 : Fin 1) k)) := by
  rw [pay15_apply, pay12_apply]
  refine congrArg (fun s => acc (ix2 j k) + (s + b2 (ix3 (0 : Fin 1) (0 : Fin 1) k))) (Finset.sum_congr rfl fun g _ => ?_)
  rw [pay13_apply, pay14_apply, pay10_apply, pay11_apply]
  rfl

/-! ## Relation 2: normalised and scaled in one piece, the shift as a spread row -/

theorem pay18_apply (v77 : Vec Ideal S1x2000x128 .bf16) (v80 v82 v84 : Vec Ideal S1x1x128 .f32) (j : Fin 2000) (g : Fin 128) :
    Gen.k1_pay18 v77 v80 v82 v84 (ix2 j g)
      = (v77 (ix3 (0 : Fin 1) j g) - v80 (ix3 (0 : Fin 1) (0 : Fin 1) g)) * Ideal.rsqrt (v82 (ix3 (0 : Fin 1) (0 : Fin 1) g) + cEps)
          * v84 (ix3 (0 : Fin 1) (0 : Fin 1) g) := by
  unfold Gen.k1_pay18
  rw [mulf_apply, mulf_apply, subf_apply, extf_apply, shapeCast_1ab_ab_apply, row_spread, row_spread, broadcastTo_1b_ab_apply]
  show _ * Ideal.rsqrt (shapeCast S1x128 v82 _ (ix2 (0 : Fin 1) g) + cEps) * _ = _
  rw [shapeCast_1ab_ab_apply]

theorem pay19_apply (v86 : Vec Ideal S1x1x128 .f32) (j : Fin 2000) (g : Fin 128) :
    Gen.k1_pay19 v86 (ix2 j g) = v86 (ix3 (0 : Fin 1) (0 : Fin 1) g) := by
  unfold Gen.k1_pay19
  exact row_spread v86 _ _ j g

theorem pay20_apply (v76 : FVec Ideal S2000x128 .f32) (v89 : FVec Ideal S128x128 .f32) (v91 : FVec Ideal S1x128 .f32)
    (v100 v101 : FVec Ideal S2000x128 .f32) (j : Fin 2000) (k : Fin 128) :
    Gen.k1_pay20 v76 v89 v91 v100 v101 (ix2 j k)
      = v76 (ix2 j k) + ((∑ g : Fin 128, max (v100 (ix2 j g) + v101 (ix2 j g)) 0 * v89 (ix2 g k)) + v91 (ix2 (0 : Fin 1) k)) := by
  unfold Gen.k1_pay20
  rw [addf_apply, addf_apply, broadcastTo_1b_ab_apply]
  refine congrArg (fun s => v76 (ix2 j k) + (s + v91 (ix2 (0 : Fin 1) k))) ?_
  refine (mm_apply _ _ j k).trans (Finset.sum_congr rfl fun g _ => ?_)
  rw [truncf_apply, truncf_apply, maximumf_apply, addf_apply, broadcast_apply]
  show max _ (Ideal.ofBits .f32 0x00000000#32) * _ = _
  rw [Ideal.ofBits_zero_f32]

/-- Relation 2's layer added to what has been accumulated. -/
theorem rel2_apply (acc : FVec Ideal S2000x128 .f32) (w : Vec Ideal S1x128x128 .f32) (b2 : Vec Ideal S1x1x128 .f32)
    (h : Vec Ideal S1x2000x128 .bf16) (mn vr gm bt : Vec Ideal S1x1x128 .f32) (j : Fin 2000) (k : Fin 128) :
    Gen.k1_pay20 acc (Gen.k1_pay16 w) (Gen.k1_pay17 b2) (Gen.k1_pay18 h mn vr gm) (Gen.k1_pay19 bt) (ix2 j k)
      = acc (ix2 j k) + contrib (fun g => h (ix3 (0 : Fin 1) j g)) (fun g => mn (ix3 (0 : Fin 1) (0 : Fin 1) g))
          (fun g => vr (ix3 (0 : Fin 1) (0 : Fin 1) g)) (fun g => gm (ix3 (0 : Fin 1) (0 : Fin 1) g))
          (fun g => bt (ix3 (0 : Fin 1) (0 : Fin 1) g)) (fun g => w (ix3 (0 : Fin 1) g k)) (b2 (ix3 (0 : Fin 1) (0 : Fin 1) k)) := by
  rw [pay20_apply, pay17_apply]
  refine congrArg (fun s => acc (ix2 j k) + (s + b2 (ix3 (0 : Fin 1) (0 : Fin 1) k))) (Finset.sum_congr rfl fun g _ => ?_)
  rw [pay18_apply, pay19_apply, pay16_apply]
  rfl

/-! ## Relation 3: everything up to the clamp arrives as one piece, the clamp's zero as a scalar -/

theorem pay23_apply (v111 : Vec Ideal S1x2000x128 .bf16) (v114 v116 v118 v120 : Vec Ideal S1x1x128 .f32) (j : Fin 2000) (g : Fin 128) :
    Gen.k1_pay23 v111 v114 v116 v118 v120 (ix2 j g)
      = (v111 (ix3 (0 : Fin 1) j g) - v114 (ix3 (0 : Fin 1) (0 : Fin 1) g)) * Ideal.rsqrt (v116 (ix3 (0 : Fin 1) (0 : Fin 1) g) + cEps)
          * v118 (ix3 (0 : Fin 1) (0 : Fin 1) g) + v120 (ix3 (0 : Fin 1) (0 : Fin 1) g) := by
  unfold Gen.k1_pay23
  rw [addf_apply, mulf_apply, mulf_apply, subf_apply, extf_apply, shapeCast_1ab_ab_apply, row_spread, row_spread, row_spread,
    broadcastTo_1b_ab_apply]
  show _ * Ideal.rsqrt (shapeCast S1x128 v116 _ (ix2 (0 : Fin 1) g) + cEps) * _ + _ = _
  rw [shapeCast_1ab_ab_apply]

theorem pay1_apply (v110 : FVec Ideal S2000x128 .f32) (v123 : FVec Ideal S128x128 .f32) (v125 : FVec Ideal S1x128 .f32)
    (v136 : FVec Ideal S2000x128 .f32) (z : Ideal .f32) (j : Fin 2000) (k : Fin 128) :
    Gen.k1_pay1 v110 v123 v125 v136 z (ix2 j k)
      = v110 (ix2 j k) + ((∑ g : Fin 128, max (v136 (ix2 j g)) z * v123 (ix2 g k)) + v125 (ix2 (0 : Fin 1) k)) := by
  unfold Gen.k1_pay1
  rw [addf_apply, addf_apply, broadcastTo_1b_ab_apply]
  refine congrArg (fun s => v110 (ix2 j k) + (s + v125 (ix2 (0 : Fin 1) k))) ?_
  refine (mm_apply _ _ j k).trans (Finset.sum_congr rfl fun g _ => ?_)
  rw [truncf_apply, truncf_apply, maximumf_apply, broadcast_apply]

/-- Relation 3's layer added to what has been accumulated. -/
theorem rel3_apply (acc : FVec Ideal S2000x128 .f32) (w : Vec Ideal S1x128x128 .f32) (b2 : Vec Ideal S1x1x128 .f32)
    (h : Vec Ideal S1x2000x128 .bf16) (mn vr gm bt : Vec Ideal S1x1x128 .f32) (j : Fin 2000) (k : Fin 128) :
    Gen.k1_pay1 acc (Gen.k1_pay21 w) (Gen.k1_pay22 b2) (Gen.k1_pay23 h mn vr gm bt) (Scalar.ofBits .f32 0x00000000#32) (ix2 j k)
      = acc (ix2 j k) + contrib (fun g => h (ix3 (0 : Fin 1) j g)) (fun g => mn (ix3 (0 : Fin 1) (0 : Fin 1) g))
          (fun g => vr (ix3 (0 : Fin 1) (0 : Fin 1) g)) (fun g => gm (ix3 (0 : Fin 1) (0 : Fin 1) g))
          (fun g => bt (ix3 (0 : Fin 1) (0 : Fin 1) g)) (fun g => w (ix3 (0 : Fin 1) g k)) (b2 (ix3 (0 : Fin 1) (0 : Fin 1) k)) := by
  rw [pay1_apply, pay22_apply]
  refine congrArg (fun s => acc (ix2 j k) + (s + b2 (ix3 (0 : Fin 1) (0 : Fin 1) k))) (Finset.sum_congr rfl fun g _ => ?_)
  rw [pay23_apply, pay21_apply]
  show max _ (Ideal.ofBits .f32 0x00000000#32) * _ = _
  rw [Ideal.ofBits_zero_f32]
  rfl

end Cert.KernelIdeal.Reg1

end
-- ==== Proof.Reg1Blk.lean ====
import proofs.«137962_j6932077216184_2_alg».proof.Proof.Reg1Pay

noncomputable section

open scoped BigOperators

namespace Cert.KernelIdeal.Reg1

open Idealize.ShloMosaic Idealize.ShloMosaic.ValueIdx Cert.KernelIdeal Cert.Rgin

/-! # What the body leaves in the output tile, entry by entry, from the ten input blocks

The body loads the node features, the self-loop weights and bias whole, and for each relation r the slab r of the
stacked first-layer outputs, statistics, scale, shift, second weights and bias; it stores the accumulated tile once. -/

theorem hz2 : (![0, 0] : Fin 2 → Nat) = fun _ => 0 := funext fun a => by fin_cases a <;> rfl

/-- A load through a unit-stride box of a rank-3 array reads the array at the box's offset plus the coordinate. -/
theorem ld3 {e : EltTy} {A B C a b c : Nat} (x : Vec Ideal (⟨3, ![A, B, C]⟩ : Shape) e) (off : Fin 3 → Nat)
    (inb : ∀ ax, off ax + (![a, b, c] : Fin 3 → Nat) ax ≤ (⟨3, ![A, B, C]⟩ : Shape).size ax)
    (p : Fin a) (q : Fin b) (s : Fin c) (P : Fin A) (Q : Fin B) (S : Fin C)
    (h0 : P.val = off 0 + p.val) (h1 : Q.val = off 1 + q.val) (h2 : S.val = off 2 + s.val) :
    View.ld x (Rect.unit (s := (⟨3, ![A, B, C]⟩ : Shape)) off ![a, b, c] inb) (ix3 p q s) = x (ix3 P Q S) := by
  refine congrArg x (funext fun ax => Fin.ext ?_)
  match ax with
  | ⟨0, _⟩ => show off 0 + 1 * p.val = P.val; omega
  | ⟨1, _⟩ => show off 1 + 1 * q.val = Q.val; omega
  | ⟨2, _⟩ => show off 2 + 1 * s.val = S.val; omega

/-! ## Slab r of the stacked first-layer outputs -/

theorem ld_h0 (x : Vec Ideal S4x2000x128 .bf16) (j : Fin 2000) (g : Fin 128) :
    View.ld x Gen.r1_3 (ix3 (0 : Fin 1) j g) = x (ix3 (0 : Fin 4) j g) :=
  ld3 x _ _ 0 j g 0 j g rfl (by show j.val = 0 + j.val; omega) (by show g.val = 0 + g.val; omega)
theorem ld_h1 (x : Vec Ideal S4x2000x128 .bf16) (j : Fin 2000) (g : Fin 128) :
    View.ld x Gen.r1_6 (ix3 (0 : Fin 1) j g) = x (ix3 (1 : Fin 4) j g) :=
  ld3 x _ _ 0 j g 1 j g rfl (by show j.val = 0 + j.val; omega) (by show g.val = 0 + g.val; omega)
theorem ld_h2 (x : Vec Ideal S4x2000x128 .bf16) (j : Fin 2000) (g : Fin 128) :
    View.ld x Gen.r1_9 (ix3 (0 : Fin 1) j g) = x (ix3 (2 : Fin 4) j g) :=
  ld3 x _ _ 0 j g 2 j g rfl (by show j.val = 0 + j.val; omega) (by show g.val = 0 + g.val; omega)
theorem ld_h3 (x : Vec Ideal S4x2000x128 .bf16) (j : Fin 2000) (g : Fin 128) :
    View.ld x Gen.r1_12 (ix3 (0 : Fin 1) j g) = x (ix3 (3 : Fin 4) j g) :=
  ld3 x _ _ 0 j g 3 j g rfl (by show j.val = 0 + j.val; omega) (by show g.val = 0 + g.val; omega)

/-! ## Row r of a stack of per-relation rows -/

theorem ld_p0 (x : Vec Ideal S4x1x128 .f32) (g : Fin 128) :
    View.ld x Gen.r1_4 (ix3 (0 : Fin 1) (0 : Fin 1) g) = x (ix3 (0 : Fin 4) (0 : Fin 1) g) :=
  ld3 x _ _ 0 0 g 0 0 g rfl rfl (by show g.val = 0 + g.val; omega)
theorem ld_p1 (x : Vec Ideal S4x1x128 .f32) (g : Fin 128) :
    View.ld x Gen.r1_7 (ix3 (0 : Fin 1) (0 : Fin 1) g) = x (ix3 (1 : Fin 4) (0 : Fin 1) g) :=
  ld3 x _ _ 0 0 g 1 0 g rfl rfl (by show g.val = 0 + g.val; omega)
theorem ld_p2 (x : Vec Ideal S4x1x128 .f32) (g : Fin 128) :
    View.ld x Gen.r1_10 (ix3 (0 : Fin 1) (0 : Fin 1) g) = x (ix3 (2 : Fin 4) (0 : Fin 1) g) :=
  ld3 x _ _ 0 0 g 2 0 g rfl rfl (by show g.val = 0 + g.val; omega)
theorem ld_p3 (x : Vec Ideal S4x1x128 .f32) (g : Fin 128) :
    View.ld x Gen.r1_13 (ix3 (0 : Fin 1) (0 : Fin 1) g) = x (ix3 (3 : Fin 4) (0 : Fin 1) g) :=
  ld3 x _ _ 0 0 g 3 0 g rfl rfl (by show g.val = 0 + g.val; omega)

/-! ## Matrix r of the stacked second weights -/

theorem ld_w0 (x : Vec Ideal S4x128x128 .f32) (g k : Fin 128) :
    View.ld x Gen.r1_5 (ix3 (0 : Fin 1) g k) = x (ix3 (0 : Fin 4) g k) :=
  ld3 x _ _ 0 g k 0 g k rfl (by show g.val = 0 + g.val; omega) (by show k.val = 0 + k.val; omega)
theorem ld_w1 (x : Vec Ideal S4x128x128 .f32) (g k : Fin 128) :
    View.ld x Gen.r1_8 (ix3 (0 : Fin 1) g k) = x (ix3 (1 : Fin 4) g k) :=
  ld3 x _ _ 0 g k 1 g k rfl (by show g.val = 0 + g.val; omega) (by show k.val = 0 + k.val; omega)
theorem ld_w2 (x : Vec Ideal S4x128x128 .f32) (g k : Fin 128) :
    View.ld x Gen.r1_11 (ix3 (0 : Fin 1) g k) = x (ix3 (2 : Fin 4) g k) :=
  ld3 x _ _ 0 g k 2 g k rfl (by show g.val = 0 + g.val; omega) (by show k.val = 0 + k.val; omega)
theorem ld_w3 (x : Vec Ideal S4x128x128 .f32) (g k : Fin 128) :
    View.ld x Gen.r1_14 (ix3 (0 : Fin 1) g k) = x (ix3 (3 : Fin 4) g k) :=
  ld3 x _ _ 0 g k 3 g k rfl (by show g.val = 0 + g.val; omega) (by show k.val = 0 + k.val; omega)

/-! ## The blocks loaded whole -/

theorem ld_x (x : Vec Ideal S2000x128 .f32) (i : S2000x128.Idx) : View.ld x Gen.r1_0 i = x i :=
  congrFun (View.ld_unit_zero hz2 _ x) i
theorem ld_ws (x : Vec Ideal S128x128 .f32) (i : S128x128.Idx) : View.ld x Gen.r1_1 i = x i :=
  congrFun (View.ld_unit_zero hz2 _ x) i
theorem ld_bs (x : Vec Ideal S1x128 .f32) (i : S1x128.Idx) : View.ld x Gen.r1_2 i = x i :=
  congrFun (View.ld_unit_zero hz2 _ x) i

/-- A relation's contribution depends only on the values it is given. -/
theorem contrib_congr {h h' m m' v v' gm gm' bt bt' w w' : Fin 128 → EReal} {b b' : EReal}
    (eh : ∀ g, h g = h' g) (em : ∀ g, m g = m' g) (ev : ∀ g, v g = v' g) (eg : ∀ g, gm g = gm' g)
    (eb : ∀ g, bt g = bt' g) (ew : ∀ g, w g = w' g) (e : b = b') :
    contrib h m v gm bt w b = contrib h' m' v' gm' bt' w' b' := by
  obtain rfl := funext eh
  obtain rfl := funext em
  obtain rfl := funext ev
  obtain rfl := funext eg
  obtain rfl := funext eb
  obtain rfl := funext ew
  rw [e]

/-- Relation r's contribution to entry (j, k) of the tile, from the stacked blocks. -/
def relTerm (x1 : Vec Ideal S4x2000x128 .bf16) (x2 x3 x4 x5 : Vec Ideal S4x1x128 .f32) (x6 : Vec Ideal S4x128x128 .f32)
    (x7 : Vec Ideal S4x1x128 .f32) (r : Fin 4) (j : Fin 2000) (k : Fin 128) : EReal :=
  contrib (fun g => x1 (ix3 r j g)) (fun g => x2 (ix3 r (0 : Fin 1) g)) (fun g => x3 (ix3 r (0 : Fin 1) g))
    (fun g => x4 (ix3 r (0 : Fin 1) g)) (fun g => x5 (ix3 r (0 : Fin 1) g)) (fun g => x6 (ix3 r g k)) (x7 (ix3 r (0 : Fin 1) k))

/-- The stored tile at entry (j, k): the self-loop layer, then the four relations' layers added in order. -/
theorem out_apply (x0 : Vec Ideal S2000x128 .f32) (x1 : Vec Ideal S4x2000x128 .bf16) (x2 x3 x4 x5 : Vec Ideal S4x1x128 .f32)
    (x6 : Vec Ideal S4x128x128 .f32) (x7 : Vec Ideal S4x1x128 .f32) (x8 : Vec Ideal S128x128 .f32) (x9 : Vec Ideal S1x128 .f32)
    (j : Fin 2000) (k : Fin 128) :
    Gen.out1_10 x0 x1 x2 x3 x4 x5 x6 x7 x8 x9 (ix2 j k)
      = (((((∑ f : Fin 128, x0 (ix2 j f) * x8 (ix2 f k)) + x9 (ix2 (0 : Fin 1) k))
          + relTerm x1 x2 x3 x4 x5 x6 x7 0 j k) + relTerm x1 x2 x3 x4 x5 x6 x7 1 j k)
          + relTerm x1 x2 x3 x4 x5 x6 x7 2 j k) + relTerm x1 x2 x3 x4 x5 x6 x7 3 j k := by
  unfold Gen.out1_10
  rw [View.canon_unit_zero hz2]
  rw [rel3_apply, rel2_apply, rel1_apply, rel0_apply, pay2_apply]
  unfold relTerm
  refine congrArg₂ (· + ·) (congrArg₂ (· + ·) (congrArg₂ (· + ·) (congrArg₂ (· + ·)
    (congrArg₂ (· + ·) (Finset.sum_congr rfl fun f _ => ?_) (ld_bs x9 _)) ?_) ?_) ?_) ?_
  · rw [ld_x, ld_ws]
  · exact contrib_congr (fun g => ld_h0 x1 j g) (fun g => ld_p0 x2 g) (fun g => ld_p0 x3 g) (fun g => ld_p0 x4 g)
      (fun g => ld_p0 x5 g) (fun g => ld_w0 x6 g k) (ld_p0 x7 k)
  · exact contrib_congr (fun g => ld_h1 x1 j g) (fun g => ld_p1 x2 g) (fun g => ld_p1 x3 g) (fun g => ld_p1 x4 g)
      (fun g => ld_p1 x5 g) (fun g => ld_w1 x6 g k) (ld_p1 x7 k)
  · exact contrib_congr (fun g => ld_h2 x1 j g) (fun g => ld_p2 x2 g) (fun g => ld_p2 x3 g) (fun g => ld_p2 x4 g)
      (fun g => ld_p2 x5 g) (fun g => ld_w2 x6 g k) (ld_p2 x7 k)
  · exact contrib_congr (fun g => ld_h3 x1 j g) (fun g => ld_p3 x2 g) (fun g => ld_p3 x3 g) (fun g => ld_p3 x4 g)
      (fun g => ld_p3 x5 g) (fun g => ld_w3 x6 g k) (ld_p3 x7 k)

end Cert.KernelIdeal.Reg1

end
-- ==== Proof.Reg1Arr.lean ====
import proofs.«137962_j6932077216184_2_alg».proof.Proof.Reg1Blk

noncomputable section

open scoped BigOperators

namespace Cert.KernelIdeal.Reg1

open Idealize.ShloMosaic Idealize.ShloMosaic.ValueIdx Cert.KernelIdeal Cert.Rgin
open Idealize.ShloMosaic.Pipeline (Dat)
open Idealize.ShloMosaic.TcCoe

/-! # The second region's output array

Every grid point t writes back the tile of node rows 2000 t … 2000 t + 1999; the 25 tiles cover the 50000 rows, so
the array ends as one function of the arrays the region finds: the layer's output from the first layer's values and
their statistics. -/

variable (V : (c : Dev nD) → (b : Ref sig .tc) → Buf (Elt Ideal) ((c : Thread nD τ).loc b)) (c : Dev nD)

/-- The node features. -/
def X : Fin 50000 → Fin 128 → EReal := fun n f => V c main_arg0 (ix2 n f)
/-- The first layer's outputs, per relation. -/
def H : Fin 4 → Fin 50000 → Fin 128 → EReal := fun r n g => V c main_v23_0 (ix3 r n g)
/-- Their means over the nodes. -/
def Mn : Fin 4 → Fin 128 → EReal := fun r g => V c main_v27 (ix3 r (0 : Fin 1) g)
/-- Their variances. -/
def Vr : Fin 4 → Fin 128 → EReal := fun r g => V c main_v33 (ix3 r (0 : Fin 1) g)
/-- The normalisation's scale. -/
def Gm : Fin 4 → Fin 128 → EReal := fun r g => V c main_v19 (ix3 r (0 : Fin 1) g)
/-- The normalisation's shift. -/
def Bt : Fin 4 → Fin 128 → EReal := fun r g => V c main_v20 (ix3 r (0 : Fin 1) g)
/-- The second layer's weights. -/
def W2 : Fin 4 → Fin 128 → Fin 128 → EReal := fun r g k => V c main_arg9 (ix3 r g k)
/-- The second layer's biases. -/
def B2 : Fin 4 → Fin 128 → EReal := fun r k => V c main_v21 (ix3 r (0 : Fin 1) k)
/-- The self-loop weights. -/
def Ws : Fin 128 → Fin 128 → EReal := fun f k => V c main_arg3 (ix2 f k)
/-- The self-loop bias. -/
def Bs : Fin 128 → EReal := fun k => V c main_v22 (ix2 (0 : Fin 1) k)

/-- The block indices over the grid: the node features, the first layer's outputs and the output move one tile of
    rows per point; every other window stays on its one block. -/
theorem idx_facts : ∀ t : Fin cfg1.N,
    (win1_0.index t (0 : Fin 2) = t.val ∧ win1_0.index t (1 : Fin 2) = 0)
    ∧ (win1_1.index t (0 : Fin 3) = 0 ∧ win1_1.index t (1 : Fin 3) = t.val ∧ win1_1.index t (2 : Fin 3) = 0)
    ∧ (win1_2.index t (0 : Fin 3) = 0 ∧ win1_2.index t (1 : Fin 3) = 0 ∧ win1_2.index t (2 : Fin 3) = 0)
    ∧ (win1_3.index t (0 : Fin 3) = 0 ∧ win1_3.index t (1 : Fin 3) = 0 ∧ win1_3.index t (2 : Fin 3) = 0)
    ∧ (win1_4.index t (0 : Fin 3) = 0 ∧ win1_4.index t (1 : Fin 3) = 0 ∧ win1_4.index t (2 : Fin 3) = 0)
    ∧ (win1_5.index t (0 : Fin 3) = 0 ∧ win1_5.index t (1 : Fin 3) = 0 ∧ win1_5.index t (2 : Fin 3) = 0)
    ∧ (win1_6.index t (0 : Fin 3) = 0 ∧ win1_6.index t (1 : Fin 3) = 0 ∧ win1_6.index t (2 : Fin 3) = 0)
    ∧ (win1_7.index t (0 : Fin 3) = 0 ∧ win1_7.index t (1 : Fin 3) = 0 ∧ win1_7.index t (2 : Fin 3) = 0)
    ∧ (win1_8.index t (0 : Fin 2) = 0 ∧ win1_8.index t (1 : Fin 2) = 0)
    ∧ (win1_9.index t (0 : Fin 2) = 0 ∧ win1_9.index t (1 : Fin 2) = 0)
    ∧ (win1_10.index t (0 : Fin 2) = t.val ∧ win1_10.index t (1 : Fin 2) = 0) :=
  (by decide +kernel : ∀ t : Fin grid1.N, _)

/-! ## Each input block read where the tile's entry needs it -/

theorem blk0 (t : Fin cfg1.N) (j : Fin 2000) (f : Fin 128) (n : Fin 50000) (hn : n.val = t.val * 2000 + j.val) :
    Gen.iblk1 V c 0 t (ix2 j f) = X V c n f := by
  have e := (idx_facts t).1
  show V c main_arg0 (((cfg1.win 0).blk t).view.emb (ix2 j f)) = V c main_arg0 (ix2 n f)
  refine congrArg (V c main_arg0) (funext fun a => Fin.ext ?_)
  match a with
  | ⟨0, _⟩ => show win1_0.index t (0 : Fin 2) * 2000 + 1 * j.val = n.val; omega
  | ⟨1, _⟩ => show win1_0.index t (1 : Fin 2) * 128 + 1 * f.val = f.val; omega

theorem blk1 (t : Fin cfg1.N) (r : Fin 4) (j : Fin 2000) (g : Fin 128) (n : Fin 50000) (hn : n.val = t.val * 2000 + j.val) :
    Gen.iblk1 V c 1 t (ix3 r j g) = H V c r n g := by
  have e := (idx_facts t).2.1
  show V c main_v23_0 (((cfg1.win 1).blk t).view.emb (ix3 r j g)) = V c main_v23_0 (ix3 r n g)
  refine congrArg (V c main_v23_0) (funext fun a => Fin.ext ?_)
  match a with
  | ⟨0, _⟩ => show win1_1.index t (0 : Fin 3) * 4 + 1 * r.val = r.val; omega
  | ⟨1, _⟩ => show win1_1.index t (1 : Fin 3) * 2000 + 1 * j.val = n.val; omega
  | ⟨2, _⟩ => show win1_1.index t (2 : Fin 3) * 128 + 1 * g.val = g.val; omega

theorem blk2 (t : Fin cfg1.N) (r : Fin 4) (g : Fin 128) :
    Gen.iblk1 V c 2 t (ix3 r (0 : Fin 1) g) = Mn V c r g := by
  have e := (idx_facts t).2.2.1
  show V c main_v27 (((cfg1.win 2).blk t).view.emb (ix3 r (0 : Fin 1) g)) = V c main_v27 (ix3 r (0 : Fin 1) g)
  refine congrArg (V c main_v27) (funext fun a => Fin.ext ?_)
  match a with
  | ⟨0, _⟩ => show win1_2.index t (0 : Fin 3) * 4 + 1 * r.val = r.val; omega
  | ⟨1, _⟩ => show win1_2.index t (1 : Fin 3) * 1 + 1 * 0 = 0; omega
  | ⟨2, _⟩ => show win1_2.index t (2 : Fin 3) * 128 + 1 * g.val = g.val; omega

theorem blk3 (t : Fin cfg1.N) (r : Fin 4) (g : Fin 128) :
    Gen.iblk1 V c 3 t (ix3 r (0 : Fin 1) g) = Vr V c r g := by
  have e := (idx_facts t).2.2.2.1
  show V c main_v33 (((cfg1.win 3).blk t).view.emb (ix3 r (0 : Fin 1) g)) = V c main_v33 (ix3 r (0 : Fin 1) g)
  refine congrArg (V c main_v33) (funext fun a => Fin.ext ?_)
  match a with
  | ⟨0, _⟩ => show win1_3.index t (0 : Fin 3) * 4 + 1 * r.val = r.val; omega
  | ⟨1, _⟩ => show win1_3.index t (1 : Fin 3) * 1 + 1 * 0 = 0; omega
  | ⟨2, _⟩ => show win1_3.index t (2 : Fin 3) * 128 + 1 * g.val = g.val; omega

theorem blk4 (t : Fin cfg1.N) (r : Fin 4) (g : Fin 128) :
    Gen.iblk1 V c 4 t (ix3 r (0 : Fin 1) g) = Gm V c r g := by
  have e := (idx_facts t).2.2.2.2.1
  show V c main_v19 (((cfg1.win 4).blk t).view.emb (ix3 r (0 : Fin 1) g)) = V c main_v19 (ix3 r (0 : Fin 1) g)
  refine congrArg (V c main_v19) (funext fun a => Fin.ext ?_)
  match a with
  | ⟨0, _⟩ => show win1_4.index t (0 : Fin 3) * 4 + 1 * r.val = r.val; omega
  | ⟨1, _⟩ => show win1_4.index t (1 : Fin 3) * 1 + 1 * 0 = 0; omega
  | ⟨2, _⟩ => show win1_4.index t (2 : Fin 3) * 128 + 1 * g.val = g.val; omega

theorem blk5 (t : Fin cfg1.N) (r : Fin 4) (g : Fin 128) :
    Gen.iblk1 V c 5 t (ix3 r (0 : Fin 1) g) = Bt V c r g := by
  have e := (idx_facts t).2.2.2.2.2.1
  show V c main_v20 (((cfg1.win 5).blk t).view.emb (ix3 r (0 : Fin 1) g)) = V c main_v20 (ix3 r (0 : Fin 1) g)
  refine congrArg (V c main_v20) (funext fun a => Fin.ext ?_)
  match a with
  | ⟨0, _⟩ => show win1_5.index t (0 : Fin 3) * 4 + 1 * r.val = r.val; omega
  | ⟨1, _⟩ => show win1_5.index t (1 : Fin 3) * 1 + 1 * 0 = 0; omega
  | ⟨2, _⟩ => show win1_5.index t (2 : Fin 3) * 128 + 1 * g.val = g.val; omega

theorem blk6 (t : Fin cfg1.N) (r : Fin 4) (g k : Fin 128) :
    Gen.iblk1 V c 6 t (ix3 r g k) = W2 V c r g k := by
  have e := (idx_facts t).2.2.2.2.2.2.1
  show V c main_arg9 (((cfg1.win 6).blk t).view.emb (ix3 r g k)) = V c main_arg9 (ix3 r g k)
  refine congrArg (V c main_arg9) (funext fun a => Fin.ext ?_)
  match a with
  | ⟨0, _⟩ => show win1_6.index t (0 : Fin 3) * 4 + 1 * r.val = r.val; omega
  | ⟨1, _⟩ => show win1_6.index t (1 : Fin 3) * 128 + 1 * g.val = g.val; omega
  | ⟨2, _⟩ => show win1_6.index t (2 : Fin 3) * 128 + 1 * k.val = k.val; omega

theorem blk7 (t : Fin cfg1.N) (r : Fin 4) (g : Fin 128) :
    Gen.iblk1 V c 7 t (ix3 r (0 : Fin 1) g) = B2 V c r g := by
  have e := (idx_facts t).2.2.2.2.2.2.2.1
  show V c main_v21 (((cfg1.win 7).blk t).view.emb (ix3 r (0 : Fin 1) g)) = V c main_v21 (ix3 r (0 : Fin 1) g)
  refine congrArg (V c main_v21) (funext fun a => Fin.ext ?_)
  match a with
  | ⟨0, _⟩ => show win1_7.index t (0 : Fin 3) * 4 + 1 * r.val = r.val; omega
  | ⟨1, _⟩ => show win1_7.index t (1 : Fin 3) * 1 + 1 * 0 = 0; omega
  | ⟨2, _⟩ => show win1_7.index t (2 : Fin 3) * 128 + 1 * g.val = g.val; omega

theorem blk8 (t : Fin cfg1.N) (f k : Fin 128) :
    Gen.iblk1 V c 8 t (ix2 f k) = Ws V c f k := by
  have e := (idx_facts t).2.2.2.2.2.2.2.2.1
  show V c main_arg3 (((cfg1.win 8).blk t).view.emb (ix2 f k)) = V c main_arg3 (ix2 f k)
  refine congrArg (V c main_arg3) (funext fun a => Fin.ext ?_)
  match a with
  | ⟨0, _⟩ => show win1_8.index t (0 : Fin 2) * 128 + 1 * f.val = f.val; omega
  | ⟨1, _⟩ => show win1_8.index t (1 : Fin 2) * 128 + 1 * k.val = k.val; omega

theorem blk9 (t : Fin cfg1.N) (k : Fin 128) :
    Gen.iblk1 V c 9 t (ix2 (0 : Fin 1) k) = Bs V c k := by
  have e := (idx_facts t).2.2.2.2.2.2.2.2.2.1
  show V c main_v22 (((cfg1.win 9).blk t).view.emb (ix2 (0 : Fin 1) k)) = V c main_v22 (ix2 (0 : Fin 1) k)
  refine congrArg (V c main_v22) (funext fun a => Fin.ext ?_)
  match a with
  | ⟨0, _⟩ => show win1_9.index t (0 : Fin 2) * 1 + 1 * 0 = 0; omega
  | ⟨1, _⟩ => show win1_9.index t (1 : Fin 2) * 128 + 1 * k.val = k.val; omega

/-! ## The tile that point t stores, as the layer's output on its rows -/

/-- Relation r's contribution from the blocks at point t is its term of the layer's output at node n = 2000 t + j. -/
theorem rel_eq (t : Fin cfg1.N) (r : Fin 4) (j : Fin 2000) (k : Fin 128) (n : Fin 50000) (hrow : n.val = t.val * 2000 + j.val) :
    relTerm (Gen.iblk1 V c 1 t) (Gen.iblk1 V c 2 t) (Gen.iblk1 V c 3 t) (Gen.iblk1 V c 4 t) (Gen.iblk1 V c 5 t)
        (Gen.iblk1 V c 6 t) (Gen.iblk1 V c 7 t) r j k
      = (∑ g : Fin 128, act (H V c) (Mn V c) (Vr V c) (Gm V c) (Bt V c) r n g * W2 V c r g k) + B2 V c r k := by
  unfold relTerm contrib
  refine congrArg₂ (· + ·) (Finset.sum_congr rfl fun g _ => ?_) (blk7 V c t r k)
  show hn (Gen.iblk1 V c 1 t (ix3 r j g)) (Gen.iblk1 V c 2 t (ix3 r (0 : Fin 1) g)) (Gen.iblk1 V c 3 t (ix3 r (0 : Fin 1) g))
      (Gen.iblk1 V c 4 t (ix3 r (0 : Fin 1) g)) (Gen.iblk1 V c 5 t (ix3 r (0 : Fin 1) g)) * Gen.iblk1 V c 6 t (ix3 r g k) = _
  rw [blk1 V c t r j g n hrow, blk2 V c t r g, blk3 V c t r g, blk4 V c t r g, blk5 V c t r g, blk6 V c t r g k]
  rfl

/-- Adding the four relations one after the other onto the self-loop term is adding their sum. -/
theorem assoc4 (b r0 r1 r2 r3 : EReal) : (((b + r0) + r1) + r2) + r3 = b + (r0 + r1 + r2 + r3) := by
  simp only [add_assoc]

/-- Entry (j, k) of the tile stored at point t is the layer's output at node n = 2000 t + j, feature k. -/
theorem tile_eq (t : Fin cfg1.N) (j : Fin 2000) (k : Fin 128) (n : Fin 50000) (hn : n.val = t.val * 2000 + j.val) :
    Gen.out1_10 (Gen.iblk1 V c 0 t) (Gen.iblk1 V c 1 t) (Gen.iblk1 V c 2 t) (Gen.iblk1 V c 3 t) (Gen.iblk1 V c 4 t)
        (Gen.iblk1 V c 5 t) (Gen.iblk1 V c 6 t) (Gen.iblk1 V c 7 t) (Gen.iblk1 V c 8 t) (Gen.iblk1 V c 9 t) (ix2 j k)
      = out (X V c) (Ws V c) (Bs V c) (act (H V c) (Mn V c) (Vr V c) (Gm V c) (Bt V c)) (W2 V c) (B2 V c) n k := by
  refine (out_apply _ _ _ _ _ _ _ _ _ _ j k).trans ?_
  rw [rel_eq V c t 0 j k n hn, rel_eq V c t 1 j k n hn, rel_eq V c t 2 j k n hn, rel_eq V c t 3 j k n hn]
  unfold Cert.Rgin.out
  rw [Fin.sum_univ_four]
  refine (assoc4 _ _ _ _ _).trans ?_
  refine congrArg₂ (· + ·) (congrArg₂ (· + ·) (Finset.sum_congr rfl fun f _ => ?_) (blk9 V c t k)) rfl
  rw [blk0 V c t j f n hn, blk8 V c t f k]

/-- The array the region leaves: the layer's output, node by node and feature by feature. -/
def G : S50000x128.Idx → EReal := fun i =>
  out (X V c) (Ws V c) (Bs V c) (act (H V c) (Mn V c) (Vr V c) (Gm V c) (Bt V c)) (W2 V c) (B2 V c) (i 0) (i 1)

/-- What point t writes back is block t of that array. -/
theorem flushed_eq (t : Fin cfg1.N) :
    (Gen.dat1 (F := Ideal) V c).flushed 10 t = ((cfg1.win 10).blk t).view.read (Elt Ideal) (G V c) := by
  show (cfg1.win 10).cut (grid1.coords t) ((Gen.dat1 V c).after 10 t) = _
  rw [Gen.after1_10]
  funext y
  obtain ⟨j, k, rfl⟩ : ∃ (j : Fin 2000) (k : Fin 128), y = ix2 j k := ⟨y 0, y 1, eq_ix2 y⟩
  have e := (idx_facts t).2.2.2.2.2.2.2.2.2.2
  have ht : t.val < 25 := lt_of_lt_of_eq t.isLt Gen.N_1
  have hlt : t.val * 2000 + j.val < 50000 := by have := j.isLt; omega
  have hemb : ((cfg1.win 10).blk t).view.emb (ix2 j k) = ix2 (⟨t.val * 2000 + j.val, hlt⟩ : Fin 50000) k := by
    funext a; apply Fin.ext
    match a with
    | ⟨0, _⟩ => show win1_10.index t (0 : Fin 2) * 2000 + 1 * j.val = t.val * 2000 + j.val; omega
    | ⟨1, _⟩ => show win1_10.index t (1 : Fin 2) * 128 + 1 * k.val = k.val; omega
  show Gen.out1_10 (Gen.iblk1 V c 0 t) (Gen.iblk1 V c 1 t) (Gen.iblk1 V c 2 t) (Gen.iblk1 V c 3 t) (Gen.iblk1 V c 4 t)
      (Gen.iblk1 V c 5 t) (Gen.iblk1 V c 6 t) (Gen.iblk1 V c 7 t) (Gen.iblk1 V c 8 t) (Gen.iblk1 V c 9 t) (ix2 j k)
    = G V c (((cfg1.win 10).blk t).view.emb (ix2 j k))
  rw [hemb]
  exact tile_eq V c t j k ⟨_, hlt⟩ rfl

/-- An index of the array is in point t's block iff each coordinate is in the block's range on its axis. -/
theorem mem_blk (t : Fin cfg1.N) (i : S50000x128.Idx) :
    i ∈ ((cfg1.win 10).blk t).view.set ↔ ∀ a : Fin 2, win1_10.index t a * S2000x128.size a ≤ (i a).val
      ∧ (i a).val < win1_10.index t a * S2000x128.size a + S2000x128.size a := by
  show i ∈ ((View.whole main_v34).slice (win1_10.rect t)).set ↔ _
  rw [View.set_slice_whole, Rect.mem_set_unit]
  exact Iff.rfl

/-- Every index of the array is in the block of the point its node row falls in. -/
theorem cover (i : S50000x128.Idx) :
    ∃ t : Fin cfg1.N, (cfg1.win 10).flush t = true ∧ i ∈ ((cfg1.win 10).blk t).view.set := by
  have hi0 : (i 0).val < 50000 := (i 0).isLt
  have hi1 : (i 1).val < 128 := (i 1).isLt
  obtain ⟨t, ht⟩ : ∃ t : Fin cfg1.N, t.val = (i 0).val / 2000 :=
    ⟨⟨(i 0).val / 2000, lt_of_lt_of_eq (by omega : (i 0).val / 2000 < 25) Gen.N_1.symm⟩, rfl⟩
  have e := (idx_facts t).2.2.2.2.2.2.2.2.2.2
  refine ⟨t, Gen.flush1_10 t, ?_⟩
  rw [mem_blk]
  intro a
  match a with
  | ⟨0, _⟩ =>
    show win1_10.index t (0 : Fin 2) * 2000 ≤ (i 0).val ∧ (i 0).val < win1_10.index t (0 : Fin 2) * 2000 + 2000
    omega
  | ⟨1, _⟩ =>
    show win1_10.index t (1 : Fin 2) * 128 ≤ (i 1).val ∧ (i 1).val < win1_10.index t (1 : Fin 2) * 128 + 128
    omega

/-- THE OUTPUT ARRAY after all 25 points have written back: the layer's output from the first layer's values, their
    means and variances, the normalisation's and the second layer's parameters, and the self-loop layer. -/
theorem arr10 : (Gen.dat1 (F := Ideal) V c).arrAt 10 cfg1.N
      = fun i => out (X V c) (Ws V c) (Bs V c) (act (H V c) (Mn V c) (Vr V c) (Gm V c) (Bt V c)) (W2 V c) (B2 V c) (i 0) (i 1) :=
  (Gen.dat1 V c).arrAt_eq_of_cover 10 (G V c) (fun t _ => flushed_eq V c t) (cover)

end Cert.KernelIdeal.Reg1

end
-- ==== Proof.LibSumIndex.lean ====
/-
  Finite sums re-indexed, in any additive commutative monoid (so on the extended reals with no finiteness):

  * `sum_blocks`: a sum over `Fin N` with `N = J * B` is the double sum over its `J` consecutive blocks of length
    `B`, position `a * B + b` — what joins a sum over one long axis (a flattened `x.reshape(n, -1)`, or all the rows of
    an array) to the same sum taken block by block (a grid walking the axis, or the axis split in two);
  * `sum_idx4`, `sum_idx1`: a sum over the index set of a rank-4 (rank-1) shape is the iterated sum over its
    coordinates, with the index rebuilt by `ix4` (`ix1`) — the companions of the library's `sum_idx2`.
-/
import Idealize.ShloMosaic.Lib.ValueIdx

noncomputable section

open scoped BigOperators

namespace Cert.LibSumIndex

open Idealize.ShloMosaic Idealize.ShloMosaic.ValueIdx

/-- A sum over the first `J * B` indices is the sum over its `J` consecutive blocks of length `B`. -/
theorem sum_blocks {M : Type*} [AddCommMonoid M] (J B N : ℕ) (hN : J * B = N) (f : Fin N → M) :
    ∑ k, f k = ∑ a : Fin J, ∑ b : Fin B, f ⟨a.val * B + b.val, by
      subst hN
      calc a.val * B + b.val < a.val * B + B := Nat.add_lt_add_left b.isLt _
        _ = (a.val + 1) * B := (Nat.succ_mul _ _).symm
        _ ≤ J * B := Nat.mul_le_mul_right _ a.isLt⟩ := by
  subst hN
  rw [← Equiv.sum_comp finProdFinEquiv f, Fintype.sum_prod_type]
  refine Finset.sum_congr rfl fun a _ => Finset.sum_congr rfl fun b _ => congrArg f (Fin.ext ?_)
  show b.val + B * a.val = a.val * B + b.val
  rw [Nat.mul_comm, Nat.add_comm]

/-- A rank-4 index set is the product of its four coordinate ranges … -/
def idxEquiv4 {n0 n1 n2 n3 : Nat} : (⟨4, ![n0, n1, n2, n3]⟩ : Shape).Idx ≃ Fin n0 × Fin n1 × Fin n2 × Fin n3 where
  toFun i := (i 0, i 1, i 2, i 3)
  invFun p := ix4 p.1 p.2.1 p.2.2.1 p.2.2.2
  left_inv i := (eq_ix4 i).symm
  right_inv _ := rfl

/-- … so a sum over it is the fourfold sum over the coordinates. -/
theorem sum_idx4 {M : Type*} [AddCommMonoid M] {n0 n1 n2 n3 : Nat} (f : (⟨4, ![n0, n1, n2, n3]⟩ : Shape).Idx → M) :
    ∑ i, f i = ∑ a : Fin n0, ∑ b : Fin n1, ∑ c : Fin n2, ∑ d : Fin n3, f (ix4 a b c d) := by
  rw [← Equiv.sum_comp (idxEquiv4 (n0 := n0) (n1 := n1) (n2 := n2) (n3 := n3)).symm f, Fintype.sum_prod_type]
  refine Finset.sum_congr rfl fun a _ => ?_
  rw [Fintype.sum_prod_type]
  refine Finset.sum_congr rfl fun b _ => ?_
  rw [Fintype.sum_prod_type]
  rfl

/-- A rank-1 index set is its coordinate range, so a sum over it is the sum over the coordinate. -/
theorem sum_idx1 {M : Type*} [AddCommMonoid M] {n : Nat} (f : (⟨1, ![n]⟩ : Shape).Idx → M) :
    ∑ i, f i = ∑ a : Fin n, f (ix1 a) := by
  let e : (⟨1, ![n]⟩ : Shape).Idx ≃ Fin n :=
    ⟨fun i => i 0, fun a => ix1 a, fun i => (eq_ix1 i).symm, fun _ => rfl⟩
  rw [← Equiv.sum_comp e.symm f]
  rfl

end Cert.LibSumIndex

end
-- ==== Proof.KValue.lean ====
/-
  What the kernel program's result buffer holds: the layer with the variance by moments.

  The second launch's output array is, entry by entry, the self-loop layer plus the sum over the relations of
  the second layer of the activations, over what that launch finds in its inputs. Those are: the node
  features and the weights as launched; the hidden layer the first launch wrote, which is the first linear
  layer of the arguments; the mean array, whose sum over the 25 tiles of the per-tile sums over 2000 rows
  is the sum over all 50000 nodes; and the variance array, the same regrouping for the squares, minus the
  squared mean, clamped at zero.
-/
import proofs.«137962_j6932077216184_2_alg».proof.Proof.KBridge
import proofs.«137962_j6932077216184_2_alg».proof.Proof.Reg0Arr
import proofs.«137962_j6932077216184_2_alg».proof.Proof.Reg1Arr
import proofs.«137962_j6932077216184_2_alg».proof.Proof.LibSumIndex

noncomputable section

open scoped BigOperators

namespace Cert.KernelIdeal.KValue

open Idealize.ShloMosaic Idealize.ShloMosaic.TcCoe Idealize.ShloMosaic.ValueIdx Idealize.SL.Sem
open Cert.KernelIdeal Cert.KernelIdeal.Gen Cert.KernelIdeal.KHost Cert.KernelIdeal.KRead Cert.KernelIdeal.KBridge Cert.Rgin

variable (m : (ℓ : Loc nD τ sig) → Buf (Elt Ideal) ℓ) (ρ : Dev nD → PrngReg) (c : Dev nD)

/-! The first launch's inputs are the arguments. -/

theorem X0 : Reg0.X (V1 m ρ) c = KArgs.x m c := funext fun n => funext fun f => x1 m ρ c n f
theorem A0 : Reg0.A (V1 m ρ) c = KArgs.agg m c := funext fun r => funext fun n => funext fun f => agg1 m ρ c r n f
theorem W0 : Reg0.W (V1 m ρ) c = KArgs.W1 m c := funext fun r => funext fun f => funext fun g => w1 m ρ c r f g
theorem B0 : Reg0.B (V1 m ρ) c = KArgs.b1 m c := funext fun r => funext fun g => b1 m ρ c r 0 g

/-- The hidden layer the second launch finds is the first linear layer of the arguments. -/
theorem hid3 (r : Fin 4) (n : Fin 50000) (g : Fin 128) :
    (V3 m ρ c main_v23_0 : S4x50000x128.Idx → EReal) (ix3 r n g) = KArgs.hid m c r n g := by
  rw [V3_v23_0, Reg0.arr4_apply, X0, A0, W0, B0]
  rfl

/-- A per-tile sum is the sum of the hidden layer over the tile's 2000 rows. -/
theorem sum3 (t : Fin 25) (r : Fin 4) (u : Fin 1) (g : Fin 128) :
    ((dat0 (V1 m ρ) c).arrAt 5 cfg0.N : S25x4x1x128.Idx → EReal) (ix4 t r u g)
      = ∑ j : Fin 2000, KArgs.hid m c r ⟨t.val * 2000 + j.val, by have := t.isLt; have := j.isLt; omega⟩ g := by
  rw [Reg0.arr5_apply, X0, A0, W0, B0]
  rfl

/-- A per-tile sum of squares likewise. -/
theorem sq3 (t : Fin 25) (r : Fin 4) (u : Fin 1) (g : Fin 128) :
    ((dat0 (V1 m ρ) c).arrAt 6 cfg0.N : S25x4x1x128.Idx → EReal) (ix4 t r u g)
      = ∑ j : Fin 2000, KArgs.hid m c r ⟨t.val * 2000 + j.val, by have := t.isLt; have := j.isLt; omega⟩ g
          * KArgs.hid m c r ⟨t.val * 2000 + j.val, by have := t.isLt; have := j.isLt; omega⟩ g := by
  rw [Reg0.arr6_apply, X0, A0, W0, B0]
  rfl

/-- The mean array is the mean of the hidden layer over all the nodes. -/
theorem mean3 (r : Fin 4) (u : Fin 1) (g : Fin 128) :
    (V3 m ρ c main_v27 : S4x1x128.Idx → EReal) (ix3 r u g) = mean (KArgs.hid m c) r g := by
  rw [V3_v27, meanOf_apply]
  simp only [sum3]
  exact congrArg (fun s => Ideal.div s cN) (Cert.LibSumIndex.sum_blocks 25 2000 50000 rfl (fun n => KArgs.hid m c r n g)).symm

/-- The variance array is the variance by moments of the hidden layer, clamped at zero. -/
theorem var3 (r : Fin 4) (u : Fin 1) (g : Fin 128) :
    (V3 m ρ c main_v33 : S4x1x128.Idx → EReal) (ix3 r u g) = varM (KArgs.hid m c) r g := by
  rw [V3_v33, varOf_apply]
  simp only [sum3, sq3]
  have e1 : (∑ t : Fin 25, ∑ j : Fin 2000, KArgs.hid m c r ⟨t.val * 2000 + j.val, by have := t.isLt; have := j.isLt; omega⟩ g)
      = ∑ n : Fin 50000, KArgs.hid m c r n g :=
    (Cert.LibSumIndex.sum_blocks 25 2000 50000 rfl (fun n => KArgs.hid m c r n g)).symm
  have e2 : (∑ t : Fin 25, ∑ j : Fin 2000, KArgs.hid m c r ⟨t.val * 2000 + j.val, by have := t.isLt; have := j.isLt; omega⟩ g
        * KArgs.hid m c r ⟨t.val * 2000 + j.val, by have := t.isLt; have := j.isLt; omega⟩ g)
      = ∑ n : Fin 50000, KArgs.hid m c r n g * KArgs.hid m c r n g :=
    (Cert.LibSumIndex.sum_blocks 25 2000 50000 rfl (fun n => KArgs.hid m c r n g * KArgs.hid m c r n g)).symm
  rw [e1, e2]
  rfl

/-- The kernel program's result buffer, entry by entry. -/
theorem value : (W4 m ρ c (Proc.devRef .tc main_v34) : S50000x128.Idx → EReal)
    = fun i => layerM (KArgs.x m c) (KArgs.agg m c) (KArgs.Ws m c) (KArgs.bs m c) (KArgs.W1 m c) (KArgs.b1 m c)
        (KArgs.gamma m c) (KArgs.beta m c) (KArgs.W2 m c) (KArgs.b2 m c) (i 0) (i 1) := by
  have hX : Reg1.X (V3 m ρ) c = KArgs.x m c := funext fun n => funext fun f => x3 m ρ c n f
  have hH : Reg1.H (V3 m ρ) c = KArgs.hid m c := funext fun r => funext fun n => funext fun g => hid3 m ρ c r n g
  have hM : Reg1.Mn (V3 m ρ) c = mean (KArgs.hid m c) := funext fun r => funext fun g => mean3 m ρ c r 0 g
  have hV : Reg1.Vr (V3 m ρ) c = varM (KArgs.hid m c) := funext fun r => funext fun g => var3 m ρ c r 0 g
  have hG : Reg1.Gm (V3 m ρ) c = KArgs.gamma m c := funext fun r => funext fun g => gamma3 m ρ c r 0 g
  have hB : Reg1.Bt (V3 m ρ) c = KArgs.beta m c := funext fun r => funext fun g => beta3 m ρ c r 0 g
  have hW2 : Reg1.W2 (V3 m ρ) c = KArgs.W2 m c := funext fun r => funext fun g => funext fun k => w23 m ρ c r g k
  have hB2 : Reg1.B2 (V3 m ρ) c = KArgs.b2 m c := funext fun r => funext fun k => b23 m ρ c r 0 k
  have hWs : Reg1.Ws (V3 m ρ) c = KArgs.Ws m c := funext fun f => funext fun k => ws3 m ρ c f k
  have hBs : Reg1.Bs (V3 m ρ) c = KArgs.bs m c := funext fun k => bs3 m ρ c 0 k
  rw [show W4 m ρ c (Proc.devRef .tc main_v34) = (dat1 (V3 m ρ) c).arrAt 10 cfg1.N from W4_arr m ρ c 10,
    Reg1.arr10, hX, hH, hM, hV, hG, hB, hW2, hB2, hWs, hBs]
  rfl

end Cert.KernelIdeal.KValue

end
-- ==== Proof.lean ====
/-
  A relational graph layer, kernel against reference, on the extended reals.

  Both programs take node features x (50000 x 128), an edge list with a type in 0..3 per edge, and the
  parameters of, per relation r, a two-layer perceptron with a batch normalisation between its layers, plus a
  self-loop linear layer. Both first form, per relation, the neighbour sums agg_r (the same eighteen host
  operations: a gather of source rows and an accumulating scatter into 4 x 50000 rows), then

      h_r = (x + agg_r) . W1_r + b1_r,   a_r = max (((h_r - mean_r) * rsqrt (var_r + eps)) * gamma_r + beta_r) 0,
      out = x . Ws + bs + sum_r (a_r . W2_r + b2_r),

  with mean_r and var_r taken over the 50000 nodes. They differ in how they get there. The kernel program
  runs two grids of 25 tiles of 2000 nodes: the first computes h_r tile by tile together with each tile's
  column sums of h_r and of h_r^2; the host adds the 25 partial sums and forms the mean and the variance by
  moments, max (E[h^2] - E[h]^2) 0; the second normalises, applies the second layer and adds the self loop.
  The reference does everything on whole arrays and uses the centred variance E[(h - E[h])^2].

  Regrouping a sum over 50000 nodes into 25 blocks of 2000 is free in any commutative monoid, so the two
  means are one extended real whatever the inputs. The two variances agree exactly where every entry of h_r
  is a real number (at an infinity E[h^2] - E[h]^2 is an indeterminate difference). That is where the
  precondition is used: every float input is finite, a gathered row is a row of x, a scattered sum is a
  finite sum of such rows, so h_r is real-valued.

  Modules: Spec (the layer as one function of coordinates), VarLaw (the two variances agree on reals),
  Finite (the precondition read back; the neighbour sums are real), AggK / AggR (the shared first eighteen
  operations as one definition per program), RefTerm / RefOps / RefRun / RefValueOps / RefValue (the reference:
  its result as one term, its run, the term read at an index), KRun (the kernel program's run with the result
  named), KHost / KRead / KArgs / KBridge (what each launch finds in its inputs), Reg0Pay / Reg0Blk / Reg0Arr and
  Reg1Pay / Reg1Blk / Reg1Arr (each launch's output arrays, from blocks to arrays), KValue (the result buffer
  is the layer with the variance by moments), Claims (the five claims).
-/
import proofs.«137962_j6932077216184_2_alg».proof.Defs
import proofs.«137962_j6932077216184_2_alg».proof.Proof.Claims
import proofs.«137962_j6932077216184_2_alg».proof.Proof.KValue
import proofs.«137962_j6932077216184_2_alg».proof.Proof.Gen.Kernel
import proofs.«137962_j6932077216184_2_alg».proof.Proof.Gen.KernelIdeal
import proofs.«137962_j6932077216184_2_alg».proof.Proof.Gen.ReferenceIdeal
import proofs.«137962_j6932077216184_2_alg».proof.Proof.Gen.Pre_finite_inputs
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, trivial, Claims.algebraic_of Cert.KernelIdeal.KValue.value⟩

end Cert.Proof

end
